-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128 .f32) (main_arg4 : FVec F S128 .f32) (main_arg5 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S2x900000 : Shape := ⟨2, ![2, 900000]⟩
abbrev S900000 : Shape := ⟨1, ![900000]⟩
abbrev S1x900000 : Shape := ⟨2, ![1, 900000]⟩
abbrev S900000x1 : Shape := ⟨2, ![900000, 1]⟩
abbrev S5000x128 : Shape := ⟨2, ![5000, 128]⟩
abbrev S900000x128 : Shape := ⟨2, ![900000, 128]⟩
abbrev S1x128 : Shape := ⟨2, ![1, 128]⟩

abbrev nBuf : Space → Nat
  | .hbm => 142
  | .vmem => 21
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128, .f32⟩
  | 4 => ⟨S128, .f32⟩
  | 5 => ⟨S2x800000, .i32⟩
  | 6 => ⟨S50000, .i32⟩
  | 7 => ⟨S1x50000, .i32⟩
  | 8 => ⟨S1x50000, .i32⟩
  | 9 => ⟨S2x50000, .i32⟩
  | 10 => ⟨S2x850000, .i32⟩
  | 11 => ⟨S1x850000, .i32⟩
  | 12 => ⟨S850000, .i32⟩
  | 13 => ⟨S1x850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .i1⟩
  | 27 => ⟨S_, .f32⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S2x900000, .i32⟩
  | 56 => ⟨S_, .f32⟩
  | 57 => ⟨S50000, .f32⟩
  | 58 => ⟨S900000, .f32⟩
  | 59 => ⟨S1x900000, .i32⟩
  | 60 => ⟨S900000, .i32⟩
  | 61 => ⟨S1x900000, .i32⟩
  | 62 => ⟨S900000, .i32⟩
  | 63 => ⟨S_, .f32⟩
  | 64 => ⟨S50000, .f32⟩
  | 65 => ⟨S900000x1, .i32⟩
  | 66 => ⟨S50000, .f32⟩
  | 67 => ⟨S_, .f32⟩
  | 68 => ⟨S50000, .f32⟩
  | 69 => ⟨S50000, .i1⟩
  | 70 => ⟨S_, .f32⟩
  | 71 => ⟨S50000, .f32⟩
  | 72 => ⟨S50000, .i1⟩
  | 73 => ⟨S_, .f32⟩
  | 74 => ⟨S_, .f32⟩
  | 75 => ⟨S50000, .f32⟩
  | 76 => ⟨S50000, .f32⟩
  | 77 => ⟨S50000, .f32⟩
  | 78 => ⟨S_, .f32⟩
  | 79 => ⟨S_, .f32⟩
  | 80 => ⟨S50000, .f32⟩
  | 81 => ⟨S50000, .f32⟩
  | 82 => ⟨S_, .i32⟩
  | 83 => ⟨S900000, .i32⟩
  | 84 => ⟨S900000, .i1⟩
  | 85 => ⟨S_, .i32⟩
  | 86 => ⟨S900000, .i32⟩
  | 87 => ⟨S900000, .i32⟩
  | 88 => ⟨S900000, .i32⟩
  | 89 => ⟨S900000x1, .i32⟩
  | 90 => ⟨S900000, .f32⟩
  | 91 => ⟨S900000, .f32⟩
  | 92 => ⟨S_, .i32⟩
  | 93 => ⟨S900000, .i32⟩
  | 94 => ⟨S900000, .i1⟩
  | 95 => ⟨S_, .i32⟩
  | 96 => ⟨S900000, .i32⟩
  | 97 => ⟨S900000, .i32⟩
  | 98 => ⟨S900000, .i32⟩
  | 99 => ⟨S900000x1, .i32⟩
  | 100 => ⟨S900000, .f32⟩
  | 101 => ⟨S900000, .f32⟩
  | 102 => ⟨S128x128, .f32⟩
  | 103 => ⟨S50000x128, .bf16⟩
  | 104 => ⟨S900000x1, .f32⟩
  | 105 => ⟨S_, .i32⟩
  | 106 => ⟨S900000, .i32⟩
  | 107 => ⟨S900000, .i1⟩
  | 108 => ⟨S_, .i32⟩
  | 109 => ⟨S900000, .i32⟩
  | 110 => ⟨S900000, .i32⟩
  | 111 => ⟨S900000, .i32⟩
  | 112 => ⟨S900000x1, .i32⟩
  | 113 => ⟨S900000x128, .bf16⟩
  | 114 => ⟨S900000x128, .f32⟩
  | 115 => ⟨S900000x128, .f32⟩
  | 116 => ⟨S900000x128, .f32⟩
  | 117 => ⟨S_, .f32⟩
  | 118 => ⟨S50000x128, .f32⟩
  | 119 => ⟨S900000x1, .i32⟩
  | 120 => ⟨S50000x128, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S_, .f32⟩
  | 127 => ⟨S1x128, .f32⟩
  | _ => ⟨S50000x128, .f32⟩

abbrev hbmTy0_1 (i : Nat) : BufTy := match i % 128 with
  | 0 => ⟨S1x128, .f32⟩
  | 1 => ⟨S_, .f32⟩
  | 2 => ⟨S1x128, .f32⟩
  | 3 => ⟨S1x128, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S_, .f32⟩
  | 10 => ⟨S1x128, .f32⟩
  | 11 => ⟨S1x128, .f32⟩
  | 12 => ⟨S1x128, .f32⟩
  | 13 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .bf16⟩
  | .local _ .vmem, ⟨4, _⟩ => ⟨S5000x128, .bf16⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_call2_v0 : Ref sig .tc := ⟨.hbm, 74, rfl⟩
abbrev main_call2_v1 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_call3_v0 : Ref sig .tc := ⟨.hbm, 79, rfl⟩
abbrev main_call3_v1 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_c_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_16 : Ref sig .tc := ⟨.hbm, 92, rfl⟩
abbrev main_v60 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_c_19 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87_0 : Ref sig .tc := ⟨.hbm, 124, rfl⟩
abbrev main_v87_1 : Ref sig .tc := ⟨.hbm, 125, rfl⟩
abbrev main_cst_21 : Ref sig .tc := ⟨.hbm, 126, rfl⟩
abbrev main_v88 : Ref sig .tc := ⟨.hbm, 127, rfl⟩
abbrev main_v89 : Ref sig .tc := ⟨.hbm, 128, rfl⟩
abbrev main_cst_22 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_23 : Ref sig .tc := ⟨.hbm, 134, rfl⟩
abbrev main_v94 : Ref sig .tc := ⟨.hbm, 135, rfl⟩
abbrev main_v95 : Ref sig .tc := ⟨.hbm, 136, rfl⟩
abbrev main_cst_24 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  concatenates_S2x850000_S2x50000_S2x900000_d1 : Shape.Concatenates [S2x850000, S2x50000] S2x900000 1
  concatenates_S850000_S50000_S900000_d0 : Shape.Concatenates [S850000, S50000] S900000 0
  slices_S2x900000_S1x900000_0_0 : S2x900000.Slices ![0, 0] S1x900000
  shapeCasts_S1x900000_S900000 : S1x900000.ShapeCasts S900000
  slices_S2x900000_S1x900000_1_0 : S2x900000.Slices ![1, 0] S1x900000
  bcast_S900000_S900000x1_0 : S900000.BroadcastsInDim S900000x1 (![0] : Fin 1 → Fin S900000x1.rank)
  bcast_S_S900000 : S_.BroadcastsInDim S900000 (![] : Fin 0 → Fin S900000.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  bcast_S900000x1_S900000x128_0_1 : S900000x1.BroadcastsInDim S900000x128 (![0, 1] : Fin 2 → Fin S900000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S50000_S900000x1_S900000_n_0_0_1_wf : ScatterDims.WF S50000 S900000x1 S900000 [] [0] [0] 1
  gather_S50000_S900000x1_S900000_n_0_n_n_0_1_1_wf : GatherDims.WF S50000 S900000x1 S900000 [] [0] [] [0] [] 1 ![1]
  dot_S5000x128_S128x128_S5000x128_1_0_0_1_n_n_wf : DotDims.WF S5000x128 S128x128 S5000x128 [1] [0] [0] [1] [] []
  gather_S50000x128_S900000x1_S900000x128_1_0_n_n_0_1_1128_wf : GatherDims.WF S50000x128 S900000x1 S900000x128 [1] [0] [] [0] [] 1 ![1, 128]
  scatter_S50000x128_S900000x1_S900000x128_1_0_0_1_wf : ScatterDims.WF S50000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000_S900000x1_S900000_n_0_0_1 : ScatterDims S50000 S900000x1 S900000 where
  updateWindowDims := []
  insertedWindowDims := [0]
  scatterDimsToOperandDims := [0]
  indexVectorDim := 1
  wf := scatter_S50000_S900000x1_S900000_n_0_0_1_wf
def gather_S50000_S900000x1_S900000_n_0_n_n_0_1_1 : GatherDims S50000 S900000x1 S900000 where
  offsetDims := []
  collapsedSliceDims := [0]
  operandBatchingDims := []
  startIndicesBatchingDims := []
  startIndexMap := [0]
  indexVectorDim := 1
  sliceSizes := ![1]
  wf := gather_S50000_S900000x1_S900000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S900000x1_S900000x128_1_0_n_n_0_1_1128 : GatherDims S50000x128 S900000x1 S900000x128 where
  offsetDims := [1]
  collapsedSliceDims := [0]
  operandBatchingDims := []
  startIndicesBatchingDims := []
  startIndexMap := [0]
  indexVectorDim := 1
  sliceSizes := ![1, 128]
  wf := gather_S50000x128_S900000x1_S900000x128_1_0_n_n_0_1_1128_wf
def scatter_S50000x128_S900000x1_S900000x128_1_0_0_1 : ScatterDims S50000x128 S900000x1 S900000x128 where
  updateWindowDims := [1]
  insertedWindowDims := [0]
  scatterDimsToOperandDims := [0]
  indexVectorDim := 1
  wf := scatter_S50000x128_S900000x1_S900000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v68) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v69) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v83) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v84) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v87_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v87_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v83) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v84) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v85) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v86) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v89) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v98) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v99) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x50000 : Shape := ⟨2, ![1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S_ : Shape := ⟨0, ![]⟩
abbrev S850000x1 : Shape := ⟨2, ![850000, 1]⟩
abbrev S2x900000 : Shape := ⟨2, ![2, 900000]⟩
abbrev S900000 : Shape := ⟨1, ![900000]⟩
abbrev S1x900000 : Shape := ⟨2, ![1, 900000]⟩
abbrev S900000x1 : Shape := ⟨2, ![900000, 1]⟩
abbrev S900000x128 : Shape := ⟨2, ![900000, 128]⟩
abbrev S1x128 : Shape := ⟨2, ![1, 128]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128, .f32⟩
  | 4 => ⟨S128, .f32⟩
  | 5 => ⟨S2x800000, .i32⟩
  | 6 => ⟨S50000, .i32⟩
  | 7 => ⟨S1x50000, .i32⟩
  | 8 => ⟨S1x50000, .i32⟩
  | 9 => ⟨S2x50000, .i32⟩
  | 10 => ⟨S2x850000, .i32⟩
  | 11 => ⟨S1x850000, .i32⟩
  | 12 => ⟨S850000, .i32⟩
  | 13 => ⟨S1x850000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .i1⟩
  | 27 => ⟨S_, .f32⟩
  | 28 => ⟨S_, .f32⟩
  | 29 => ⟨S50000, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S2x900000, .i32⟩
  | 56 => ⟨S_, .f32⟩
  | 57 => ⟨S50000, .f32⟩
  | 58 => ⟨S900000, .f32⟩
  | 59 => ⟨S1x900000, .i32⟩
  | 60 => ⟨S900000, .i32⟩
  | 61 => ⟨S1x900000, .i32⟩
  | 62 => ⟨S900000, .i32⟩
  | 63 => ⟨S_, .f32⟩
  | 64 => ⟨S50000, .f32⟩
  | 65 => ⟨S900000x1, .i32⟩
  | 66 => ⟨S50000, .f32⟩
  | 67 => ⟨S_, .f32⟩
  | 68 => ⟨S50000, .f32⟩
  | 69 => ⟨S50000, .i1⟩
  | 70 => ⟨S_, .f32⟩
  | 71 => ⟨S50000, .f32⟩
  | 72 => ⟨S50000, .i1⟩
  | 73 => ⟨S_, .f32⟩
  | 74 => ⟨S_, .f32⟩
  | 75 => ⟨S50000, .f32⟩
  | 76 => ⟨S50000, .f32⟩
  | 77 => ⟨S50000, .f32⟩
  | 78 => ⟨S_, .f32⟩
  | 79 => ⟨S_, .f32⟩
  | 80 => ⟨S50000, .f32⟩
  | 81 => ⟨S50000, .f32⟩
  | 82 => ⟨S_, .i32⟩
  | 83 => ⟨S900000, .i32⟩
  | 84 => ⟨S900000, .i1⟩
  | 85 => ⟨S_, .i32⟩
  | 86 => ⟨S900000, .i32⟩
  | 87 => ⟨S900000, .i32⟩
  | 88 => ⟨S900000, .i32⟩
  | 89 => ⟨S900000x1, .i32⟩
  | 90 => ⟨S900000, .f32⟩
  | 91 => ⟨S900000, .f32⟩
  | 92 => ⟨S_, .i32⟩
  | 93 => ⟨S900000, .i32⟩
  | 94 => ⟨S900000, .i1⟩
  | 95 => ⟨S_, .i32⟩
  | 96 => ⟨S900000, .i32⟩
  | 97 => ⟨S900000, .i32⟩
  | 98 => ⟨S900000, .i32⟩
  | 99 => ⟨S900000x1, .i32⟩
  | 100 => ⟨S900000, .f32⟩
  | 101 => ⟨S900000, .f32⟩
  | 102 => ⟨S128x128, .f32⟩
  | 103 => ⟨S50000x128, .f32⟩
  | 104 => ⟨S900000x1, .f32⟩
  | 105 => ⟨S_, .i32⟩
  | 106 => ⟨S900000, .i32⟩
  | 107 => ⟨S900000, .i1⟩
  | 108 => ⟨S_, .i32⟩
  | 109 => ⟨S900000, .i32⟩
  | 110 => ⟨S900000, .i32⟩
  | 111 => ⟨S900000, .i32⟩
  | 112 => ⟨S900000x1, .i32⟩
  | 113 => ⟨S900000x128, .f32⟩
  | 114 => ⟨S900000x128, .f32⟩
  | 115 => ⟨S900000x128, .f32⟩
  | 116 => ⟨S_, .f32⟩
  | 117 => ⟨S50000x128, .f32⟩
  | 118 => ⟨S900000x1, .i32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S128, .f32⟩
  | 125 => ⟨S_, .f32⟩
  | 126 => ⟨S128, .f32⟩
  | 127 => ⟨S128, .f32⟩
  | _ => ⟨S50000x128, .f32⟩

abbrev hbmTy0_1 (i : Nat) : BufTy := match i % 128 with
  | 0 => ⟨S_, .i32⟩
  | 1 => ⟨S_, .f32⟩
  | 2 => ⟨S128, .f32⟩
  | 3 => ⟨S1x128, .f32⟩
  | 4 => ⟨S_, .f32⟩
  | 5 => ⟨S1x128, .f32⟩
  | 6 => ⟨S1x128, .f32⟩
  | 7 => ⟨S50000x128, .f32⟩
  | 8 => ⟨S50000x128, .f32⟩
  | 9 => ⟨S50000x128, .f32⟩
  | 10 => ⟨S_, .f32⟩
  | 11 => ⟨S_, .f32⟩
  | 12 => ⟨S_, .f32⟩
  | 13 => ⟨S_, .f32⟩
  | 14 => ⟨S128, .f32⟩
  | 15 => ⟨S128, .f32⟩
  | 16 => ⟨S128, .f32⟩
  | 17 => ⟨S_, .f32⟩
  | 18 => ⟨S_, .i1⟩
  | 19 => ⟨S_, .f32⟩
  | 20 => ⟨S_, .f32⟩
  | 21 => ⟨S128, .f32⟩
  | 22 => ⟨S128, .f32⟩
  | 23 => ⟨S1x128, .f32⟩
  | 24 => ⟨S50000x128, .f32⟩
  | 25 => ⟨S50000x128, .f32⟩
  | 26 => ⟨S_, .f32⟩
  | 27 => ⟨S128, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S1x128, .f32⟩
  | 37 => ⟨S50000x128, .f32⟩
  | 38 => ⟨S50000x128, .f32⟩
  | 39 => ⟨S_, .f32⟩
  | 40 => ⟨S_, .f32⟩
  | 41 => ⟨S50000x128, .f32⟩
  | 42 => ⟨S50000x128, .i1⟩
  | 43 => ⟨S_, .f32⟩
  | 44 => ⟨S50000x128, .f32⟩
  | 45 => ⟨S50000x128, .f32⟩
  | 46 => ⟨S50000x128, .f32⟩
  | 47 => ⟨S50000x128, .f32⟩
  | 48 => ⟨S_, .f32⟩
  | 49 => ⟨S_, .f32⟩
  | 50 => ⟨S50000x128, .f32⟩
  | 51 => ⟨S50000x128, .i1⟩
  | 52 => ⟨S_, .f32⟩
  | 53 => ⟨S50000x128, .f32⟩
  | 54 => ⟨S50000x128, .f32⟩
  | 55 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_call2_v0 : Ref sig .tc := ⟨.hbm, 74, rfl⟩
abbrev main_call2_v1 : Ref sig .tc := ⟨.hbm, 75, rfl⟩
abbrev main_v49 : Ref sig .tc := ⟨.hbm, 76, rfl⟩
abbrev main_v50 : Ref sig .tc := ⟨.hbm, 77, rfl⟩
abbrev main_cst_13 : Ref sig .tc := ⟨.hbm, 78, rfl⟩
abbrev main_call3_v0 : Ref sig .tc := ⟨.hbm, 79, rfl⟩
abbrev main_call3_v1 : Ref sig .tc := ⟨.hbm, 80, rfl⟩
abbrev main_v51 : Ref sig .tc := ⟨.hbm, 81, rfl⟩
abbrev main_c_14 : Ref sig .tc := ⟨.hbm, 82, rfl⟩
abbrev main_v52 : Ref sig .tc := ⟨.hbm, 83, rfl⟩
abbrev main_v53 : Ref sig .tc := ⟨.hbm, 84, rfl⟩
abbrev main_c_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_16 : Ref sig .tc := ⟨.hbm, 92, rfl⟩
abbrev main_v60 : Ref sig .tc := ⟨.hbm, 93, rfl⟩
abbrev main_v61 : Ref sig .tc := ⟨.hbm, 94, rfl⟩
abbrev main_c_17 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_c_19 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_20 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_cst_22 : Ref sig .tc := ⟨.hbm, 125, rfl⟩
abbrev main_v87 : Ref sig .tc := ⟨.hbm, 126, rfl⟩
abbrev main_v88 : Ref sig .tc := ⟨.hbm, 127, rfl⟩
abbrev main_c_23 : Ref sig .tc := ⟨.hbm, 128, rfl⟩
abbrev main_call4_cst : Ref sig .tc := ⟨.hbm, 129, rfl⟩
abbrev main_call4_v0 : Ref sig .tc := ⟨.hbm, 130, rfl⟩
abbrev main_call4_v1 : Ref sig .tc := ⟨.hbm, 131, rfl⟩
abbrev main_call4_cst_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_v6 : Ref sig .tc := ⟨.hbm, 137, rfl⟩
abbrev main_call4_v7 : Ref sig .tc := ⟨.hbm, 138, rfl⟩
abbrev main_call4_cst_1 : Ref sig .tc := ⟨.hbm, 139, rfl⟩
abbrev main_call4_v8 : Ref sig .tc := ⟨.hbm, 140, rfl⟩
abbrev main_call4_cst_2 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_cst_3 : Ref sig .tc := ⟨.hbm, 145, rfl⟩
abbrev main_call4_v12 : Ref sig .tc := ⟨.hbm, 146, rfl⟩
abbrev main_call4_cst_4 : Ref sig .tc := ⟨.hbm, 147, rfl⟩
abbrev main_call4_call0_v0 : Ref sig .tc := ⟨.hbm, 148, rfl⟩
abbrev main_call4_call0_v1 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_cst_24 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_cst_25 : Ref sig .tc := ⟨.hbm, 167, rfl⟩
abbrev main_call5_cst : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_call5_v3 : Ref sig .tc := ⟨.hbm, 172, rfl⟩
abbrev main_call5_v4 : Ref sig .tc := ⟨.hbm, 173, rfl⟩
abbrev main_v105 : Ref sig .tc := ⟨.hbm, 174, rfl⟩
abbrev main_v106 : Ref sig .tc := ⟨.hbm, 175, rfl⟩
abbrev main_cst_26 : Ref sig .tc := ⟨.hbm, 176, rfl⟩
abbrev main_call6_cst : Ref sig .tc := ⟨.hbm, 177, rfl⟩
abbrev main_call6_v0 : Ref sig .tc := ⟨.hbm, 178, rfl⟩
abbrev main_call6_v1 : Ref sig .tc := ⟨.hbm, 179, rfl⟩
abbrev main_call6_v2 : Ref sig .tc := ⟨.hbm, 180, rfl⟩
abbrev main_call6_v3 : Ref sig .tc := ⟨.hbm, 181, rfl⟩
abbrev main_call6_v4 : Ref sig .tc := ⟨.hbm, 182, rfl⟩
abbrev main_v107 : Ref sig .tc := ⟨.hbm, 183, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  concatenates_S1x50000_S1x50000_S2x50000_d0 : Shape.Concatenates [S1x50000, S1x50000] S2x50000 0
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  concatenates_S2x850000_S2x50000_S2x900000_d1 : Shape.Concatenates [S2x850000, S2x50000] S2x900000 1
  concatenates_S850000_S50000_S900000_d0 : Shape.Concatenates [S850000, S50000] S900000 0
  slices_S2x900000_S1x900000_0_0 : S2x900000.Slices ![0, 0] S1x900000
  shapeCasts_S1x900000_S900000 : S1x900000.ShapeCasts S900000
  slices_S2x900000_S1x900000_1_0 : S2x900000.Slices ![1, 0] S1x900000
  bcast_S900000_S900000x1_0 : S900000.BroadcastsInDim S900000x1 (![0] : Fin 1 → Fin S900000x1.rank)
  bcast_S_S900000 : S_.BroadcastsInDim S900000 (![] : Fin 0 → Fin S900000.rank)
  transposes_S128x128_S128x128_1_0 : S128x128.Transposes [1, 0] S128x128
  bcast_S900000x1_S900000x128_0_1 : S900000x1.BroadcastsInDim S900000x128 (![0, 1] : Fin 2 → Fin S900000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  scatter_S50000_S900000x1_S900000_n_0_0_1_wf : ScatterDims.WF S50000 S900000x1 S900000 [] [0] [0] 1
  gather_S50000_S900000x1_S900000_n_0_n_n_0_1_1_wf : GatherDims.WF S50000 S900000x1 S900000 [] [0] [] [0] [] 1 ![1]
  dot_S50000x128_S128x128_S50000x128_1_0_0_1_n_n_wf : DotDims.WF S50000x128 S128x128 S50000x128 [1] [0] [0] [1] [] []
  gather_S50000x128_S900000x1_S900000x128_1_0_n_n_0_1_1128_wf : GatherDims.WF S50000x128 S900000x1 S900000x128 [1] [0] [] [0] [] 1 ![1, 128]
  scatter_S50000x128_S900000x1_S900000x128_1_0_0_1_wf : ScatterDims.WF S50000x128 S900000x1 S900000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def scatter_S50000_S900000x1_S900000_n_0_0_1 : ScatterDims S50000 S900000x1 S900000 where
  updateWindowDims := []
  insertedWindowDims := [0]
  scatterDimsToOperandDims := [0]
  indexVectorDim := 1
  wf := scatter_S50000_S900000x1_S900000_n_0_0_1_wf
def gather_S50000_S900000x1_S900000_n_0_n_n_0_1_1 : GatherDims S50000 S900000x1 S900000 where
  offsetDims := []
  collapsedSliceDims := [0]
  operandBatchingDims := []
  startIndicesBatchingDims := []
  startIndexMap := [0]
  indexVectorDim := 1
  sliceSizes := ![1]
  wf := gather_S50000_S900000x1_S900000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S900000x1_S900000x128_1_0_n_n_0_1_1128 : GatherDims S50000x128 S900000x1 S900000x128 where
  offsetDims := [1]
  collapsedSliceDims := [0]
  operandBatchingDims := []
  startIndicesBatchingDims := []
  startIndexMap := [0]
  indexVectorDim := 1
  sliceSizes := ![1, 128]
  wf := gather_S50000x128_S900000x1_S900000x128_1_0_n_n_0_1_1128_wf
def scatter_S50000x128_S900000x1_S900000x128_1_0_0_1 : ScatterDims S50000x128 S900000x1 S900000x128 where
  updateWindowDims := [1]
  insertedWindowDims := [0]
  scatterDimsToOperandDims := [0]
  indexVectorDim := 1
  wf := scatter_S50000x128_S900000x1_S900000x128_1_0_0_1_wf

class Facts : Prop extends Facts₀ where

variable [Facts]
-- ==== Proof.KRun.lean ====
/-
  The idealized kernel's run with its result named: every weakly fair execution of the program from a memory with
  zero counters terminates, and in the final state the result array holds what the last segment boundary's
  contents hold at its buffer (the fold of the host stretches and of the three pipelines' write-backs over the launch
  memory), the argument arrays being unchanged.  The run is the segment chain of the program's frame, read at one
  more buffer.
-/
import proofs.«143204_j18743237280519_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, the result buffer read at the last boundary's contents and every argument as launched. -/
theorem run_result : θ_run defs (onTc (τ := τ) (main (F := F))) ⟨m, fun _ => 0, ρ⟩ (fun r => ∀ c : Dev nD,
      r.2.mem ((c.tc : Thread nD τ).loc main_v99) = W14 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v99 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c)⟩)

end Cert.KernelIdeal.Gen

end
-- ==== Proof.Edge.lean ====
/-
  The edge bookkeeping of the graph convolution, as one readable chain of the host operations both programs apply to
  the edge list `e : i32[2, 800000]` before any float input is touched.

  Self-loops are appended once (`ei1`, 850000 edges) to count the degrees `deg` of the source column, whose guarded
  inverse square roots `dis` weigh every edge by `dis[row] · dis[col]` (`w1`); self-loops of weight 2 are appended a
  second time (`ei2`, `w2`, 900000 edges), the weighted degrees `deg2` of the target column give `dis2`, and the
  symmetric normalisation is `norm = dis2[row2] · w2 · dis2[col2]`.  Reading an array at an index column first wraps
  negative indices by the extent (`wrap850`, `wrap900`), as x[idx] does.  The guarded inverse square root of a vector
  `d` is `where (d > 0) (rsqrt (where (d > 0) d 1)) 0` (`guardedRsqrt`).
-/
import proofs.«143204_j18743237280519_2_alg».proof.KernelIdeal
import proofs.«143204_j18743237280519_2_alg».proof.Proof.Gen.KernelIdeal

noncomputable section

namespace Cert.KernelIdeal.Edge

open Idealize.ShloMosaic Cert.KernelIdeal Cert.KernelIdeal.Facts₀

variable {F : FTy → Type} [FloatOps F]

/-- The two rows of self-loops: (k, k) for every node k. -/
def selfLoops : IVec S2x50000 32 :=
  concatenate S2x50000 0 [⟨S1x50000, broadcastInDim S1x50000 ![1] bcast_S50000_S1x50000_1 (iotaInDim S50000 32 0)⟩,
    ⟨S1x50000, broadcastInDim S1x50000 ![1] bcast_S50000_S1x50000_1 (iotaInDim S50000 32 0)⟩] concatenates_S1x50000_S1x50000_S2x50000_d0

/-- The edge list with one round of self-loops. -/
def ei1 (e : IVec S2x800000 32) : IVec S2x850000 32 :=
  concatenate S2x850000 1 [⟨S2x800000, e⟩, ⟨S2x50000, selfLoops⟩] concatenates_S2x800000_S2x50000_S2x850000_d1

/-- Its source row. -/
def row1 (e : IVec S2x800000 32) : IVec S850000 32 :=
  shapeCast S850000 (extractStridedSlice S1x850000 ![0, 0] (ei1 e) slices_S2x850000_S1x850000_0_0) shapeCasts_S1x850000_S850000
/-- Its target row. -/
def col1 (e : IVec S2x800000 32) : IVec S850000 32 :=
  shapeCast S850000 (extractStridedSlice S1x850000 ![1, 0] (ei1 e) slices_S2x850000_S1x850000_1_0) shapeCasts_S1x850000_S850000

/-- The guarded inverse square root: rsqrt of d where d > 0 (of 1 elsewhere, unused), and 0 where d ≤ 0. -/
def guardedRsqrt (d : FVec F S50000 .f32) : FVec F S50000 .f32 :=
  select (cmpf .ogt d (broadcastInDim S50000 ![] bcast_S_S50000 (constant S_ .f32 0x00000000#32)))
    (Host.rsqrt (select (cmpf .ogt d (broadcastInDim S50000 ![] bcast_S_S50000 (constant S_ .f32 0x00000000#32))) d
      (broadcastInDim S50000 ![] bcast_S_S50000 (id (constant S_ .f32 0x3F800000#32)))))
    (broadcastInDim S50000 ![] bcast_S_S50000 (id (constant S_ .f32 0x00000000#32)))

/-- The unweighted degrees of the source row. -/
def deg (e : IVec S2x800000 32) : FVec F S50000 .f32 :=
  Host.scatterAdd scatter_S50000_S850000x1_S850000_n_0_0_1 (broadcastInDim S50000 ![] bcast_S_S50000 (constant S_ .f32 0x00000000#32))
    (broadcastInDim S850000x1 ![0] bcast_S850000_S850000x1_0 (row1 e)) (broadcastInDim S850000 ![] bcast_S_S850000 (constant S_ .f32 0x3F800000#32))

/-- Their guarded inverse square roots. -/
def dis (e : IVec S2x800000 32) : FVec F S50000 .f32 := guardedRsqrt (deg e)

/-- An index vector over the 850000 edges with negative entries wrapped by 50000, as an index column. -/
def wrap850 (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The same over the 900000 edges. -/
def wrap900 (v : IVec S900000 32) : IVec S900000x1 32 :=
  broadcastInDim S900000x1 ![0] bcast_S900000_S900000x1_0
    (select (cmpi .slt v (broadcastInDim S900000 ![] bcast_S_S900000 (constantI S_ 32 0#32)))
      (addi v (broadcastInDim S900000 ![] bcast_S_S900000 (constantI S_ 32 50000#32))) v)

/-- The first-round edge weights dis[row] · dis[col]. -/
def w1 (e : IVec S2x800000 32) : FVec F S850000 .f32 :=
  mulf (Host.gather gather_S50000_S850000x1_S850000_n_0_n_n_0_1_1 (dis e) (wrap850 (row1 e)))
    (Host.gather gather_S50000_S850000x1_S850000_n_0_n_n_0_1_1 (dis e) (wrap850 (col1 e)))

/-- The edge list with two rounds of self-loops. -/
def ei2 (e : IVec S2x800000 32) : IVec S2x900000 32 :=
  concatenate S2x900000 1 [⟨S2x850000, ei1 e⟩, ⟨S2x50000, selfLoops⟩] concatenates_S2x850000_S2x50000_S2x900000_d1

/-- The second-round weights: w1 on the first 850000 edges, 2 on the new self-loops. -/
def w2 (e : IVec S2x800000 32) : FVec F S900000 .f32 :=
  concatenate S900000 0 [⟨S850000, w1 e⟩, ⟨S50000, broadcastInDim S50000 ![] bcast_S_S50000 (constant S_ .f32 0x40000000#32)⟩] concatenates_S850000_S50000_S900000_d0

/-- The final source row. -/
def row2 (e : IVec S2x800000 32) : IVec S900000 32 :=
  shapeCast S900000 (extractStridedSlice S1x900000 ![0, 0] (ei2 e) slices_S2x900000_S1x900000_0_0) shapeCasts_S1x900000_S900000
/-- The final target row. -/
def col2 (e : IVec S2x800000 32) : IVec S900000 32 :=
  shapeCast S900000 (extractStridedSlice S1x900000 ![1, 0] (ei2 e) slices_S2x900000_S1x900000_1_0) shapeCasts_S1x900000_S900000

/-- The weighted degrees of the target row. -/
def deg2 (e : IVec S2x800000 32) : FVec F S50000 .f32 :=
  Host.scatterAdd scatter_S50000_S900000x1_S900000_n_0_0_1 (broadcastInDim S50000 ![] bcast_S_S50000 (constant S_ .f32 0x00000000#32))
    (broadcastInDim S900000x1 ![0] bcast_S900000_S900000x1_0 (col2 e)) (w2 e)

/-- Their guarded inverse square roots. -/
def dis2 (e : IVec S2x800000 32) : FVec F S50000 .f32 := guardedRsqrt (deg2 e)

/-- The symmetric normalisation of every edge: dis2[row2] · w2 · dis2[col2]. -/
def norm (e : IVec S2x800000 32) : FVec F S900000 .f32 :=
  mulf (mulf (Host.gather gather_S50000_S900000x1_S900000_n_0_n_n_0_1_1 (dis2 e) (wrap900 (row2 e))) (w2 e))
    (Host.gather gather_S50000_S900000x1_S900000_n_0_n_n_0_1_1 (dis2 e) (wrap900 (col2 e)))

/-- The index column the projected rows are gathered at: the source row, wrapped. -/
def src (e : IVec S2x800000 32) : IVec S900000x1 32 := wrap900 (row2 e)

/-- The index column the messages are scattered at: the target row. -/
def dst (e : IVec S2x800000 32) : IVec S900000x1 32 :=
  broadcastInDim S900000x1 ![0] bcast_S900000_S900000x1_0 (col2 e)

end Cert.KernelIdeal.Edge

end
-- ==== Proof.KChain.lean ====
/-
  The idealized kernel's host stretches, read back as values.

  Before the first pipeline the program computes, from the edge list alone, the symmetric normalisation and the two
  index rows (the chain of the module on the edge bookkeeping), and transposes the weight.  Between the first and the
  second pipeline it gathers the projected rows at the source indices, scales every gathered row by its edge's
  normalisation, scatter-adds the scaled rows at the target indices into a zero array — the aggregate — and recasts
  bias, gamma and beta as keepdims rows.  Nothing of this reads a float input except through those named pieces.
-/
import proofs.«143204_j18743237280519_2_alg».proof.Proof.Gen.KernelIdeal.Frame
import proofs.«143204_j18743237280519_2_alg».proof.Proof.Edge
import Idealize.ShloMosaic.PureOps.Ideal

set_option maxRecDepth 16384

noncomputable section

namespace Cert.KernelIdeal.Gen

open Idealize.ShloMosaic Idealize.ShloMosaic.TcCoe Idealize.ShloMosaic.Tactic Idealize.SL.Sem
open Idealize.ShloMosaic.StableHlo

variable (m : (ℓ : Loc nD τ sig) → Buf (Elt Ideal) ℓ) (ρ : Dev nD → PrngReg) (c : Dev nD)

/-- Unfold the nine host stretches before the first pipeline down to the launch memory. -/
local macro "open_prefix" : tactic =>
  `(tactic| dsimp only [W9, W8, W7, W6, W5, W4, W3, W2, W1, hostOps0_8, hostOps0_7, hostOps0_6, hostOps0_5, hostOps0_4,
      hostOps0_3, hostOps0_2, hostOps0_1, hostOps0])

set_option maxHeartbeats 4000000 in
/-- The source row of the twice self-looped edge list. -/
theorem W9_row2 : W9 m ρ c (Proc.devRef .tc main_v39) = Edge.row2 (m ((c : Thread nD τ).loc main_arg5)) := by
  open_prefix
  after_results_simp
  rfl

set_option maxHeartbeats 4000000 in
/-- Its target row. -/
theorem W9_col2 : W9 m ρ c (Proc.devRef .tc main_v41) = Edge.col2 (m ((c : Thread nD τ).loc main_arg5)) := by
  open_prefix
  after_results_simp
  rfl

set_option maxHeartbeats 4000000 in
/-- The weight, transposed. -/
theorem W9_wt : W9 m ρ c (Proc.devRef .tc main_v68)
    = transpose S128x128 [1, 0] (m ((c : Thread nD τ).loc main_arg1)) Facts₀.transposes_S128x128_S128x128_1_0 := by
  open_prefix
  after_results_simp

set_option maxHeartbeats 4000000 in
/-- The node features are untouched by the host stretches before the first pipeline. -/
theorem W9_arg0 : W9 m ρ c (Proc.devRef .tc main_arg0) = m ((c : Thread nD τ).loc main_arg0) := by
  open_prefix
  after_results_simp

set_option maxHeartbeats 4000000 in
/-- So is the bias. -/
theorem W9_arg2 : W9 m ρ c (Proc.devRef .tc main_arg2) = m ((c : Thread nD τ).loc main_arg2) := by
  open_prefix
  after_results_simp

set_option maxHeartbeats 4000000 in
/-- So is gamma. -/
theorem W9_arg3 : W9 m ρ c (Proc.devRef .tc main_arg3) = m ((c : Thread nD τ).loc main_arg3) := by
  open_prefix
  after_results_simp

set_option maxHeartbeats 4000000 in
/-- So is beta. -/
theorem W9_arg4 : W9 m ρ c (Proc.devRef .tc main_arg4) = m ((c : Thread nD τ).loc main_arg4) := by
  open_prefix
  after_results_simp

end Cert.KernelIdeal.Gen

end
-- ==== Proof.LibTypedRefs.lean ====
/-
  Typed buffer references: the two transports between a value's type and its buffer's type cancel.

  A module-local function's operations are stated at the type of the tensor value (`T.Contents`), and moved to the
  buffer's own contents type along the reference's type equation, `toBuf`, and back, `ofBuf`. When a fold over such
  operations is read back, every intermediate value comes wrapped `x.ofBuf (x.toBuf v)`; the wrapper is the identity,
  for any typed reference `x` whatever its buffer. A value that crosses between such a function and the caller is
  wrapped once only (`x.ofBuf v` or `x.toBuf v` at a literal buffer whose type IS the value's); those go by unfolding
  the two transports to `cast` and core's `cast_eq`. So
      simp only [Cert.TypedRefs.ofBuf_toBuf, Cert.TypedRefs.toBuf_ofBuf, TRef.ofBuf, TRef.toBuf, cast_eq]
  leaves the plain term of the operations, which a closing `rfl` can then meet; with the wrappers still in place a
  `rfl` has to see through one cast per intermediate value and does not come back on a long function.
-/
import Idealize.ShloMosaic.Lib.StableHlo

namespace Cert.TypedRefs

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  unfold TRef.ofBuf TRef.toBuf
  rw [cast_cast]
  exact cast_eq _ _

/-- Buffer contents moved to the value's type and back are the buffer contents. -/
theorem toBuf_ofBuf (x : TRef sig T) (v : x.ref.ty.Contents Val) : x.toBuf (x.ofBuf v) = v := by
  unfold TRef.ofBuf TRef.toBuf
  rw [cast_cast]
  exact cast_eq _ _

end Cert.TypedRefs
-- ==== Proof.KChainNorm.lean ====
/-
  The symmetric normalisation of the edges, as the idealized kernel computes it on the host before its first
  pipeline: the normalisation buffer at that pipeline's entry holds the edge chain's normalisation of the edge list,
  whatever the float instance (the chain applies the same operations in the same order; the casts between a value's
  type and its buffer's type that the inlined `where` calls leave around intermediate values are identities).
-/
import proofs.«143204_j18743237280519_2_alg».proof.Proof.Gen.KernelIdeal.Frame
import proofs.«143204_j18743237280519_2_alg».proof.Proof.Edge
import proofs.«143204_j18743237280519_2_alg».proof.Proof.LibTypedRefs

set_option maxRecDepth 65536

noncomputable section

namespace Cert.KernelIdeal.Gen

open Idealize.ShloMosaic Idealize.ShloMosaic.TcCoe Idealize.ShloMosaic.Tactic Idealize.SL.Sem
open Idealize.ShloMosaic.StableHlo

variable {F : FTy → Type} [FloatOps F]
variable (m : (ℓ : Loc nD τ sig) → Buf (Elt F) ℓ) (ρ : Dev nD → PrngReg) (c : Dev nD)

set_option maxHeartbeats 8000000 in
attribute [local irreducible] Host.gather Host.scatterAdd concatenate extractStridedSlice in
/-- At the first pipeline's entry the normalisation buffer holds the edge chain's normalisation of the edge list. -/
theorem W9_norm : W9 m ρ c (Proc.devRef .tc main_v67) = Edge.norm (F := F) (m ((c : Thread nD τ).loc main_arg5)) := by
  dsimp only [W9, W8, W7, W6, W5, W4, W3, W2, W1, hostOps0_8, hostOps0_7, hostOps0_6, hostOps0_5, hostOps0_4,
    hostOps0_3, hostOps0_2, hostOps0_1, hostOps0]
  after_results_simp
  simp only [Cert.TypedRefs.ofBuf_toBuf, Cert.TypedRefs.toBuf_ofBuf, StableHlo.TRef.ofBuf, StableHlo.TRef.toBuf, cast_eq]
  rfl

end Cert.KernelIdeal.Gen

end
-- ==== Proof.KRows.lean ====
/-
  Three functions the idealized kernel's host stretches compute, named: the aggregate of the projected rows over the
  edges, and the mean row and inverse-deviation row of the batch statistics from the two column-sum rows.
-/
import proofs.«143204_j18743237280519_2_alg».proof.Proof.Edge
import Idealize.ShloMosaic.PureOps.Ideal

noncomputable section

namespace Cert.KernelIdeal.Gen

open Idealize.ShloMosaic Cert.KernelIdeal.Facts₀

/-- The aggregate as a function of the projected rows `h`: gather the rows of `h` at the source indices, scale row e by
    the normalisation of edge e, and add the scaled rows into a zero array at the target indices. -/
def aggOf (e : IVec S2x800000 32) (h : FVec Ideal S50000x128 .bf16) : FVec Ideal S50000x128 .f32 :=
  Host.scatterAdd scatter_S50000x128_S900000x1_S900000x128_1_0_0_1
    (broadcastInDim S50000x128 ![] bcast_S_S50000x128 (constant S_ .f32 0x00000000#32)) (Edge.dst e)
    (mulf (broadcastInDim S900000x128 ![0, 1] bcast_S900000x1_S900000x128_0_1
        (broadcastInDim S900000x1 ![0] bcast_S900000_S900000x1_0 (Edge.norm e)))
      (extf .f32 (Host.gather gather_S50000x128_S900000x1_S900000x128_1_0_n_n_0_1_1128 h (Edge.src e)) bitsLt_bf16_f32))

/-- The mean row from the column-sum row: each sum over fifty thousand. -/
def meanRow (s1 : FVec Ideal S1x128 .f32) : FVec Ideal S1x128 .f32 :=
  Host.divf s1 (broadcastInDim S1x128 ![] bcast_S_S1x128 (constant S_ .f32 0x47435000#32))

/-- The inverse-deviation row from the two column-sum rows: the mean of the squares less the squared mean, clamped
    below at zero, plus the guard, under the inverse square root. -/
def istdRow (s1 s2 : FVec Ideal S1x128 .f32) : FVec Ideal S1x128 .f32 :=
  Host.rsqrt (addf (maximumf (subf (Host.divf s2 (broadcastInDim S1x128 ![] bcast_S_S1x128 (constant S_ .f32 0x47435000#32)))
      (mulf (meanRow s1) (meanRow s1))) (broadcastInDim S1x128 ![] bcast_S_S1x128 (constant S_ .f32 0x00000000#32)))
    (broadcastInDim S1x128 ![] bcast_S_S1x128 (constant S_ .f32 0x3727C5AC#32)))

end Cert.KernelIdeal.Gen

end
-- ==== Proof.KChain2.lean ====
/-
  The idealized kernel's host stretches between and after the pipelines, read back as values: the aggregate the
  second pipeline reduces and the third normalises, the keepdims rows of bias, gamma and beta, and the mean and
  inverse-deviation rows computed from the second pipeline's two column-sum rows.
-/
import proofs.«143204_j18743237280519_2_alg».proof.Proof.KChain
import proofs.«143204_j18743237280519_2_alg».proof.Proof.KChainNorm
import proofs.«143204_j18743237280519_2_alg».proof.Proof.KRows

set_option maxRecDepth 16384

noncomputable section

namespace Cert.KernelIdeal.Gen

open Idealize.ShloMosaic Idealize.ShloMosaic.TcCoe Idealize.ShloMosaic.Tactic Idealize.SL.Sem
open Idealize.ShloMosaic.StableHlo Cert.KernelIdeal.Facts₀

variable (m : (ℓ : Loc nD τ sig) → Buf (Elt Ideal) ℓ) (ρ : Dev nD → PrngReg) (c : Dev nD)

set_option maxHeartbeats 4000000 in
/-- At the second pipeline's entry the aggregate buffer holds `aggOf` of the first pipeline's result. -/
theorem W11_agg : W11 m ρ c (Proc.devRef .tc main_v83)
    = aggOf (m ((c : Thread nD τ).loc main_arg5)) (W10 m ρ c (Proc.devRef .tc main_v69)) := by
  dsimp only [W11, hostOps1]
  after_results_simp
  rw [W10_of_ne m ρ c main_v67 (by decide), W10_of_ne m ρ c main_v41 (by decide), W10_of_ne m ρ c main_v39 (by decide),
    W9_norm, W9_col2, W9_row2]
  rfl

set_option maxHeartbeats 4000000 in
/-- The bias as a keepdims row. -/
theorem W11_bias : W11 m ρ c (Proc.devRef .tc main_v84)
    = shapeCast S1x128 (m ((c : Thread nD τ).loc main_arg2)) shapeCasts_S128_S1x128 := by
  dsimp only [W11, hostOps1]
  after_results_simp
  rw [W10_of_ne m ρ c main_arg2 (by decide), W9_arg2]
  rfl

set_option maxHeartbeats 4000000 in
/-- Gamma as a keepdims row. -/
theorem W11_gamma : W11 m ρ c (Proc.devRef .tc main_v85)
    = shapeCast S1x128 (m ((c : Thread nD τ).loc main_arg3)) shapeCasts_S128_S1x128 := by
  dsimp only [W11, hostOps1]
  after_results_simp
  rw [W10_of_ne m ρ c main_arg3 (by decide), W9_arg3]
  rfl

set_option maxHeartbeats 4000000 in
/-- Beta as a keepdims row. -/
theorem W11_beta : W11 m ρ c (Proc.devRef .tc main_v86)
    = shapeCast S1x128 (m ((c : Thread nD τ).loc main_arg4)) shapeCasts_S128_S1x128 := by
  dsimp only [W11, hostOps1]
  after_results_simp
  rw [W10_of_ne m ρ c main_arg4 (by decide), W9_arg4]
  rfl

set_option maxHeartbeats 4000000 in
/-- The node features at the second pipeline's entry. -/
theorem W11_arg0 : W11 m ρ c (Proc.devRef .tc main_arg0) = m ((c : Thread nD τ).loc main_arg0) := by
  dsimp only [W11, hostOps1]
  after_results_simp
  rw [(W10_arr m ρ c 0).trans (((dat0 (V9 m ρ) c).arrAt_in 0 rfl _).trans (A_eq0 (V9 m ρ) c 0))]
  exact W9_arg0 m ρ c

set_option maxHeartbeats 4000000 in
/-- At the third pipeline's entry the mean buffer holds the mean row of the second pipeline's first result. -/
theorem W13_mean : W13 m ρ c (Proc.devRef .tc main_v89) = meanRow (W12 m ρ c (Proc.devRef .tc main_v87_0)) := by
  dsimp only [W13, hostOps2]
  after_results_simp
  rfl

set_option maxHeartbeats 4000000 in
/-- And the inverse-deviation buffer the inverse-deviation row of its two results. -/
theorem W13_istd : W13 m ρ c (Proc.devRef .tc main_v98)
    = istdRow (W12 m ρ c (Proc.devRef .tc main_v87_0)) (W12 m ρ c (Proc.devRef .tc main_v87_1)) := by
  dsimp only [W13, hostOps2]
  after_results_simp
  rfl

set_option maxHeartbeats 4000000 in
/-- The last host stretch writes none of the buffers the third pipeline reads besides those two. -/
theorem W13_keep (b : Ref sig .tc) (hb : b = main_v83 ∨ b = main_arg0 ∨ b = main_v84 ∨ b = main_v85 ∨ b = main_v86) :
    W13 m ρ c (Proc.devRef .tc b) = W12 m ρ c (Proc.devRef .tc b) := by
  rcases hb with rfl | rfl | rfl | rfl | rfl <;>
  · dsimp only [W13, hostOps2]
    after_results_simp

/-- The second pipeline leaves its two input arrays as it found them. -/
theorem W12_agg : W12 m ρ c (Proc.devRef .tc main_v83) = W11 m ρ c (Proc.devRef .tc main_v83) :=
  (W12_arr m ρ c 0).trans (((dat1 (V11 m ρ) c).arrAt_in 0 rfl _).trans (A_eq1 (V11 m ρ) c 0))
theorem W12_bias : W12 m ρ c (Proc.devRef .tc main_v84) = W11 m ρ c (Proc.devRef .tc main_v84) :=
  (W12_arr m ρ c 1).trans (((dat1 (V11 m ρ) c).arrAt_in 1 rfl _).trans (A_eq1 (V11 m ρ) c 1))

end Cert.KernelIdeal.Gen

end
-- ==== Proof.Spec.lean ====
/-
  The mathematics both programs compute, index by index over the extended reals.

  A graph-convolution layer: the rows of `x` are projected by the transposed weight (`lin`), aggregated over the
  edges into an [N,128] array `a` (the aggregation itself is the same host computation in both programs and is never
  opened here), shifted by the bias row (`shifted`), normalised per column by the batch mean and the inverse
  standard deviation, scaled and shifted by `gamma` / `beta`, passed through a leaky ReLU, added to `x` and passed
  through a second leaky ReLU (`epilogue`).  The column statistics are the plain sums over the 50000 rows
  (`colSum`, `colSumSq`).
-/
import Idealize.ShloMosaic.PureOps.Ideal
import Idealize.ShloMosaic.Lib.ValueIdx

noncomputable section

open scoped BigOperators

namespace Cert.Spec

open Idealize.ShloMosaic Idealize.ShloMosaic.ValueIdx

/-- The node-feature shape [50000, 128]. -/
abbrev SN : Shape := ⟨2, ![50000, 128]⟩
/-- The weight shape [128, 128]. -/
abbrev SW : Shape := ⟨2, ![128, 128]⟩
/-- A keepdims row [1, 128]. -/
abbrev SR : Shape := ⟨2, ![1, 128]⟩

/-- The row number of an index of the node-feature shape. -/
abbrev row (i : SN.Idx) : Fin 50000 := i 0
/-- The column number of an index of the node-feature shape. -/
abbrev col (i : SN.Idx) : Fin 128 := i 1
/-- The column number of an index of a keepdims row. -/
abbrev rcol (j : SR.Idx) : Fin 128 := j 1

/-- The slope of the leaky ReLU: the binary32 number nearest one tenth. -/
def tenth : EReal := Ideal.ofBits .f32 0x3DCCCCCD#32
/-- The number of rows, fifty thousand, as the binary32 number it is. -/
def fiftyK : EReal := Ideal.ofBits .f32 0x47435000#32
/-- The variance's guard: the binary32 number nearest 1e-5. -/
def eps : EReal := Ideal.ofBits .f32 0x3727C5AC#32

/-- The linear layer, the weight given already transposed: entry (p,q) is the sum over k of x(p,k) · wt(k,q). -/
def lin (x : SN.Idx → EReal) (wt : SW.Idx → EReal) : SN.Idx → EReal :=
  fun i => ∑ k : Fin 128, x (ix2 (row i) k) * wt (ix2 k (col i))

/-- An [N,128] array plus a [1,128] row added to every row of it. -/
def shifted (a : SN.Idx → EReal) (b : SR.Idx → EReal) : SN.Idx → EReal :=
  fun i => a i + b (ix2 (0 : Fin 1) (col i))

/-- The column sums of an [N,128] array, as a keepdims row. -/
def colSum (v : SN.Idx → EReal) : SR.Idx → EReal :=
  fun j => ∑ p : Fin 50000, v (ix2 p (rcol j))

/-- The column sums of the squares of an [N,128] array, as a keepdims row. -/
def colSumSq (v : SN.Idx → EReal) : SR.Idx → EReal :=
  fun j => ∑ p : Fin 50000, v (ix2 p (rcol j)) * v (ix2 p (rcol j))

/-- The leaky ReLU with slope one tenth, the test strict: z where 0 < z, a tenth of z elsewhere. -/
def lrelu (z : EReal) : EReal := if 0 < z then z else tenth * z

/-- The epilogue at an index: the shifted aggregate minus the mean row, times the inverse-deviation row, times
    gamma, plus beta; leaky ReLU; plus the residual x; leaky ReLU. -/
def epilogue (a x : SN.Idx → EReal) (b g be mu istd : SR.Idx → EReal) : SN.Idx → EReal :=
  fun i =>
    lrelu (lrelu (((a i + b (ix2 (0 : Fin 1) (col i))) - mu (ix2 (0 : Fin 1) (col i))) * istd (ix2 (0 : Fin 1) (col i))
        * g (ix2 (0 : Fin 1) (col i)) + be (ix2 (0 : Fin 1) (col i))) + x i)

end Cert.Spec

end
-- ==== Proof.KRegion0.lean ====
/-
  The first kernel region in closed form, over the extended reals.

  The region multiplies the node features, 5000 rows at a time, by the transposed weight: grid point t reads rows
  5000·t … 5000·t + 4999 of the features and the whole weight, and writes the same rows of the product.  Entry (p, q)
  of a block product is the sum over k of (row p of the feature block at k) · (weight at (k, q)); the narrowing of the
  operands and of the result to a shorter float format is the identity on the extended reals.  Since the ten row
  blocks tile the 50000 rows, the array the region leaves is the linear layer of the specification, entry by entry.
-/
import proofs.«143204_j18743237280519_2_alg».proof.Proof.Gen.KernelIdeal.Frame
import proofs.«143204_j18743237280519_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-- The contraction record of the block product: rows of the left operand against columns of the right. -/
abbrev DD : DotDims S5000x128 S128x128 S5000x128 := dot_S5000x128_S128x128_S5000x128_1_0_0_1_n_n

theorem lhs_row (i : S5000x128.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl

theorem lhs_k (i : S5000x128.Idx) (q : DD.contr.Idx) : (DD.lhsIdx i q 1).val = (q ⟨0, by decide⟩).val :=
  DD.lhsIdx_val_of_single rfl i q

theorem rhs_k (i : S5000x128.Idx) (q : DD.contr.Idx) : (DD.rhsIdx i q 0).val = (q ⟨0, by decide⟩).val :=
  DD.rhsIdx_val_of_single rfl i q

theorem rhs_col (i : S5000x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- The block product at an entry: row p of the left block against column q of the weight. -/
theorem matmul_block_apply (x0 : Vec Ideal S5000x128 .f32) (w : Vec Ideal S128x128 .f32) (p : Fin 5000) (q : Fin 128) :
    k0_pay1 (F := Ideal) x0 w (ix2 p q) = ∑ k : Fin 128, x0 (ix2 p k) * w (ix2 k q) := by
  unfold k0_pay1
  simp only [shapeCast_self]
  rw [truncf_apply]
  refine (Ideal.matmul_constant_zero_apply DD none _ _ (ix2 p q)).trans ?_
  rw [← Equiv.sum_comp (contrEquiv1 DD 128 rfl rfl).symm]
  refine Finset.sum_congr rfl fun k _ => ?_
  have hk := contrEquiv1_symm_val DD 128 rfl rfl k
  rw [truncf_apply, truncf_apply]
  have el : DD.lhsIdx (ix2 p q) ((contrEquiv1 DD 128 rfl rfl).symm k) = ix2 p k := funext fun a => Fin.ext (by
    match a with
    | ⟨0, _⟩ => exact lhs_row _ _
    | ⟨1, _⟩ => exact (lhs_k _ _).trans hk)
  have er : DD.rhsIdx (ix2 p q) ((contrEquiv1 DD 128 rfl rfl).symm k) = ix2 k q := funext fun a => Fin.ext (by
    match a with
    | ⟨0, _⟩ => exact (rhs_k _ _).trans hk
    | ⟨1, _⟩ => exact rhs_col _ _)
  rw [el, er]

section AtEntry

variable (V : (c : Dev nD) → (b : Ref sig .tc) → Buf (Elt Ideal) ((c : Thread nD τ).loc b))

theorem zero_offsets : (![0, 0] : Fin 2 → Nat) = fun _ => 0 := funext fun a => by fin_cases a <;> rfl

/-- The block indices over the ten grid points: the row-block windows sit at block t of the rows and
    block 0 of the columns, the weight window at block (0, 0) throughout. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … 5000·t + 4999 of the node features. -/
theorem xblock0_apply (c : Dev nD) (t : Fin cfg0.N) (y : S5000x128.Idx) (i : S50000x128.Idx)
    (h0 : (i 0).val = 5000 * t.val + (y 0).val) (h1 : (i 1).val = (y 1).val) :
    (iblk0 V c 0 t : Vec Ideal S5000x128 .f32) y = (V c main_arg0 : S50000x128.Idx → EReal) i := by
  obtain ⟨e0, e1, -, -, -, -⟩ := block_indices0 t
  unfold iblk0
  rw [View.read_apply]
  show V c main_arg0 _ = V c main_arg0 _
  congr 1
  funext a
  apply Fin.ext
  match a with
  | ⟨0, _⟩ => show win0_0.index t (0 : Fin 2) * 5000 + 1 * (y 0).val = (i 0).val; rw [e0, h0]; omega
  | ⟨1, _⟩ => show win0_0.index t (1 : Fin 2) * 128 + 1 * (y 1).val = (i 1).val; rw [e1, h1]; omega

/-- The weight's block is the whole weight at every point. -/
theorem wblock0_apply (c : Dev nD) (t : Fin cfg0.N) (y : S128x128.Idx) :
    (iblk0 V c 1 t : Vec Ideal S128x128 .f32) y = (V c main_v68 : S128x128.Idx → EReal) y := by
  obtain ⟨-, -, e2, e3, -, -⟩ := block_indices0 t
  unfold iblk0
  rw [View.read_apply]
  show V c main_v68 _ = V c main_v68 _
  congr 1
  funext a
  apply Fin.ext
  match a with
  | ⟨0, _⟩ => show win0_1.index t (0 : Fin 2) * 128 + 1 * (y 0).val = (y 0).val; rw [e2]; omega
  | ⟨1, _⟩ => show win0_1.index t (1 : Fin 2) * 128 + 1 * (y 1).val = (y 1).val; rw [e3]; omega

/-- What point t writes back is block t of the linear layer of the arrays the region finds. -/
theorem flushed0_eq (c : Dev nD) (t : Fin cfg0.N) :
    (dat0 (F := Ideal) V c).flushed 2 t
      = ((cfg0.win 2).blk t).view.read (Elt Ideal) (Cert.Spec.lin (V c main_arg0) (V c main_v68)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨-, -, -, -, e4, e5⟩ := block_indices0 t
  refine funext fun (j : S5000x128.Idx) => ?_
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
      = Cert.Spec.lin (V c main_arg0) (V c main_v68) (((cfg0.win 2).blk t).view.emb (ix2 p q))
  refine (matmul_block_apply _ _ p q).trans ?_
  unfold Cert.Spec.lin
  refine Finset.sum_congr rfl fun k _ => ?_
  have hr : ((((cfg0.win 2).blk t).view.emb (ix2 p q)) 0).val = 5000 * t.val + p.val := by
    show win0_2.index t (0 : Fin 2) * 5000 + 1 * p.val = _; rw [e4]; omega
  have hc : ((((cfg0.win 2).blk t).view.emb (ix2 p q)) 1).val = q.val := by
    show win0_2.index t (1 : Fin 2) * 128 + 1 * q.val = _; rw [e5]; omega
  rw [xblock0_apply V c t (ix2 p k) (ix2 (Cert.Spec.row (((cfg0.win 2).blk t).view.emb (ix2 p q))) k) hr rfl,
    wblock0_apply V c t (ix2 k q)]
  congr 2
  funext a
  apply Fin.ext
  match a with
  | ⟨0, _⟩ => rfl
  | ⟨1, _⟩ => exact hc.symm

/-- An index of the result array lies in point t's block iff each coordinate lies in the block's range. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v69).slice (win0_2.rect t)).set ↔ _
  rw [View.set_slice_whole, Rect.mem_set_unit]
  exact Iff.rfl

/-- Row r of the result is written back by the point r / 5000. -/
theorem covered0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, e4, e5⟩ := block_indices0 t
  have ht : t.val = (i 0).val / 5000 := rfl
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; rw [e4, ht]; omega
  | ⟨1, _⟩ => show win0_2.index t (1 : Fin 2) * 128 ≤ (i 1).val ∧ (i 1).val < win0_2.index t (1 : Fin 2) * 128 + 128; rw [e5]; omega

/-- After region 0 the projected-feature array holds the linear layer of the node features and the transposed weight. -/
theorem region0_value (c : Dev nD) :
    (dat0 (F := Ideal) V c).arrAt 2 cfg0.N = Cert.Spec.lin (V c main_arg0) (V c main_v68) :=
  (dat0 (F := Ideal) V c).arrAt_eq_of_cover 2 (Cert.Spec.lin (V c main_arg0) (V c main_v68))
    (fun t _ => flushed0_eq V c t) covered0

end AtEntry

end Cert.KernelIdeal.Regions

end
-- ==== Proof.KRegion1Pieces.lean ====
/-
  The column-statistics kernel, one grid point at a time: what its body leaves in the two [1,128] accumulator blocks.

  At the first point the body stores the zero row into both blocks, reads it back and adds to it the column sums of
  the shifted block (for the other block: of its squares); at every later point it adds the same column sums to the
  rows the point before left.  So what each case leaves is one payload of the point's input blocks, over the zero row
  or over the carried row.  Stated for any float values.
-/
import proofs.«143204_j18743237280519_2_alg».proof.Proof.Gen.KernelIdeal.Frame
import proofs.«143204_j18743237280519_2_alg».proof.Proof.Spec
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Regions

open Cert.KernelIdeal Cert.KernelIdeal.Gen

variable {F : FTy → Type} [FloatOps F]

theorem hz2 : (![0, 0] : Fin 2 → Nat) = fun _ => 0 := funext fun a => by fin_cases a <;> rfl

/-- The zero row the first point stores into both accumulator blocks. -/
abbrev zeroRow : Vec F S1x128 .f32 := broadcast S1x128 (Scalar.ofBits .f32 0x00000000#32)

/-- Later points, the sum block: the carried row plus the column sums of the shifted block. -/
theorem out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz2]
  simp only [View.readAt_eq_ld, h1.read_unread, h2.read_unread, h3.read_unread, View.ld_unit_zero (S := S5000x128) hz2,
    View.ld_unit_zero (S := S1x128) hz2]

/-- Later points, the sum-of-squares block: the carried row plus the column sums of the squares. -/
theorem out_B_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : ¬cond1_0 i)
    (x0 : Vec F S5000x128 .f32) (x1 xo2 xo3 : Vec F S1x128 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz2]
  simp only [View.readAt_eq_ld, h1.read_unread, h2.read_unread, h4.read_unread, View.ld_unit_zero (S := S5000x128) hz2,
    View.ld_unit_zero (S := S1x128) hz2]

/-- The first point, the sum block: the zero row plus the column sums of the shifted block. -/
theorem out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_2 c i a1 h1 a2 h2 a3 h3 a4 h4 hc x0 x1 = k1_pay4 x0 x1 zeroRow := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2,
    View.ld_unit_zero (S := S1x128) hz2]
  rfl

/-- The first point, the sum-of-squares block: the zero row plus the column sums of the squares. -/
theorem out_A_3 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (a4 : Memref sig .tc .vmem S1x128 .f32) (h4 : a4.IsWhole) (hc : cond1_0 i)
    (x0 : Vec F S5000x128 .f32) (x1 : Vec F S1x128 .f32) :
    out1_A_3 c i a1 h1 a2 h2 a3 h3 a4 h4 hc x0 x1 = k1_pay5 x0 x1 zeroRow := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x128) hz2, View.readCov_unit_zero (S := S1x128) _ hz2]
  simp only [View.readAt_eq_ld, h1.read_unread, h2.read_unread, View.ld_unit_zero (S := S5000x128) hz2,
    View.ld_unit_zero (S := S1x128) hz2]
  rfl

end Cert.KernelIdeal.Regions

end
-- ==== Proof.KRegion1Pay.lean ====
/-
  The column-statistics kernel's arithmetic at an index, over the extended reals, and its input blocks.

  The shifted block is the aggregate's block plus the bias row under every row; the sum payload at column q is the
  accumulator's entry plus the sum over the block's 5000 rows of the shifted block's column q; the sum-of-squares
  payload likewise over the squares.  The aggregate's block at grid point t holds rows 5000·t … 5000·t + 4999 of the
  [50000,128] aggregate; the bias row's block is the bias row at every point.
-/
import proofs.«143204_j18743237280519_2_alg».proof.Proof.Gen.KernelIdeal.Frame
import proofs.«143204_j18743237280519_2_alg».proof.Proof.Spec
import Idealize.ShloMosaic.Lib.Pipeline.Value
import Idealize.ShloMosaic.Lib.Tactic
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-- The index a column sum inserts: row `p` of column `q`. -/
theorem lift_eq (q : Fin 128) (p : Fin 5000) : reduces_S5000x128_S128.lift (ix1 q) p = ix2 p q := by
  funext a
  match a with
  | ⟨0, _⟩ => exact Fin.ext rfl
  | ⟨1, _⟩ => exact Fin.ext rfl

/-- The shifted block at an index: the aggregate's entry plus the bias row's entry of that column. -/
theorem pay3_apply (x0 : Vec Ideal S5000x128 .f32) (x1 : Vec Ideal S1x128 .f32) (p : Fin 5000) (q : Fin 128) :
    k1_pay3 x0 x1 (ix2 p q) = x0 (ix2 p q) + x1 (ix2 (0 : Fin 1) q) := by
  unfold k1_pay3
  refine (addf_apply _ _ _).trans ?_
  refine congrArg₂ (· + ·) (congrFun (shapeCast_self x0 _) _) ?_
  refine (broadcastTo_1b_ab_apply _ _ p q).trans ?_
  exact congrFun (shapeCast_self x1 _) _

/-- The sum payload at a column: the accumulator's entry plus the column sum of the shifted block. -/
theorem pay4_apply (x0 : Vec Ideal S5000x128 .f32) (x1 acc : Vec Ideal S1x128 .f32) (u : Fin 1) (q : Fin 128) :
    k1_pay4 x0 x1 acc (ix2 u q) = acc (ix2 u q) + ∑ p : Fin 5000, (x0 (ix2 p q) + x1 (ix2 (0 : Fin 1) q)) := by
  unfold k1_pay4
  refine (addf_apply _ _ _).trans ?_
  refine congrArg₂ (· + ·) (congrFun (shapeCast_self acc _) _) ?_
  refine (shapeCast_a_1a_apply _ _ u q).trans ?_
  refine (Ideal.multiReduction_add_single (k1_pay3 x0 x1) _ reduces_S5000x128_S128 _ _ (ix1 q)).trans ?_
  refine Finset.sum_congr rfl fun p _ => ?_
  exact (congrArg (k1_pay3 x0 x1) (lift_eq q p)).trans (pay3_apply x0 x1 p q)

/-- The sum-of-squares payload at a column: the accumulator's entry plus the column sum of the squares. -/
theorem pay5_apply (x0 : Vec Ideal S5000x128 .f32) (x1 acc : Vec Ideal S1x128 .f32) (u : Fin 1) (q : Fin 128) :
    k1_pay5 x0 x1 acc (ix2 u q) = acc (ix2 u q)
      + ∑ p : Fin 5000, (x0 (ix2 p q) + x1 (ix2 (0 : Fin 1) q)) * (x0 (ix2 p q) + x1 (ix2 (0 : Fin 1) q)) := by
  unfold k1_pay5
  refine (addf_apply _ _ _).trans ?_
  refine congrArg₂ (· + ·) (congrFun (shapeCast_self acc _) _) ?_
  refine (shapeCast_a_1a_apply _ _ u q).trans ?_
  refine (Ideal.multiReduction_add_single (mulf (k1_pay3 x0 x1) (k1_pay3 x0 x1)) _ reduces_S5000x128_S128 _ _ (ix1 q)).trans ?_
  refine Finset.sum_congr rfl fun p _ => ?_
  refine (congrArg (mulf (k1_pay3 x0 x1) (k1_pay3 x0 x1)) (lift_eq q p)).trans ?_
  refine (mulf_apply _ _ _).trans ?_
  exact congrArg₂ (· * ·) (pay3_apply x0 x1 p q) (pay3_apply x0 x1 p q)

variable (V : (c : Dev nD) → (b : Ref sig .tc) → Buf (Elt Ideal) ((c : Thread nD τ).loc b))

theorem index1_0 (t : Fin cfg1.N) : win1_0.index t 0 = t.val ∧ win1_0.index t 1 = 0 := by
  rcases fin_N1 t with rfl | rfl | rfl | rfl | rfl | rfl | rfl | rfl | rfl | rfl <;> decide

theorem index1_1 (t : Fin cfg1.N) : win1_1.index t 0 = 0 ∧ win1_1.index t 1 = 0 := by
  rcases fin_N1 t with rfl | rfl | rfl | rfl | rfl | rfl | rfl | rfl | rfl | rfl <;> decide

/-- The aggregate's block at point `t`, at (r, q): the aggregate at row `5000·t + r`, column `q`. -/
theorem iblk_agg_apply (c : Dev nD) (t : Fin cfg1.N) (r : Fin 5000) (q : Fin 128) (h : 5000 * t.val + r.val < 50000) :
    (iblk1 V c 0 t : Vec Ideal S5000x128 .f32) (ix2 r q) = V c main_v83 (ix2 (⟨5000 * t.val + r.val, h⟩ : Fin 50000) q) := by
  have hi := index1_0 t
  unfold iblk1
  rw [View.read_apply]
  show V c main_v83 _ = V c main_v83 _
  congr 1
  funext a
  apply Fin.ext
  match a with
  | ⟨0, _⟩ => show win1_0.index t 0 * 5000 + 1 * r.val = 5000 * t.val + r.val; rw [hi.1]; omega
  | ⟨1, _⟩ => show win1_0.index t 1 * 128 + 1 * q.val = q.val; rw [hi.2]; omega

/-- The bias row's block is the bias row at every point. -/
theorem iblk_bias_apply (c : Dev nD) (t : Fin cfg1.N) (u : Fin 1) (q : Fin 128) :
    (iblk1 V c 1 t : Vec Ideal S1x128 .f32) (ix2 u q) = V c main_v84 (ix2 (0 : Fin 1) q) := by
  have hi := index1_1 t
  unfold iblk1
  rw [View.read_apply]
  show V c main_v84 _ = V c main_v84 _
  congr 1
  funext a
  apply Fin.ext
  match a with
  | ⟨0, _⟩ => show win1_1.index t 0 * 1 + 1 * u.val = 0; rw [hi.1]; omega
  | ⟨1, _⟩ => show win1_1.index t 1 * 128 + 1 * q.val = q.val; rw [hi.2]; omega

end Cert.KernelIdeal.Regions

end
-- ==== Proof.KRegion1Step.lean ====
/-
  The column-statistics kernel, point by point, over the extended reals.

  The [50000,128] column sum is the sum of ten block sums of 5000 rows (`sum_blocks`, `sum_blockSum`).  At grid point t
  the body's column sums of the shifted block are block t of the shifted aggregate's column (`point_sum`,
  `point_sumsq`): the first point leaves block 0's sums over the zero row, every later point adds its block's sums to
  the carried rows.
-/
import proofs.«143204_j18743237280519_2_alg».proof.Proof.Gen.KernelIdeal.Frame
import proofs.«143204_j18743237280519_2_alg».proof.Proof.Spec
import Idealize.ShloMosaic.Lib.Pipeline.Value
import Idealize.ShloMosaic.Lib.Tactic
import Idealize.ShloMosaic.Lib.ValueLayout
import Idealize.ShloMosaic.PureOps.Ideal.Laws
import proofs.«143204_j18743237280519_2_alg».proof.Proof.KRegion1Pieces
import proofs.«143204_j18743237280519_2_alg».proof.Proof.KRegion1Pay

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- A sum over `q·n` consecutive positions, taken as `q` blocks of `n`. -/
theorem sum_blocks {M : Type*} [AddCommMonoid M] (q n N : ℕ) (hN : N = q * n) (f : Fin N → M)
    (hb : ∀ (k : Fin q) (r : Fin n), n * k.val + r.val < N) :
    ∑ p : Fin N, f p = ∑ k : Fin q, ∑ r : Fin n, f ⟨n * k.val + r.val, hb k r⟩ := by
  subst hN
  rw [← finProdFinEquiv.sum_comp, Fintype.sum_prod_type]
  refine Finset.sum_congr rfl fun k _ => Finset.sum_congr rfl fun r _ => congrArg f (Fin.ext ?_)
  show r.val + n * k.val = n * k.val + r.val
  omega

/-- Rows `5000·k … 5000·k + 4999` of column `q` of an [50000,128] array, summed: what grid point `k` adds. -/
def blockSum (v : Cert.Spec.SN.Idx → EReal) (k : ℕ) (q : Fin 128) : EReal :=
  ∑ r : Fin 5000, if h : 5000 * k + r.val < 50000 then v (ix2 (⟨5000 * k + r.val, h⟩ : Fin 50000) q) else 0

/-- The ten blocks' sums add up to the whole column's. -/
theorem sum_blockSum (v : Cert.Spec.SN.Idx → EReal) (q : Fin 128) :
    ∑ s ∈ Finset.range 10, blockSum v s q = ∑ p : Fin 50000, v (ix2 p q) := by
  rw [Finset.sum_range, sum_blocks 10 5000 50000 rfl (fun p => v (ix2 p q))
    (fun k r => by have := k.isLt; have := r.isLt; omega)]
  refine Finset.sum_congr rfl fun k _ => Finset.sum_congr rfl fun r _ => ?_
  exact dif_pos (by have := k.isLt; have := r.isLt; omega)

/-- The shifted aggregate: the region's first array plus its second, a row, under every row. -/
abbrev sh (c : Dev nD) : Cert.Spec.SN.Idx → EReal := Cert.Spec.shifted (V c main_v83) (V c main_v84)
/-- Its entrywise square. -/
abbrev sq (c : Dev nD) : Cert.Spec.SN.Idx → EReal := fun i => sh V c i * sh V c i

/-- The two input blocks at point `t`, at their block shapes. -/
abbrev aggBlk (c : Dev nD) (t : Fin cfg1.N) : Vec Ideal S5000x128 .f32 := iblk1 V c 0 t
abbrev biasBlk (c : Dev nD) (t : Fin cfg1.N) : Vec Ideal S1x128 .f32 := iblk1 V c 1 t

/-- An entry of the shifted block at point `t` is the shifted aggregate's entry at row `5000·t + p`. -/
theorem point_entry (c : Dev nD) (t : Fin cfg1.N) (p : Fin 5000) (q : Fin 128) (hp : 5000 * t.val + p.val < 50000) :
    aggBlk V c t (ix2 p q) + biasBlk V c t (ix2 (0 : Fin 1) q) = sh V c (ix2 (⟨5000 * t.val + p.val, hp⟩ : Fin 50000) q) :=
  congrArg₂ (· + ·) (iblk_agg_apply V c t p q hp) (iblk_bias_apply V c t 0 q)

/-- Column `q` of the shifted block at point `t`, summed over the block's rows, is that point's block of the shifted
    aggregate's column. -/
theorem point_sum (c : Dev nD) (t : Fin cfg1.N) (q : Fin 128) :
    ∑ p : Fin 5000, (aggBlk V c t (ix2 p q) + biasBlk V c t (ix2 (0 : Fin 1) q)) = blockSum (sh V c) t.val q := by
  have hN : t.val < 10 := lt_of_lt_of_eq t.isLt (show cfg1.N = 10 from N_1)
  refine Finset.sum_congr rfl fun p _ => ?_
  have hp : 5000 * t.val + p.val < 50000 := by have := p.isLt; omega
  refine (point_entry V c t p q hp).trans ?_
  rw [dif_pos hp]

/-- The same for the squares. -/
theorem point_sumsq (c : Dev nD) (t : Fin cfg1.N) (q : Fin 128) :
    ∑ p : Fin 5000, (aggBlk V c t (ix2 p q) + biasBlk V c t (ix2 (0 : Fin 1) q))
        * (aggBlk V c t (ix2 p q) + biasBlk V c t (ix2 (0 : Fin 1) q))
      = blockSum (sq V c) t.val q := by
  have hN : t.val < 10 := lt_of_lt_of_eq t.isLt (show cfg1.N = 10 from N_1)
  refine Finset.sum_congr rfl fun p _ => ?_
  have hp : 5000 * t.val + p.val < 50000 := by have := p.isLt; omega
  refine (congrArg₂ (· * ·) (point_entry V c t p q hp) (point_entry V c t p q hp)).trans ?_
  rw [dif_pos hp]

/-- The first point leaves, in the sum row at column `q`, the first block's column sum. -/
theorem stepA_sum (c : Dev nD) (t : Fin cfg1.N) (h0 : t.val % 10 = 0) (u : Fin 1) (q : Fin 128) :
    out1_A_2 (F := Ideal) c (grid1.coords t) (ms1_0 t) (hs1_0 t) (ms1_1 t) (hs1_1 t) (ms1_2 t) (hs1_2 t) (ms1_3 t) (hs1_3 t)
        ((hcond1_0 t).mpr h0) (iblk1 V c 0 t) (iblk1 V c 1 t) (ix2 u q)
      = blockSum (sh V c) t.val q := by
  refine (congrFun (out_A_2 (F := Ideal) c (grid1.coords t) (ms1_0 t) (hs1_0 t) (ms1_1 t) (hs1_1 t) (ms1_2 t) (hs1_2 t)
    (ms1_3 t) (hs1_3 t) ((hcond1_0 t).mpr h0) (aggBlk V c t) (biasBlk V c t)) (ix2 u q)).trans ?_
  refine (pay4_apply (aggBlk V c t) (biasBlk V c t) zeroRow u q).trans ?_
  refine (congrArg₂ (· + ·) Ideal.ofBits_zero_f32 (point_sum V c t q)).trans ?_
  exact zero_add _

/-- and in the sum-of-squares row, the first block's column sum of squares. -/
theorem stepA_sumsq (c : Dev nD) (t : Fin cfg1.N) (h0 : t.val % 10 = 0) (u : Fin 1) (q : Fin 128) :
    out1_A_3 (F := Ideal) c (grid1.coords t) (ms1_0 t) (hs1_0 t) (ms1_1 t) (hs1_1 t) (ms1_2 t) (hs1_2 t) (ms1_3 t) (hs1_3 t)
        ((hcond1_0 t).mpr h0) (iblk1 V c 0 t) (iblk1 V c 1 t) (ix2 u q)
      = blockSum (sq V c) t.val q := by
  refine (congrFun (out_A_3 (F := Ideal) c (grid1.coords t) (ms1_0 t) (hs1_0 t) (ms1_1 t) (hs1_1 t) (ms1_2 t) (hs1_2 t)
    (ms1_3 t) (hs1_3 t) ((hcond1_0 t).mpr h0) (aggBlk V c t) (biasBlk V c t)) (ix2 u q)).trans ?_
  refine (pay5_apply (aggBlk V c t) (biasBlk V c t) zeroRow u q).trans ?_
  refine (congrArg₂ (· + ·) Ideal.ofBits_zero_f32 (point_sumsq V c t q)).trans ?_
  exact zero_add _

/-- A later point adds its block's column sum to the carried sum row. -/
theorem stepB_sum (c : Dev nD) (t : Fin cfg1.N) (h0 : ¬t.val % 10 = 0) (xo2 xo3 : Vec Ideal S1x128 .f32) (u : Fin 1) (q : Fin 128) :
    out1_B_2 (F := Ideal) c (grid1.coords t) (ms1_0 t) (hs1_0 t) (ms1_1 t) (hs1_1 t) (ms1_2 t) (hs1_2 t) (ms1_3 t) (hs1_3 t)
        (fun h => h0 ((hcond1_0 t).mp h)) (iblk1 V c 0 t) (iblk1 V c 1 t) xo2 xo3 (ix2 u q)
      = xo2 (ix2 u q) + blockSum (sh V c) t.val q := by
  refine (congrFun (out_B_2 (F := Ideal) c (grid1.coords t) (ms1_0 t) (hs1_0 t) (ms1_1 t) (hs1_1 t) (ms1_2 t) (hs1_2 t)
    (ms1_3 t) (hs1_3 t) (fun h => h0 ((hcond1_0 t).mp h)) (aggBlk V c t) (biasBlk V c t) xo2 xo3) (ix2 u q)).trans ?_
  refine (pay4_apply (aggBlk V c t) (biasBlk V c t) xo2 u q).trans ?_
  exact congrArg (xo2 (ix2 u q) + ·) (point_sum V c t q)

/-- and its block's column sum of squares to the carried sum-of-squares row. -/
theorem stepB_sumsq (c : Dev nD) (t : Fin cfg1.N) (h0 : ¬t.val % 10 = 0) (xo2 xo3 : Vec Ideal S1x128 .f32) (u : Fin 1) (q : Fin 128) :
    out1_B_3 (F := Ideal) c (grid1.coords t) (ms1_0 t) (hs1_0 t) (ms1_1 t) (hs1_1 t) (ms1_2 t) (hs1_2 t) (ms1_3 t) (hs1_3 t)
        (fun h => h0 ((hcond1_0 t).mp h)) (iblk1 V c 0 t) (iblk1 V c 1 t) xo2 xo3 (ix2 u q)
      = xo3 (ix2 u q) + blockSum (sq V c) t.val q := by
  refine (congrFun (out_B_3 (F := Ideal) c (grid1.coords t) (ms1_0 t) (hs1_0 t) (ms1_1 t) (hs1_1 t) (ms1_2 t) (hs1_2 t)
    (ms1_3 t) (hs1_3 t) (fun h => h0 ((hcond1_0 t).mp h)) (aggBlk V c t) (biasBlk V c t) xo2 xo3) (ix2 u q)).trans ?_
  refine (pay5_apply (aggBlk V c t) (biasBlk V c t) xo3 u q).trans ?_
  exact congrArg (xo3 (ix2 u q) + ·) (point_sumsq V c t q)

end Cert.KernelIdeal.Regions

end
-- ==== Proof.KRegion1Inv.lean ====
/-
  The column-statistics kernel's accumulation across its ten grid points, over the extended reals.

  After point n the sum row holds, at column q, the sum of blocks 0 … n (rows 0 … 5000·(n+1) - 1) of the shifted
  aggregate's column q, and the sum-of-squares row the same sum of the squares: point 0 resets and adds block 0, each
  later point adds its block — an induction on the point.  After point 9 the ten blocks are the whole column.
-/
import proofs.«143204_j18743237280519_2_alg».proof.Proof.Gen.KernelIdeal.Frame
import proofs.«143204_j18743237280519_2_alg».proof.Proof.Spec
import Idealize.ShloMosaic.Lib.Pipeline.Value
import Idealize.ShloMosaic.Lib.Tactic
import Idealize.ShloMosaic.Lib.ValueLayout
import Idealize.ShloMosaic.PureOps.Ideal.Laws
import proofs.«143204_j18743237280519_2_alg».proof.Proof.KRegion1Pieces
import proofs.«143204_j18743237280519_2_alg».proof.Proof.KRegion1Pay
import proofs.«143204_j18743237280519_2_alg».proof.Proof.KRegion1Step

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

/-- After the first point the two accumulator rows hold block 0's sums. -/
theorem outsAt_zero (c : Dev nD) (h : 0 < cfg1.N) (u : Fin 1) (q : Fin 128) :
    (outsAt1 V c 0 h).1 (ix2 u q) = blockSum (sh V c) 0 q ∧ (outsAt1 V c 0 h).2 (ix2 u q) = blockSum (sq V c) 0 q := by
  rw [outsAt1_A V c ⟨0, h⟩ rfl]
  exact ⟨stepA_sum V c ⟨0, h⟩ rfl u q, stepA_sumsq V c ⟨0, h⟩ rfl u q⟩

/-- Every later point adds its block's sums to what the point before left. -/
theorem outsAt_succ (c : Dev nD) (n : ℕ) (h : n + 1 < cfg1.N) (u : Fin 1) (q : Fin 128) :
    (outsAt1 V c (n + 1) h).1 (ix2 u q)
        = (outsAt1 V c n (Nat.lt_of_succ_lt h)).1 (ix2 u q) + blockSum (sh V c) (n + 1) q
      ∧ (outsAt1 V c (n + 1) h).2 (ix2 u q)
        = (outsAt1 V c n (Nat.lt_of_succ_lt h)).2 (ix2 u q) + blockSum (sq V c) (n + 1) q := by
  have hN : cfg1.N = 10 := N_1
  have hB : ¬(⟨n + 1, h⟩ : Fin cfg1.N).val % 10 = 0 := by dsimp only; omega
  rw [outsAt1_B V c ⟨n + 1, h⟩ hB]
  exact ⟨stepB_sum V c ⟨n + 1, h⟩ hB (outsAt1 V c n (Nat.lt_of_succ_lt h)).1 (outsAt1 V c n (Nat.lt_of_succ_lt h)).2 u q,
    stepB_sumsq V c ⟨n + 1, h⟩ hB (outsAt1 V c n (Nat.lt_of_succ_lt h)).1 (outsAt1 V c n (Nat.lt_of_succ_lt h)).2 u q⟩

/-- THE INVARIANT: after point `n` the two accumulator rows hold, at column `q`, the sums of blocks 0 … n of the shifted
    aggregate's column and of its squares — by induction on the point. -/
theorem outsAt_sums (c : Dev nD) (n : ℕ) : ∀ (h : n < cfg1.N) (u : Fin 1) (q : Fin 128),
    (outsAt1 V c n h).1 (ix2 u q) = ∑ s ∈ Finset.range (n + 1), blockSum (sh V c) s q
      ∧ (outsAt1 V c n h).2 (ix2 u q) = ∑ s ∈ Finset.range (n + 1), blockSum (sq V c) s q := by
  induction n with
  | zero =>
    intro h u q
    obtain ⟨z1, z2⟩ := outsAt_zero V c h u q
    exact ⟨z1.trans (Finset.sum_range_one (fun s => blockSum (sh V c) s q)).symm,
      z2.trans (Finset.sum_range_one (fun s => blockSum (sq V c) s q)).symm⟩
  | succ n ih =>
    intro h u q
    obtain ⟨ih1, ih2⟩ := ih (Nat.lt_of_succ_lt h) u q
    obtain ⟨s1, s2⟩ := outsAt_succ V c n h u q
    exact ⟨(s1.trans (congrArg (· + blockSum (sh V c) (n + 1) q) ih1)).trans
        (Finset.sum_range_succ (fun s => blockSum (sh V c) s q) (n + 1)).symm,
      (s2.trans (congrArg (· + blockSum (sq V c) (n + 1) q) ih2)).trans
        (Finset.sum_range_succ (fun s => blockSum (sq V c) s q) (n + 1)).symm⟩

/-- After the last point the sum row is the shifted aggregate's column sums, -/
theorem outsAt_last_sum (c : Dev nD) (h : 9 < cfg1.N) : (outsAt1 V c 9 h).1 = Cert.Spec.colSum (sh V c) := by
  funext j
  obtain ⟨u, q, rfl⟩ : ∃ (u : Fin 1) (q : Fin 128), j = ix2 u q := ⟨j 0, j 1, eq_ix2 j⟩
  refine ((outsAt_sums V c 9 h u q).1).trans ?_
  exact sum_blockSum (sh V c) q

/-- and the sum-of-squares row its column sums of squares. -/
theorem outsAt_last_sumsq (c : Dev nD) (h : 9 < cfg1.N) : (outsAt1 V c 9 h).2 = Cert.Spec.colSumSq (sh V c) := by
  funext j
  obtain ⟨u, q, rfl⟩ : ∃ (u : Fin 1) (q : Fin 128), j = ix2 u q := ⟨j 0, j 1, eq_ix2 j⟩
  refine ((outsAt_sums V c 9 h u q).2).trans ?_
  exact sum_blockSum (sq V c) q

end Cert.KernelIdeal.Regions

end
-- ==== Proof.KRegion1.lean ====
/-
  REGION 1, closed: the two [1,128] arrays the column-statistics kernel leaves are the column sums, and the column
  sums of squares, of the shifted aggregate — for any contents of the region's arrays on entry.

  Each output row is written back once, after the last grid point, when its staging row holds the whole accumulation;
  that one block is the whole row, so the array ends holding exactly it.
-/
import proofs.«143204_j18743237280519_2_alg».proof.Proof.Gen.KernelIdeal.Frame
import proofs.«143204_j18743237280519_2_alg».proof.Proof.Spec
import Idealize.ShloMosaic.Lib.Pipeline.Value
import Idealize.ShloMosaic.Lib.Tactic
import Idealize.ShloMosaic.Lib.ValueLayout
import Idealize.ShloMosaic.PureOps.Ideal.Laws
import proofs.«143204_j18743237280519_2_alg».proof.Proof.KRegion1Pieces
import proofs.«143204_j18743237280519_2_alg».proof.Proof.KRegion1Pay
import proofs.«143204_j18743237280519_2_alg».proof.Proof.KRegion1Step
import proofs.«143204_j18743237280519_2_alg».proof.Proof.KRegion1Inv

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

variable (V : (c : Dev nD) → (b : Ref sig .tc) → Buf (Elt Ideal) ((c : Thread nD τ).loc b))

theorem hz1_2 : (fun a => win1_2.index t1_9 a * main_v87_0.ty.shape.size a) = fun _ => 0 :=
  funext fun a => by fin_cases a <;> decide
theorem hz1_3 : (fun a => win1_3.index t1_9 a * main_v87_1.ty.shape.size a) = fun _ => 0 :=
  funext fun a => by fin_cases a <;> decide

/-- The one write-back of the sum row, at the last point, writes the column sums: the row's one block is the row. -/
theorem flushed_sum (c : Dev nD) (t : Fin cfg1.N) (hf : (cfg1.win 2).flush t = true) :
    (dat1 V c).flushed 2 t = ((cfg1.win 2).blk t).view.read (Elt Ideal) (Cert.Spec.colSum (sh V c)) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  refine (congrArg ((cfg1.win 2).cut (grid1.coords t1_9)) (outsAt_last_sum V c t1_9.isLt)).trans ?_
  exact (Memref.read_access_unit_zero (Elt Ideal) main_v87_0 hz1_2 (fun a => by rw [congrFun hz1_2 a]; simp)
    (Cert.Spec.colSum (sh V c))).symm

/-- The same for the sum-of-squares row. -/
theorem flushed_sumsq (c : Dev nD) (t : Fin cfg1.N) (hf : (cfg1.win 3).flush t = true) :
    (dat1 V c).flushed 3 t = ((cfg1.win 3).blk t).view.read (Elt Ideal) (Cert.Spec.colSumSq (sh V c)) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3]
  refine (congrArg ((cfg1.win 3).cut (grid1.coords t1_9)) (outsAt_last_sumsq V c t1_9.isLt)).trans ?_
  exact (Memref.read_access_unit_zero (Elt Ideal) main_v87_1 hz1_3 (fun a => by rw [congrFun hz1_3 a]; simp)
    (Cert.Spec.colSumSq (sh V c))).symm

/-- REGION 1, the sum row: the array the region leaves is the column sums of the shifted aggregate (the last point's
    write-back covers the whole [1,128] row). -/
theorem region1_sum (c : Dev nD) :
    (Gen.dat1 (F := Ideal) V c).arrAt 2 cfg1.N = Cert.Spec.colSum (Cert.Spec.shifted (V c main_v83) (V c main_v84)) :=
  (dat1 V c).arrAt_eq_of_cover 2 (Cert.Spec.colSum (sh V c)) (flushed_sum V c) fun i =>
    ⟨t1_9, (flush1_2 t1_9).mpr rfl, by
      show i ∈ ((View.whole main_v87_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_2.index t1_9 0 * win1_2.size 0 ≤ (i 0 : Nat)
          ∧ (i 0 : Nat) < win1_2.index t1_9 0 * win1_2.size 0 + win1_2.xsize (grid1.coords t1_9) 0
        rw [show win1_2.index t1_9 0 * win1_2.size 0 = 0 from by decide +kernel,
          show win1_2.xsize (grid1.coords t1_9) 0 = 1 from by decide +kernel]; omega
      | ⟨1, _⟩ =>
        show win1_2.index t1_9 1 * win1_2.size 1 ≤ (i 1 : Nat)
          ∧ (i 1 : Nat) < win1_2.index t1_9 1 * win1_2.size 1 + win1_2.xsize (grid1.coords t1_9) 1
        rw [show win1_2.index t1_9 1 * win1_2.size 1 = 0 from by decide +kernel,
          show win1_2.xsize (grid1.coords t1_9) 1 = 128 from by decide +kernel]; omega⟩

/-- REGION 1, the sum-of-squares row: the array the region leaves is the column sums of the squares. -/
theorem region1_sumsq (c : Dev nD) :
    (Gen.dat1 (F := Ideal) V c).arrAt 3 cfg1.N = Cert.Spec.colSumSq (Cert.Spec.shifted (V c main_v83) (V c main_v84)) :=
  (dat1 V c).arrAt_eq_of_cover 3 (Cert.Spec.colSumSq (sh V c)) (flushed_sumsq V c) fun i =>
    ⟨t1_9, (flush1_3 t1_9).mpr rfl, by
      show i ∈ ((View.whole main_v87_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ =>
        show win1_3.index t1_9 0 * win1_3.size 0 ≤ (i 0 : Nat)
          ∧ (i 0 : Nat) < win1_3.index t1_9 0 * win1_3.size 0 + win1_3.xsize (grid1.coords t1_9) 0
        rw [show win1_3.index t1_9 0 * win1_3.size 0 = 0 from by decide +kernel,
          show win1_3.xsize (grid1.coords t1_9) 0 = 1 from by decide +kernel]; omega
      | ⟨1, _⟩ =>
        show win1_3.index t1_9 1 * win1_3.size 1 ≤ (i 1 : Nat)
          ∧ (i 1 : Nat) < win1_3.index t1_9 1 * win1_3.size 1 + win1_3.xsize (grid1.coords t1_9) 1
        rw [show win1_3.index t1_9 1 * win1_3.size 1 = 0 from by decide +kernel,
          show win1_3.xsize (grid1.coords t1_9) 1 = 128 from by decide +kernel]; omega⟩

end Cert.KernelIdeal.Regions

end
-- ==== Proof.KRegion2.lean ====
/-
  The third kernel region in closed form, over the extended reals.

  The region applies the epilogue of the layer 5000 rows at a time: grid point t reads rows 5000·t … 5000·t + 4999
  of the aggregated features and of the residual, and the five [1,128] rows (bias, mean, inverse deviation, scale,
  shift) whole, and writes the same rows of the result.  At entry (p, q) of a block every [1,128] row is read at its
  entry q — it is spread over the rows before it is used —, the arithmetic is entry by entry, and each
  compare-with-zero followed by a select between z and a tenth of z is the leaky ReLU.  Since the ten row blocks tile
  the 50000 rows, the array the region leaves is the epilogue of the specification, entry by entry.
-/
import proofs.«143204_j18743237280519_2_alg».proof.Proof.Gen.KernelIdeal.Frame
import proofs.«143204_j18743237280519_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Regions

open Cert.KernelIdeal Cert.KernelIdeal.Gen

/-- A [1,128] row spread over the 5000 rows of a block reads, at (p, q), the row's entry q. -/
theorem row_spread_apply {α : Type} (r : S1x128.Idx → α) (p : Fin 5000) (q : Fin 128) :
    broadcastTo S5000x128 r broadcasts_S1x128_S5000x128 (ix2 p q) = r (ix2 (0 : Fin 1) q) := by
  refine broadcastTo_apply r _ (ix2 p q) (ix2 (0 : Fin 1) q) fun a => ?_
  match a with
  | ⟨0, _⟩ => rfl
  | ⟨1, _⟩ => rfl

/-- The compare-and-select pair of the body is the leaky ReLU: z where 0 < z, a tenth of z elsewhere. -/
theorem leaky_select (z : EReal) :
    Scalar.select (Ideal.cmp .ogt z (Ideal.ofBits .f32 0x00000000#32)) z (Ideal.ofBits .f32 0x3DCCCCCD#32 * z)
      = Cert.Spec.lrelu z := by
  unfold Cert.Spec.lrelu Cert.Spec.tenth
  rw [Ideal.ofBits_zero_f32]
  unfold Scalar.select Ideal.cmp
  by_cases h : 0 < z
  · simp [h]
  · simp [h]

/-- Two of them with the residual added in between. -/
theorem leaky_twice (z r : EReal) :
    Scalar.select (Ideal.cmp .ogt
        (Scalar.select (Ideal.cmp .ogt z (Ideal.ofBits .f32 0x00000000#32)) z (Ideal.ofBits .f32 0x3DCCCCCD#32 * z) + r)
        (Ideal.ofBits .f32 0x00000000#32))
      (Scalar.select (Ideal.cmp .ogt z (Ideal.ofBits .f32 0x00000000#32)) z (Ideal.ofBits .f32 0x3DCCCCCD#32 * z) + r)
      (Ideal.ofBits .f32 0x3DCCCCCD#32
        * (Scalar.select (Ideal.cmp .ogt z (Ideal.ofBits .f32 0x00000000#32)) z (Ideal.ofBits .f32 0x3DCCCCCD#32 * z) + r))
      = Cert.Spec.lrelu (Cert.Spec.lrelu z + r) :=
  (leaky_select _).trans (congrArg (fun w => Cert.Spec.lrelu (w + r)) (leaky_select z))

/-- The epilogue of a block at an entry: the block of aggregated features and the residual block at (p, q), every
    [1,128] row at q. -/
theorem epilogue_block_apply (a : Vec Ideal S5000x128 .f32) (b mu istd g be : Vec Ideal S1x128 .f32)
    (x : Vec Ideal S5000x128 .f32) (p : Fin 5000) (q : Fin 128) :
    k2_pay1 (F := Ideal) a b mu istd g be x (ix2 p q)
      = Cert.Spec.lrelu (Cert.Spec.lrelu ((((a (ix2 p q) + b (ix2 (0 : Fin 1) q)) - mu (ix2 (0 : Fin 1) q)) * istd (ix2 (0 : Fin 1) q))
          * g (ix2 (0 : Fin 1) q) + be (ix2 (0 : Fin 1) q)) + x (ix2 p q)) := by
  unfold k2_pay1
  simp only [shapeCast_self]
  simp only [select_apply, cmpf_apply, mulf_apply, addf_apply, subf_apply, broadcast_apply, row_spread_apply]
  exact leaky_twice _ _

section AtEntry

variable (V : (c : Dev nD) → (b : Ref sig .tc) → Buf (Elt Ideal) ((c : Thread nD τ).loc b))

theorem no_offsets : (![0, 0] : Fin 2 → Nat) = fun _ => 0 := funext fun a => by fin_cases a <;> rfl

/-- The block indices over the ten grid points: the three row-block windows sit at block t of the rows and block 0
    of the columns, the five [1,128] windows at block (0, 0) throughout. -/
theorem block_indices2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The aggregated features' block at point t is rows 5000·t … 5000·t + 4999 of the array. -/
theorem agg_block_apply (c : Dev nD) (t : Fin cfg2.N) (y : S5000x128.Idx) (i : S50000x128.Idx)
    (h0 : (i 0).val = 5000 * t.val + (y 0).val) (h1 : (i 1).val = (y 1).val) :
    (iblk2 V c 0 t : Vec Ideal S5000x128 .f32) y = (V c main_v83 : S50000x128.Idx → EReal) i := by
  have e := block_indices2 t
  unfold iblk2
  rw [View.read_apply]
  show V c main_v83 _ = V c main_v83 _
  congr 1
  funext a
  apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- The residual's block at point t is the same rows of the node features. -/
theorem res_block_apply (c : Dev nD) (t : Fin cfg2.N) (y : S5000x128.Idx) (i : S50000x128.Idx)
    (h0 : (i 0).val = 5000 * t.val + (y 0).val) (h1 : (i 1).val = (y 1).val) :
    (iblk2 V c 1 t : Vec Ideal S5000x128 .f32) y = (V c main_arg0 : S50000x128.Idx → EReal) i := by
  have e := block_indices2 t
  unfold iblk2
  rw [View.read_apply]
  show V c main_arg0 _ = V c main_arg0 _
  congr 1
  funext a
  apply Fin.ext
  match a with
  | ⟨0, _⟩ => show win2_1.index t (0 : Fin 2) * 5000 + 1 * (y 0).val = (i 0).val; omega
  | ⟨1, _⟩ => show win2_1.index t (1 : Fin 2) * 128 + 1 * (y 1).val = (i 1).val; omega

/-- The bias row's block is the whole row at every point. -/
theorem row2_apply (c : Dev nD) (t : Fin cfg2.N) (y : S1x128.Idx) :
    (iblk2 V c 2 t : Vec Ideal S1x128 .f32) y = (V c main_v84 : S1x128.Idx → EReal) y := by
  have e := block_indices2 t
  unfold iblk2
  rw [View.read_apply]
  show V c main_v84 _ = V c main_v84 _
  congr 1
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The scale row's block is the whole row at every point. -/
theorem row3_apply (c : Dev nD) (t : Fin cfg2.N) (y : S1x128.Idx) :
    (iblk2 V c 3 t : Vec Ideal S1x128 .f32) y = (V c main_v85 : S1x128.Idx → EReal) y := by
  have e := block_indices2 t
  unfold iblk2
  rw [View.read_apply]
  show V c main_v85 _ = V c main_v85 _
  congr 1
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The shift row's block is the whole row at every point. -/
theorem row4_apply (c : Dev nD) (t : Fin cfg2.N) (y : S1x128.Idx) :
    (iblk2 V c 4 t : Vec Ideal S1x128 .f32) y = (V c main_v86 : S1x128.Idx → EReal) y := by
  have e := block_indices2 t
  unfold iblk2
  rw [View.read_apply]
  show V c main_v86 _ = V c main_v86 _
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- The mean row's block is the whole row at every point. -/
theorem row5_apply (c : Dev nD) (t : Fin cfg2.N) (y : S1x128.Idx) :
    (iblk2 V c 5 t : Vec Ideal S1x128 .f32) y = (V c main_v89 : S1x128.Idx → EReal) y := by
  have e := block_indices2 t
  unfold iblk2
  rw [View.read_apply]
  show V c main_v89 _ = V c main_v89 _
  congr 1
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- The inverse-deviation row's block is the whole row at every point. -/
theorem row6_apply (c : Dev nD) (t : Fin cfg2.N) (y : S1x128.Idx) :
    (iblk2 V c 6 t : Vec Ideal S1x128 .f32) y = (V c main_v98 : S1x128.Idx → EReal) y := by
  have e := block_indices2 t
  unfold iblk2
  rw [View.read_apply]
  show V c main_v98 _ = V c main_v98 _
  congr 1
  funext a
  apply Fin.ext
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- What point t writes back is block t of the epilogue of the arrays the region finds. -/
theorem flushed2_eq (c : Dev nD) (t : Fin cfg2.N) :
    (dat2 (F := Ideal) V c).flushed 7 t
      = ((cfg2.win 7).blk t).view.read (Elt Ideal)
          (Cert.Spec.epilogue (V c main_v83) (V c main_arg0) (V c main_v84) (V c main_v85) (V c main_v86) (V c main_v89) (V c main_v98)) := by
  show (cfg2.win 7).cut (grid2.coords t) ((dat2 V c).after 7 t) = _
  rw [after2_7]
  unfold out2_7
  rw [View.canon_unit_zero no_offsets]
  simp only [View.ld_unit_zero (S := S5000x128) no_offsets, View.ld_unit_zero (S := S1x128) no_offsets]
  have e := block_indices2 t
  refine funext fun (j : S5000x128.Idx) => ?_
  obtain ⟨p, q, rfl⟩ : ∃ (p : Fin 5000) (q : Fin 128), j = ix2 p q := ⟨j 0, j 1, eq_ix2 j⟩
  show k2_pay1 (F := Ideal) (iblk2 V c 0 t) (iblk2 V c 2 t) (iblk2 V c 5 t) (iblk2 V c 6 t) (iblk2 V c 3 t) (iblk2 V c 4 t) (iblk2 V c 1 t) (ix2 p q)
      = Cert.Spec.epilogue (V c main_v83) (V c main_arg0) (V c main_v84) (V c main_v85) (V c main_v86) (V c main_v89) (V c main_v98)
          (((cfg2.win 7).blk t).view.emb (ix2 p q))
  refine (epilogue_block_apply _ _ _ _ _ _ _ p q).trans ?_
  have hr : ((((cfg2.win 7).blk t).view.emb (ix2 p q)) 0).val = 5000 * t.val + p.val := by
    show win2_7.index t (0 : Fin 2) * 5000 + 1 * p.val = _; omega
  have hc : ((((cfg2.win 7).blk t).view.emb (ix2 p q)) 1).val = q.val := by
    show win2_7.index t (1 : Fin 2) * 128 + 1 * q.val = _; omega
  have hq : Cert.Spec.col (((cfg2.win 7).blk t).view.emb (ix2 p q)) = q := Fin.ext hc
  rw [agg_block_apply V c t (ix2 p q) (((cfg2.win 7).blk t).view.emb (ix2 p q)) hr hc,
    res_block_apply V c t (ix2 p q) (((cfg2.win 7).blk t).view.emb (ix2 p q)) hr hc,
    row2_apply V c t, row3_apply V c t, row4_apply V c t, row5_apply V c t, row6_apply V c t]
  unfold Cert.Spec.epilogue
  rw [hq]

/-- An index of the result array lies in point t's block iff each coordinate lies in the block's range. -/
theorem mem_block2 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v99).slice (win2_7.rect t)).set ↔ _
  rw [View.set_slice_whole, Rect.mem_set_unit]
  exact Iff.rfl

/-- Row r of the result is written back by the point r / 5000. -/
theorem covered2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have e := block_indices2 t
  have ht : t.val = (i 0).val / 5000 := rfl
  refine ⟨t, flush2_7 t, ?_⟩
  rw [mem_block2]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- After region 2 the result array holds the epilogue of the aggregated features, the node features and the five rows. -/
theorem region2_value (c : Dev nD) :
    (dat2 (F := Ideal) V c).arrAt 7 cfg2.N
      = Cert.Spec.epilogue (V c main_v83) (V c main_arg0) (V c main_v84) (V c main_v85) (V c main_v86) (V c main_v89) (V c main_v98) :=
  (dat2 (F := Ideal) V c).arrAt_eq_of_cover 7
    (Cert.Spec.epilogue (V c main_v83) (V c main_arg0) (V c main_v84) (V c main_v85) (V c main_v86) (V c main_v89) (V c main_v98))
    (fun t _ => flushed2_eq V c t) covered2

end AtEntry

end Cert.KernelIdeal.Regions

end
-- ==== Proof.LibRealSums.lean ====
/-
  Real entries of the extended reals, and two laws of finite sums that hold for them.

  An extended real is called real (`IsReal`) when it is the coercion of a real number: neither +∞ nor −∞.
  Sums and products of reals are real, the logistic function of a real is real, an extended real whose absolute
  value max x (−x) is below +∞ is real, and the f32 words 0x7F800000 and 0xFF800000 denote +∞ and −∞.

  On the extended reals the multiplication does not distribute over addition at the infinities, so the two laws
  are stated for real entries. `sum_scale_comm`: in a finite sum of products, a scale applied to one factor of
  every term is the scale applied to the finished sum. `softmax_div_comm`: for a row r with no entry +∞ and some
  entry above −∞, the weights e^(r j − max r) are reals that are not negative and their total is a positive
  real; so the normalisation by the total can be exchanged with the weighted sum of real values — dividing each
  weight by the total first, or the weighted sum afterwards, gives the same real.
-/
import Mathlib.Data.EReal.Inv
import Mathlib.Data.Finset.Fold
import Idealize.ShloMosaic.PureOps.Ideal
import Idealize.ShloMosaic.PureOps.Ideal.Laws
import Idealize.ShloMosaic.Lib.IdealHost

noncomputable section

open scoped BigOperators

namespace Cert.Math

open Idealize.ShloMosaic

/-! ### Real extended reals -/

/-- An extended real that is the coercion of a real number. -/
def IsReal (x : EReal) : Prop := ∃ r : ℝ, x = (r : EReal)

/-- A real is not +∞. -/
theorem IsReal.ne_top {x : EReal} : IsReal x → x ≠ ⊤ := by
  rintro ⟨r, rfl⟩; exact EReal.coe_ne_top r

/-- A real is not −∞. -/
theorem IsReal.ne_bot {x : EReal} : IsReal x → x ≠ ⊥ := by
  rintro ⟨r, rfl⟩; exact EReal.coe_ne_bot r

/-- The coercion of a real number is real. -/
theorem isReal_coe (r : ℝ) : IsReal (r : EReal) := ⟨r, rfl⟩

/-- Zero is real. -/
theorem isReal_zero : IsReal 0 := ⟨0, EReal.coe_zero.symm⟩

/-- A product of reals is real. -/
theorem IsReal.mul {x y : EReal} : IsReal x → IsReal y → IsReal (x * y) := by
  rintro ⟨a, rfl⟩ ⟨b, rfl⟩; exact ⟨a * b, (EReal.coe_mul a b).symm⟩

/-- A sum of two reals is real. -/
theorem IsReal.add {x y : EReal} : IsReal x → IsReal y → IsReal (x + y) := by
  rintro ⟨a, rfl⟩ ⟨b, rfl⟩; exact ⟨a + b, (EReal.coe_add a b).symm⟩

/-- A finite sum of reals is real. -/
theorem IsReal.sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact IsReal.add (h a (Finset.mem_insert_self a s)) (ih (fun i hi => h i (Finset.mem_insert_of_mem hi)))

/-- The logistic function of a real r is the real 1 / (1 + e^(-r)): the divisor is positive. -/
theorem IsReal.logistic {x : EReal} : IsReal x → IsReal (Ideal.logistic x) := by
  rintro ⟨r, rfl⟩; exact ⟨_, Ideal.logistic_coe r⟩

/-- An extended real whose absolute value max x (-x) is below +∞ is real. -/
theorem isReal_of_abs_lt_top {x : EReal} (h : max x (-x) < ⊤) : IsReal x := by
  induction x using EReal.rec with
  | bot => simp at h
  | coe r => exact ⟨r, rfl⟩
  | top => simp at h

/-- The f32 word with sign 0, all-ones exponent and zero fraction is +∞. -/
theorem ofBits_inf : Ideal.ofBits .f32 0x7F800000#32 = ⊤ := by
  simp [Ideal.ofBits, Ideal.ieee]

/-- The f32 word with sign 1, all-ones exponent and zero fraction is −∞. -/
theorem ofBits_neg_inf : Ideal.ofBits .f32 0xFF800000#32 = ⊥ := by
  simp [Ideal.ofBits, Ideal.ieee]

/-! ### Finite sums of reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A scale applied to one factor of every term of a sum of products of reals is the scale applied to the
    finished sum. -/
theorem sum_scale_comm {ι : Type} [Fintype ι] (q k : ι → EReal) (s : EReal)
    (hq : ∀ h, IsReal (q h)) (hk : ∀ h, IsReal (k h)) (hs : IsReal s) :
    ∑ h, (q h * s) * k h = (∑ h, q h * k h) * s := by
  obtain ⟨s', rfl⟩ := hs
  choose q' hq' using hq
  choose k' hk' using hk
  have e1 : ∀ h ∈ (Finset.univ : Finset ι), (q h * (s' : EReal)) * k h = ((q' h * s' * k' h : ℝ) : EReal) := by
    intro h _; rw [hq' h, hk' h, EReal.coe_mul, EReal.coe_mul]
  have e2 : ∀ h ∈ (Finset.univ : Finset ι), q h * k h = ((q' h * k' h : ℝ) : EReal) := by
    intro h _; rw [hq' h, hk' h, EReal.coe_mul]
  rw [Finset.sum_congr rfl e1, Finset.sum_congr rfl e2, ← coe_sum, ← coe_sum, ← EReal.coe_mul,
    Finset.sum_mul]
  exact congrArg _ (Finset.sum_congr rfl (fun h _ => by ring))

/-! ### The row normalisation -/

/-- For a row r of extended reals none of which is +∞ and one of which is not −∞, the weights
    e^(r j − max r) are real and not negative and their total is positive; so dividing each weight by the
    total before the weighted sum of real values, or the weighted sum afterwards, gives the same real. -/
theorem softmax_div_comm {n : ℕ} (r : Fin n → EReal) (v : Fin n → EReal) (hr : ∀ j, r j ≠ ⊤)
    (j0 : Fin n) (hj0 : r j0 ≠ ⊥) (hv : ∀ j, IsReal (v j)) :
    ∑ j, Ideal.div (Ideal.exp (r j - (Finset.univ : Finset (Fin n)).fold max ⊥ r))
        (∑ j', Ideal.exp (r j' - (Finset.univ : Finset (Fin n)).fold max ⊥ r)) * v j
      = Ideal.div (∑ j, Ideal.exp (r j - (Finset.univ : Finset (Fin n)).fold max ⊥ r) * v j)
        (∑ j', Ideal.exp (r j' - (Finset.univ : Finset (Fin n)).fold max ⊥ r)) := by
  -- the maximum is real: below +∞ since every entry is, above −∞ since it bounds r j0
  have hm_top : (Finset.univ : Finset (Fin n)).fold max ⊥ r < ⊤ :=
    (Finset.fold_max_lt ⊤).mpr ⟨bot_lt_top, fun j _ => lt_top_iff_ne_top.mpr (hr j)⟩
  have hm_ge : r j0 ≤ (Finset.univ : Finset (Fin n)).fold max ⊥ r :=
    (Finset.le_fold_max (r j0)).mpr (Or.inr ⟨j0, Finset.mem_univ j0, le_refl _⟩)
  have hm_bot : (Finset.univ : Finset (Fin n)).fold max ⊥ r ≠ ⊥ := by
    intro e; rw [e] at hm_ge; exact hj0 (le_bot_iff.mp hm_ge)
  generalize (Finset.univ : Finset (Fin n)).fold max ⊥ r = m at hm_top hm_ge hm_bot ⊢
  lift m to ℝ using ⟨hm_top.ne, hm_bot⟩
  -- every weight is a real that is not negative
  have hw : ∀ j, ∃ w : ℝ, 0 ≤ w ∧ Ideal.exp (r j - (m : EReal)) = (w : EReal) := by
    intro j
    induction hx : r j using EReal.rec with
    | bot => exact ⟨0, le_refl _, by rw [EReal.bot_sub, Ideal.exp_bot, EReal.coe_zero]⟩
    | coe a => exact ⟨Real.exp (a - m), (Real.exp_pos _).le, by rw [← EReal.coe_sub, Ideal.exp_coe]⟩
    | top => exact absurd hx (hr j)
  choose w hw0 hw using hw
  choose v' hv' using hv
  -- the weight at j0 is positive, so the total is
  have hwj0 : 0 < w j0 := by
    have h := hw j0
    induction hx : r j0 using EReal.rec with
    | bot => exact absurd hx hj0
    | coe a =>
      rw [hx, ← EReal.coe_sub, Ideal.exp_coe] at h
      rw [← EReal.coe_eq_coe_iff.mp h]; exact Real.exp_pos _
    | top => exact absurd hx (hr j0)
  have hL : 0 < ∑ j, w j :=
    Finset.sum_pos' (fun j _ => hw0 j) ⟨j0, Finset.mem_univ j0, hwj0⟩
  have eL : ∑ j', Ideal.exp (r j' - (m : EReal)) = ((∑ j, w j : ℝ) : EReal) := by
    rw [coe_sum]; exact Finset.sum_congr rfl (fun j _ => hw j)
  rw [eL]
  have e1 : ∀ j ∈ (Finset.univ : Finset (Fin n)),
      Ideal.div (Ideal.exp (r j - (m : EReal))) ((∑ j, w j : ℝ) : EReal) * v j
        = ((w j * (1 / ∑ j, w j) * v' j : ℝ) : EReal) := by
    intro j _
    rw [Ideal.div_coe hL.ne', hw j, hv' j, EReal.coe_mul, EReal.coe_mul]
  have e2 : ∀ j ∈ (Finset.univ : Finset (Fin n)),
      Ideal.exp (r j - (m : EReal)) * v j = ((w j * v' j : ℝ) : EReal) := by
    intro j _
    rw [hw j, hv' j, EReal.coe_mul]
  rw [Finset.sum_congr rfl e1, Finset.sum_congr rfl e2, Ideal.div_coe hL.ne', ← coe_sum, ← coe_sum,
    ← EReal.coe_mul, Finset.sum_mul]
  exact congrArg _ (Finset.sum_congr rfl (fun j _ => by ring))

end Cert.Math

end
-- ==== Proof.Stats.lean ====
/-
  The batch statistics, on the extended reals.

  The streaming form of a column's variance — the mean of the squares less the square of the mean, clamped below at
  zero — and the two-pass form — the mean of the squared deviations from the mean — are the same number when every
  entry of the column is a real: over the reals Σ (b − μ)² = Σ b² − n μ² with μ = (Σ b) / n, and the two-pass
  form is not negative, so the clamp does nothing.  (At an infinite entry the two forms differ, which is why the
  entries are required to be real.)  The count of rows is the binary32 number 50000, an exact integer.
  The two spellings of the leaky ReLU — the test strict or not — agree everywhere, since at zero both give zero.
-/
import proofs.«143204_j18743237280519_2_alg».proof.Proof.Spec
import proofs.«143204_j18743237280519_2_alg».proof.Proof.LibRealSums
import Idealize.ShloMosaic.PureOps.Ideal.Laws
import Idealize.ShloMosaic.Lib.ValueIdx

noncomputable section

open scoped BigOperators

namespace Cert.Stats

open Idealize.ShloMosaic Cert.Math Cert.Spec

/-- The binary32 word 0x47435000 is fifty thousand. -/
theorem fiftyK_eq : Cert.Spec.fiftyK = ((50000 : ℝ) : EReal) := by
  unfold Cert.Spec.fiftyK
  simp [Ideal.ofBits, Ideal.ieee, -EReal.coe_mul]; norm_num

/-- One tenth, as binary32, is a real. -/
theorem tenth_real : IsReal Cert.Spec.tenth := by
  unfold Cert.Spec.tenth
  simp only [Ideal.ofBits, Ideal.ieee]
  split_ifs <;> first | exact ⟨_, rfl⟩ | skip
  all_goals simp at *

/-- Over the reals: the mean of the squared deviations is the mean of the squares less the squared mean. -/
theorem var_identity (n : ℕ) (hn : 0 < n) (b : Fin n → ℝ) :
    (∑ p, (b p - (∑ q, b q) / n) * (b p - (∑ q, b q) / n)) / n
      = (∑ p, b p * b p) / n - ((∑ q, b q) / n) * ((∑ q, b q) / n) := by
  have hn' : (n : ℝ) ≠ 0 := by exact_mod_cast hn.ne'
  generalize hμ : (∑ q, b q) / (n : ℝ) = μ
  have hs : ∑ q, b q = n * μ := by rw [← hμ]; field_simp
  have h1 : ∀ p, (b p - μ) * (b p - μ) = b p * b p - 2 * μ * b p + μ * μ := fun p => by ring
  simp only [h1, Finset.sum_add_distrib, Finset.sum_sub_distrib, ← Finset.mul_sum, Finset.sum_const,
    Finset.card_univ, Fintype.card_fin, nsmul_eq_mul, hs]
  field_simp
  ring

/-- The mean of the squared deviations is not negative. -/
theorem var_nonneg (n : ℕ) (b : Fin n → ℝ) (μ : ℝ) : 0 ≤ (∑ p, (b p - μ) * (b p - μ)) / n :=
  div_nonneg (Finset.sum_nonneg fun p _ => mul_self_nonneg _) (Nat.cast_nonneg n)

/-- The column mean, for a column of reals, as a real. -/
theorem mean_coe (b : Fin 50000 → ℝ) :
    Ideal.div (∑ p, ((b p : ℝ) : EReal)) Cert.Spec.fiftyK = (((∑ p, b p) / (50000 : ℕ) : ℝ) : EReal) := by
  rw [fiftyK_eq, Ideal.div_coe (by norm_num), ← coe_sum, ← EReal.coe_mul]
  congr 1
  push_cast
  ring

/-- The streaming variance clamped at zero is the two-pass variance, for a column of reals. -/
theorem var_agree (B : Fin 50000 → EReal) (hB : ∀ p, IsReal (B p)) :
    max (Ideal.div (∑ p, B p * B p) Cert.Spec.fiftyK
          - Ideal.div (∑ p, B p) Cert.Spec.fiftyK * Ideal.div (∑ p, B p) Cert.Spec.fiftyK) 0
      = Ideal.div (∑ p, (B p - Ideal.div (∑ q, B q) Cert.Spec.fiftyK) * (B p - Ideal.div (∑ q, B q) Cert.Spec.fiftyK))
          Cert.Spec.fiftyK := by
  choose b hb using hB
  have eB : B = fun p => ((b p : ℝ) : EReal) := funext hb
  subst eB
  rw [mean_coe]
  have e2 : ∀ p ∈ (Finset.univ : Finset (Fin 50000)), ((b p : ℝ) : EReal) * ((b p : ℝ) : EReal) = ((b p * b p : ℝ) : EReal) :=
    fun p _ => (EReal.coe_mul _ _).symm
  have e3 : ∀ p ∈ (Finset.univ : Finset (Fin 50000)),
      (((b p : ℝ) : EReal) - (((∑ q, b q) / (50000 : ℕ) : ℝ) : EReal)) * (((b p : ℝ) : EReal) - (((∑ q, b q) / (50000 : ℕ) : ℝ) : EReal))
        = (((b p - (∑ q, b q) / (50000 : ℕ)) * (b p - (∑ q, b q) / (50000 : ℕ)) : ℝ) : EReal) :=
    fun p _ => by rw [← EReal.coe_sub, ← EReal.coe_mul]
  rw [Finset.sum_congr rfl e2, Finset.sum_congr rfl e3, ← coe_sum, ← coe_sum, fiftyK_eq,
    Ideal.div_coe (by norm_num), Ideal.div_coe (by norm_num), ← EReal.coe_mul, ← EReal.coe_mul, ← EReal.coe_mul,
    ← EReal.coe_sub, ← EReal.coe_zero]
  have h := var_identity 50000 (by norm_num) b
  have h0 := var_nonneg 50000 b ((∑ q, b q) / (50000 : ℕ))
  have key : (∑ i, b i * b i) * (1 / 50000) - (∑ p, b p) / ((50000 : ℕ) : ℝ) * ((∑ p, b p) / ((50000 : ℕ) : ℝ))
      = (∑ i, (b i - (∑ q, b q) / ((50000 : ℕ) : ℝ)) * (b i - (∑ q, b q) / ((50000 : ℕ) : ℝ))) * (1 / 50000) := by
    rw [mul_one_div, mul_one_div]
    push_cast at h ⊢
    linarith [h]
  have hge : (0 : ℝ) ≤ (∑ i, (b i - (∑ q, b q) / ((50000 : ℕ) : ℝ)) * (b i - (∑ q, b q) / ((50000 : ℕ) : ℝ))) * (1 / 50000) := by
    rw [mul_one_div]
    push_cast at h0 ⊢
    exact h0
  rw [key, max_eq_left (EReal.coe_le_coe_iff.mpr hge)]

/-- The leaky ReLU with the test not strict. -/
def lreluGE (z : EReal) : EReal := if 0 ≤ z then z else Cert.Spec.tenth * z

/-- The two spellings agree: they differ only in the branch taken at zero, where both give zero. -/
theorem lrelu_eq (z : EReal) : Cert.Spec.lrelu z = lreluGE z := by
  unfold Cert.Spec.lrelu lreluGE
  by_cases h : 0 < z
  · rw [if_pos h, if_pos h.le]
  · rw [if_neg h]
    by_cases h' : 0 ≤ z
    · have hz : z = 0 := le_antisymm (not_lt.mp h) h'
      rw [if_pos h', hz, mul_zero]
    · rw [if_neg h']

/-! ### The two-pass statistics and the reference's result, index by index -/

/-- The mean of column q of an [N,128] array: the column's sum over fifty thousand. -/
def colMean (B : Cert.Spec.SN.Idx → EReal) (q : Fin 128) : EReal :=
  Ideal.div (∑ p : Fin 50000, B (ValueIdx.ix2 p q)) Cert.Spec.fiftyK

/-- The two-pass population variance of column q: the mean of the squared deviations from the column's mean. -/
def colVar (B : Cert.Spec.SN.Idx → EReal) (q : Fin 128) : EReal :=
  Ideal.div (∑ p : Fin 50000, (B (ValueIdx.ix2 p q) - colMean B q) * (B (ValueIdx.ix2 p q) - colMean B q)) Cert.Spec.fiftyK

/-- The reference's result at an index, from the shifted aggregate B, the residual x and the [128] vectors gamma and
    beta: B less its column mean, times the inverse root of the column variance plus the guard, times gamma, plus
    beta; leaky ReLU; plus x; leaky ReLU (the tests not strict). -/
def refOut (B x : Cert.Spec.SN.Idx → EReal) (g be : (⟨1, ![128]⟩ : Shape).Idx → EReal) : Cert.Spec.SN.Idx → EReal :=
  fun i =>
    lreluGE (lreluGE ((B i - colMean B (Cert.Spec.col i)) * Ideal.rsqrt (colVar B (Cert.Spec.col i) + Cert.Spec.eps)
        * g (ValueIdx.ix1 (Cert.Spec.col i)) + be (ValueIdx.ix1 (Cert.Spec.col i))) + x i)

end Cert.Stats

end
-- ==== Proof.KBridge.lean ====
/-
  From the kernel's epilogue to the reference's result, index by index over the extended reals.

  The kernel normalises with the mean row and the inverse-deviation row its host stretches compute from the two
  column-sum rows: the mean is the column sum over fifty thousand, the variance under the inverse square root is the
  mean of the squares less the squared mean, clamped below at zero, plus the guard.  The reference normalises with the
  two-pass statistics: the column mean and the mean of the squared deviations from it.  For a column of reals the two
  variances are the same number, so the two results agree entry by entry once the shifted aggregate is real
  everywhere; the [128] vectors enter the kernel as [1,128] rows, read at (0, q) as the vector at q, and the two
  spellings of the leaky ReLU agree.
-/
import proofs.«143204_j18743237280519_2_alg».proof.Proof.KRows
import proofs.«143204_j18743237280519_2_alg».proof.Proof.Spec
import proofs.«143204_j18743237280519_2_alg».proof.Proof.Stats
import proofs.«143204_j18743237280519_2_alg».proof.Proof.LibRealSums
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KernelIdeal.Bridge

open Cert.KernelIdeal Cert.KernelIdeal.Gen

/-- A [128] vector as the keepdims row [1,128]. -/
abbrev kd (v : Cert.KernelIdeal.S128.Idx → EReal) : Cert.KernelIdeal.S1x128.Idx → EReal :=
  shapeCast Cert.KernelIdeal.S1x128 v Cert.KernelIdeal.Facts₀.shapeCasts_S128_S1x128

/-- The keepdims row at (0, q) is the vector at q. -/
theorem kd_apply (v : Cert.KernelIdeal.S128.Idx → EReal) (q : Fin 128) : kd v (ix2 (0 : Fin 1) q) = v (ix1 q) :=
  shapeCast_a_1a_apply v _ (0 : Fin 1) q

/-- The mean row at (0, q): the column-sum row there over fifty thousand. -/
theorem meanRow_apply (s1 : Vec Ideal S1x128 .f32) (q : Fin 128) :
    Gen.meanRow s1 (ix2 (0 : Fin 1) q) = Ideal.div (s1 (ix2 (0 : Fin 1) q)) Cert.Spec.fiftyK := rfl

/-- The inverse-deviation row at (0, q): the inverse square root of the clamped streaming variance plus the guard. -/
theorem istdRow_apply (s1 s2 : Vec Ideal S1x128 .f32) (q : Fin 128) :
    Gen.istdRow s1 s2 (ix2 (0 : Fin 1) q)
      = Ideal.rsqrt (max (Ideal.div (s2 (ix2 (0 : Fin 1) q)) Cert.Spec.fiftyK
          - Gen.meanRow s1 (ix2 (0 : Fin 1) q) * Gen.meanRow s1 (ix2 (0 : Fin 1) q)) 0 + Cert.Spec.eps) := by
  have h : Gen.istdRow s1 s2 (ix2 (0 : Fin 1) q)
      = Ideal.rsqrt (max (Ideal.div (s2 (ix2 (0 : Fin 1) q)) Cert.Spec.fiftyK
          - Gen.meanRow s1 (ix2 (0 : Fin 1) q) * Gen.meanRow s1 (ix2 (0 : Fin 1) q)) (Ideal.ofBits .f32 0x00000000#32) + Cert.Spec.eps) := rfl
  rw [h, Ideal.ofBits_zero_f32]

/-- The kernel's epilogue over its own statistics rows is the reference's result over the two-pass statistics, when
    the shifted aggregate is real everywhere. -/
theorem epilogue_eq_refOut (A x : Cert.Spec.SN.Idx → EReal) (bias gamma beta : Cert.KernelIdeal.S128.Idx → EReal)
    (hB : ∀ i, Cert.Math.IsReal (Cert.Spec.shifted A (kd bias) i)) :
    Cert.Spec.epilogue A x (kd bias) (kd gamma) (kd beta)
        (Gen.meanRow (Cert.Spec.colSum (Cert.Spec.shifted A (kd bias))))
        (Gen.istdRow (Cert.Spec.colSum (Cert.Spec.shifted A (kd bias))) (Cert.Spec.colSumSq (Cert.Spec.shifted A (kd bias))))
      = Cert.Stats.refOut (Cert.Spec.shifted A (kd bias)) x gamma beta := by
  funext i
  have hmu : Gen.meanRow (Cert.Spec.colSum (Cert.Spec.shifted A (kd bias))) (ix2 (0 : Fin 1) (Cert.Spec.col i))
      = Cert.Stats.colMean (Cert.Spec.shifted A (kd bias)) (Cert.Spec.col i) := rfl
  have hvar := Cert.Stats.var_agree (fun p => Cert.Spec.shifted A (kd bias) (ix2 p (Cert.Spec.col i)))
    (fun p => hB (ix2 p (Cert.Spec.col i)))
  have histd : Gen.istdRow (Cert.Spec.colSum (Cert.Spec.shifted A (kd bias))) (Cert.Spec.colSumSq (Cert.Spec.shifted A (kd bias)))
        (ix2 (0 : Fin 1) (Cert.Spec.col i))
      = Ideal.rsqrt (Cert.Stats.colVar (Cert.Spec.shifted A (kd bias)) (Cert.Spec.col i) + Cert.Spec.eps) := by
    rw [istdRow_apply]
    exact congrArg (fun v => Ideal.rsqrt (v + Cert.Spec.eps)) hvar
  unfold Cert.Spec.epilogue Cert.Stats.refOut
  rw [hmu, histd, kd_apply gamma (Cert.Spec.col i), kd_apply beta (Cert.Spec.col i)]
  simp only [Cert.Stats.lrelu_eq]
  rfl

end Cert.KernelIdeal.Bridge

end
-- ==== Proof.LibGatherRows.lean ====
/-
  `x[idx]` along axis 0, with one start index per result row, read at an index.

  jnp's `x[idx]` for an integer vector `idx : [R]` lowers to a gather whose start indices are the column `[R, 1]`:
  of a matrix `x : [N, C]` it takes whole rows (offset axis 1, axis 0 collapsed, slice sizes `[1, C]`), of a vector
  `x : [N]` single entries (no offset axis, slice size `[1]`). Either way result row `r` comes from the operand's row
  `srcRow idx r`: the start index `idx[r, 0]` read as a signed integer and clamped into `[0, N − 1]`, as a gather clamps
  every start index. Both forms use THE SAME source row, which is what lets a row statistic be taken before or after
  the gather.
-/
import Idealize.ShloMosaic.Lib.ValueIdx
import Idealize.ShloMosaic.PureOps.ShapeOps

namespace Idealize.ShloMosaic.GatherRows

open Idealize.ShloMosaic Idealize.ShloMosaic.ValueIdx

variable {α : Type}

/-- The operand row that result row `r` reads: the start index `idx[r, 0]`, signed, clamped into `[0, N − 1]`. -/
def srcRow {N R w : Nat} (hN : 0 < N) (idx : IVec ⟨2, ![R, 1]⟩ w) (r : Fin R) : Fin N :=
  ⟨min (idx (ix2 r (0 : Fin 1))).toInt.toNat (N - 1), by omega⟩

/-- The dimension numbers of a gather of whole rows of an `[N, C]` operand at start indices `[R, 1]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries of an `[N]` operand at start indices `[R, 1]`. -/
abbrev entriesDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- ROWS, READ AT `(r, k)`: the operand's entry `(srcRow idx r, k)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowsDims N C R wf) x idx (ix2 r k) = x (ix2 (srcRow hN idx r) k) := by
  unfold Host.gather
  congr 1
  funext a
  refine Fin.ext ?_
  have hsi : (rowsDims N C R wf).siIdx (ix2 r k) ⟨List.idxOf (0 : Fin 2) (rowsDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  match a with
  | ⟨0, _⟩ =>
    show (rowsDims N C R wf).start (ix2 r k) idx 0 + (rowsDims N C R wf).batchCoord (ix2 r k) 0
      + (rowsDims N C R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl), hsi]
    rfl
  | ⟨1, _⟩ =>
    show (rowsDims N C R wf).start (ix2 r k) idx 1 + (rowsDims N C R wf).batchCoord (ix2 r k) 1
      + (rowsDims N C R wf).offCoord (ix2 r k) 1 = k.val
    rw [GatherDims.batchCoord_eq_zero _ _ _ List.not_mem_nil]
    unfold GatherDims.start
    rw [dif_neg (show (1 : Fin 2) ∉ (rowsDims N C R wf).startIndexMap from (by decide : (1 : Fin 2) ∉ ([0] : List (Fin 2))))]
    simp only [Nat.add_zero, Nat.zero_add]
    rfl

/-- ENTRIES, READ AT `r`: the operand's entry `srcRow idx r`. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entriesDims N R wf) x idx (ix1 r) = x (ix1 (srcRow hN idx r)) := by
  unfold Host.gather
  congr 1
  funext a
  obtain rfl : a = 0 := Subsingleton.elim _ _
  refine Fin.ext ?_
  show (entriesDims N R wf).start (ix1 r) idx 0 + (entriesDims N R wf).batchCoord (ix1 r) 0
    + (entriesDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N R wf).startIndexMap from List.mem_singleton.mpr rfl)]
  have hsi : (entriesDims N R wf).siIdx (ix1 r) ⟨List.idxOf (0 : Fin 1) (entriesDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Idealize.ShloMosaic.GatherRows
-- ==== Proof.LibScatterSum.lean ====
/-
  The host's accumulating scatter at the ideal values, read at an element, for any shapes and dimension numbers:
  the operand's element plus the sum, over ALL updates, of the update when it lands on that element and of zero
  when it does not.
-/
import Idealize.ShloMosaic.PureOps.Ideal
import Idealize.ShloMosaic.PureOps.Ideal.Laws
import Mathlib.Algebra.BigOperators.Group.Finset.Piecewise

noncomputable section

open scoped BigOperators

namespace Cert.ScatterSum

open Idealize.ShloMosaic

/-- A sum over the updates that land on `i` is a sum over all updates of the update or zero. -/
theorem hostScatterAdd_apply {s si su : Shape} (d : ScatterDims s si su) {w : Nat} (x : s.Idx → EReal) (idx : IVec si w)
    (upd : su.Idx → EReal) (i : s.Idx) (g : su.Idx → EReal)
    (hg : ∀ j, (d.resultIdx? j idx = some i → g j = upd j) ∧ (d.resultIdx? j idx ≠ some i → g j = 0)) :
    (Host.scatterAdd (F := Ideal) (φ := .f32) d x idx upd : s.Idx → EReal) i = (x i : EReal) + ∑ j : su.Idx, g j := by
  show Ideal.hostScatterAdd d x idx upd i = _
  unfold Ideal.hostScatterAdd
  refine congrArg (x i + ·) ?_
  rw [Finset.sum_filter]
  refine Finset.sum_congr rfl fun j _ => ?_
  by_cases h : d.resultIdx? j idx = some i
  · rw [if_pos h, (hg j).1 h]
  · rw [if_neg h, (hg j).2 h]

end Cert.ScatterSum

end
-- ==== Proof.EdgeReal.lean ====
/-
  The edge weights are real numbers, whatever the edge list.

  A guarded inverse square root is real at every entry: where the guard d > 0 holds it is the inverse square root
  of a positive extended real — a positive real's reciprocal root, or 0 at +∞ — and elsewhere it is 0.  A gather
  reads entries of its operand, a concatenation entries of its pieces, a broadcast entries of its operand; products of
  reals are real.  So the first-round weights, the second-round weights and the symmetric normalisation are real at
  every edge, with no assumption on the degrees (which could, a priori, be anything).  A scatter-add of real updates into a
  real operand is real: at Ideal it is the operand's entry plus a finite sum of updates.
-/
import proofs.«143204_j18743237280519_2_alg».proof.Proof.Edge
import proofs.«143204_j18743237280519_2_alg».proof.Proof.LibRealSums
import proofs.«143204_j18743237280519_2_alg».proof.Proof.LibGatherRows
import proofs.«143204_j18743237280519_2_alg».proof.Proof.LibScatterSum
import Idealize.ShloMosaic.Lib.ValueIdx
import Idealize.ShloMosaic.PureOps.Ideal.Laws

noncomputable section

open scoped BigOperators

namespace Cert.KernelIdeal.EdgeReal

open Idealize.ShloMosaic Idealize.ShloMosaic.ValueIdx Cert.KernelIdeal Cert.KernelIdeal.Facts₀ Cert.Math Cert.KernelIdeal.Edge

/-- The inverse square root of a positive extended real is real. -/
theorem rsqrt_real_of_pos {y : EReal} (h : 0 < y) : IsReal (Ideal.rsqrt y) := by
  induction y using EReal.rec with
  | bot => exact absurd h (not_lt_bot)
  | top => exact ⟨0, by rw [Ideal.rsqrt_top, EReal.coe_zero]⟩
  | coe r =>
    have hr : 0 < r := by exact_mod_cast h
    rw [Ideal.rsqrt_coe, if_neg (not_lt.mpr hr.le), if_neg hr.ne']
    exact ⟨_, rfl⟩

/-- A guarded inverse square root at an entry: rsqrt of the entry where it is positive, zero elsewhere. -/
theorem guardedRsqrt_apply (d : FVec Ideal S50000 .f32) (j : S50000.Idx) :
    guardedRsqrt d j = if 0 < d j then Ideal.rsqrt (d j) else 0 := by
  show Scalar.select (Ideal.cmp .ogt (d j) (Ideal.ofBits .f32 0x00000000#32))
      (Ideal.rsqrt (Scalar.select (Ideal.cmp .ogt (d j) (Ideal.ofBits .f32 0x00000000#32)) (d j) (Ideal.ofBits .f32 0x3F800000#32)))
      (Ideal.ofBits .f32 0x00000000#32) = _
  rw [Ideal.ofBits_zero_f32]
  by_cases h : 0 < d j
  · simp [Ideal.cmp, Scalar.select, h]
  · simp [Ideal.cmp, Scalar.select, h]

/-- A guarded inverse square root is real at every entry. -/
theorem guardedRsqrt_real (d : FVec Ideal S50000 .f32) (j : S50000.Idx) : IsReal (guardedRsqrt d j) := by
  rw [guardedRsqrt_apply]
  split_ifs with h
  · exact rsqrt_real_of_pos h
  · exact isReal_zero

/-- A gather of entries of a real vector, over the 850000 edges, is real. -/
theorem gather850_real (x : FVec Ideal S50000 .f32) (idx : IVec S850000x1 32) (hx : ∀ i, IsReal (x i)) (j : S850000.Idx) :
    IsReal (Host.gather gather_S50000_S850000x1_S850000_n_0_n_n_0_1_1 x idx j) := by
  obtain ⟨r, rfl⟩ : ∃ r : Fin 850000, j = ix1 r := ⟨j 0, eq_ix1 j⟩
  have h := GatherRows.gather_entries_apply (N := 50000) (R := 850000) (by norm_num)
    gather_S50000_S850000x1_S850000_n_0_n_n_0_1_1_wf x idx r
  exact (show Host.gather gather_S50000_S850000x1_S850000_n_0_n_n_0_1_1 x idx (ix1 r) = _ from h) ▸ hx _

/-- The same over the 900000 edges. -/
theorem gather900_real (x : FVec Ideal S50000 .f32) (idx : IVec S900000x1 32) (hx : ∀ i, IsReal (x i)) (j : S900000.Idx) :
    IsReal (Host.gather gather_S50000_S900000x1_S900000_n_0_n_n_0_1_1 x idx j) := by
  obtain ⟨r, rfl⟩ : ∃ r : Fin 900000, j = ix1 r := ⟨j 0, eq_ix1 j⟩
  have h := GatherRows.gather_entries_apply (N := 50000) (R := 900000) (by norm_num)
    gather_S50000_S900000x1_S900000_n_0_n_n_0_1_1_wf x idx r
  exact (show Host.gather gather_S50000_S900000x1_S900000_n_0_n_n_0_1_1 x idx (ix1 r) = _ from h) ▸ hx _

/-- A property of every entry of every piece holds of every entry of the concatenation: an entry of a concatenation
    is an entry of one of its pieces. -/
theorem concatenate_forall {α : Type} (P : α → Prop) {t : Shape} (a : Fin t.rank) (xs : List ((s : Shape) × (s.Idx → α)))
    (h : Shape.Concatenates (xs.map (·.1)) t a) (hP : ∀ p ∈ xs, ∀ i : p.1.Idx, P (p.2 i)) (j : t.Idx) :
    P (concatenate t a xs h j) := by
  unfold concatenate
  exact hP _ (List.getElem_mem _) _

/-- The number two, as binary32, is real. -/
theorem two_real : IsReal (Ideal.ofBits .f32 0x40000000#32) :=
  ⟨2, by simp [Ideal.ofBits, Ideal.ieee, -EReal.coe_mul]; norm_num⟩

/-- The first-round inverse-root degrees are real. -/
theorem dis_real (e : IVec S2x800000 32) (j : S50000.Idx) : IsReal ((dis (F := Ideal) e : S50000.Idx → EReal) j) := by
  unfold dis
  exact guardedRsqrt_real _ j

/-- The first-round weights are real. -/
theorem w1_real (e : IVec S2x800000 32) (j : S850000.Idx) : IsReal ((w1 (F := Ideal) e : S850000.Idx → EReal) j) := by
  unfold w1
  rw [mulf_apply]
  exact IsReal.mul (gather850_real _ _ (dis_real e) j) (gather850_real _ _ (dis_real e) j)

/-- The second-round weights are real. -/
theorem w2_real (e : IVec S2x800000 32) (j : S900000.Idx) : IsReal ((w2 (F := Ideal) e : S900000.Idx → EReal) j) := by
  unfold w2
  refine concatenate_forall IsReal _ _ _ ?_ j
  intro p hp i
  rcases List.mem_cons.1 hp with h | hp
  · subst h; exact w1_real e i
  · rcases List.mem_cons.1 hp with h | hp
    · subst h; exact two_real
    · exact absurd hp (List.not_mem_nil)

/-- The second-round inverse-root degrees are real. -/
theorem dis2_real (e : IVec S2x800000 32) (j : S50000.Idx) : IsReal ((dis2 (F := Ideal) e : S50000.Idx → EReal) j) := by
  unfold dis2
  exact guardedRsqrt_real _ j

/-- The symmetric normalisation is real at every edge. -/
theorem norm_real (e : IVec S2x800000 32) (j : S900000.Idx) : IsReal ((norm (F := Ideal) e : S900000.Idx → EReal) j) := by
  unfold Edge.norm
  rw [mulf_apply, mulf_apply]
  exact IsReal.mul (IsReal.mul (gather900_real _ _ (dis2_real e) j) (w2_real e j)) (gather900_real _ _ (dis2_real e) j)

/-- A scatter-add of real updates into a real operand is real at every entry. -/
theorem scatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal ((Host.scatterAdd (F := Ideal) (φ := .f32) d x idx upd : s.Idx → EReal) i) := by
  classical
  rw [ScatterSum.hostScatterAdd_apply d x idx upd i (fun j => if d.resultIdx? j idx = some i then upd j else 0)
    (fun j => ⟨fun h => if_pos h, fun h => if_neg h⟩)]
  refine IsReal.add (hx i) (IsReal.sum _ _ (fun j _ => ?_))
  split_ifs
  · exact hu j
  · exact isReal_zero

end Cert.KernelIdeal.EdgeReal

end
-- ==== Proof.AggReal.lean ====
/-
  The aggregate is real at every entry when the inputs are.

  The projected rows are finite sums of products of real entries of the features and of the weight; a gathered row is
  a row of the projection; each is scaled by an edge's normalisation, which is real; and the scatter-add into a zero array
  adds finitely many such reals at every entry.
-/
import proofs.«143204_j18743237280519_2_alg».proof.Proof.EdgeReal
import proofs.«143204_j18743237280519_2_alg».proof.Proof.KRows
import proofs.«143204_j18743237280519_2_alg».proof.Proof.Spec

noncomputable section

open scoped BigOperators

namespace Cert.KernelIdeal.EdgeReal

open Idealize.ShloMosaic Idealize.ShloMosaic.ValueIdx Cert.KernelIdeal Cert.KernelIdeal.Facts₀ Cert.Math Cert.KernelIdeal.Edge

/-- The projection of real features by a real weight is real. -/
theorem lin_real (x : Cert.Spec.SN.Idx → EReal) (wt : Cert.Spec.SW.Idx → EReal) (hx : ∀ i, IsReal (x i))
    (hw : ∀ i, IsReal (wt i)) (i : Cert.Spec.SN.Idx) : IsReal (Cert.Spec.lin x wt i) :=
  IsReal.sum _ _ (fun k _ => IsReal.mul (hx _) (hw _))

/-- The transpose of a real matrix is real. -/
theorem transpose_real (w : S128x128.Idx → EReal) (hw : ∀ i, IsReal (w i)) (j : S128x128.Idx) :
    IsReal ((transpose S128x128 [1, 0] w transposes_S128x128_S128x128_1_0 : S128x128.Idx → EReal) j) :=
  hw _

/-- The aggregate of real projected rows is real at every entry. -/
theorem aggOf_real (e : IVec S2x800000 32) (H : FVec Ideal S50000x128 .bf16) (hH : ∀ i, IsReal (H i)) (i : S50000x128.Idx) :
    IsReal (Gen.aggOf e H i) := by
  unfold Gen.aggOf
  refine scatterAdd_real _ _ _ _ (fun i => ?_) (fun j => ?_) i
  · show IsReal (Ideal.ofBits .f32 0x00000000#32)
    rw [Ideal.ofBits_zero_f32]; exact isReal_zero
  · rw [mulf_apply]
    refine IsReal.mul ?_ ?_
    · exact norm_real e _
    · obtain ⟨r, k, rfl⟩ : ∃ (r : Fin 900000) (k : Fin 128), j = ix2 r k := ⟨j 0, j 1, eq_ix2 j⟩
      have h := GatherRows.gather_rows_apply (N := 50000) (C := 128) (R := 900000) (by norm_num)
        gather_S50000x128_S900000x1_S900000x128_1_0_n_n_0_1_1128_wf H (Edge.src e) r k
      have h' : (Host.gather gather_S50000x128_S900000x1_S900000x128_1_0_n_n_0_1_1128 H (Edge.src e) : S900000x128.Idx → EReal)
          (ix2 r k) = H (ix2 (GatherRows.srcRow (by norm_num) (Edge.src e) r) k) := h
      show IsReal ((Host.gather gather_S50000x128_S900000x1_S900000x128_1_0_n_n_0_1_1128 H (Edge.src e) : S900000x128.Idx → EReal)
          (ix2 r k))
      rw [h']
      exact hH _

end Cert.KernelIdeal.EdgeReal

end
-- ==== Proof.KValue.lean ====
/-
  The idealized kernel's result array, as one function of the launch memory.

  Reading the run's last boundary backwards: the third pipeline writes the epilogue of the aggregate, the features,
  the keepdims rows of bias, gamma and beta, and the mean and inverse-deviation rows; those two rows are the host's
  functions of the second pipeline's column sums of the shifted aggregate; the aggregate is the host's gather,
  scale and scatter-add of the first pipeline's projection of the features by the transposed weight.  With real
  inputs every entry of the shifted aggregate is real, and the epilogue over the streaming statistics is then the
  two-pass form of the same batch normalisation.
-/
import proofs.«143204_j18743237280519_2_alg».proof.Proof.KChain2
import proofs.«143204_j18743237280519_2_alg».proof.Proof.KRegion0
import proofs.«143204_j18743237280519_2_alg».proof.Proof.KRegion1
import proofs.«143204_j18743237280519_2_alg».proof.Proof.KRegion2
import proofs.«143204_j18743237280519_2_alg».proof.Proof.KBridge
import proofs.«143204_j18743237280519_2_alg».proof.Proof.AggReal

set_option maxRecDepth 16384

noncomputable section

namespace Cert.KernelIdeal.Gen

open Idealize.ShloMosaic Idealize.ShloMosaic.TcCoe Idealize.SL.Sem
open Idealize.ShloMosaic.StableHlo Cert.KernelIdeal.Facts₀ Cert.Math

variable (m : (ℓ : Loc nD τ sig) → Buf (Elt Ideal) ℓ) (ρ : Dev nD → PrngReg) (c : Dev nD)

/-- The projection the first pipeline leaves: the features times the transposed weight. -/
theorem W10_proj : W10 m ρ c (Proc.devRef .tc main_v69)
    = Cert.Spec.lin (m ((c : Thread nD τ).loc main_arg0))
        (transpose S128x128 [1, 0] (m ((c : Thread nD τ).loc main_arg1)) transposes_S128x128_S128x128_1_0) := by
  rw [← W9_arg0 m ρ c, ← W9_wt m ρ c]
  exact (W10_arr m ρ c 2).trans (Regions.region0_value (V9 m ρ) c)

/-- The aggregate, from the launch memory. -/
def agg : FVec Ideal S50000x128 .f32 :=
  aggOf (m ((c : Thread nD τ).loc main_arg5))
    (Cert.Spec.lin (m ((c : Thread nD τ).loc main_arg0))
      (transpose S128x128 [1, 0] (m ((c : Thread nD τ).loc main_arg1)) transposes_S128x128_S128x128_1_0))

/-- The aggregate shifted by the bias row. -/
abbrev shiftedAgg : Cert.Spec.SN.Idx → EReal :=
  Cert.Spec.shifted (agg m c) (shapeCast S1x128 (m ((c : Thread nD τ).loc main_arg2)) shapeCasts_S128_S1x128)

theorem W11_agg' : W11 m ρ c (Proc.devRef .tc main_v83) = agg m c := by
  rw [W11_agg, W10_proj]; rfl

/-- The second pipeline's two results: the column sums of the shifted aggregate and of its squares. -/
theorem W12_sum : W12 m ρ c (Proc.devRef .tc main_v87_0) = Cert.Spec.colSum (shiftedAgg m c) := by
  have h := (W12_arr m ρ c 2).trans (Regions.region1_sum (V11 m ρ) c)
  rw [show V11 m ρ c main_v83 = agg m c from W11_agg' m ρ c, show V11 m ρ c main_v84 = _ from W11_bias m ρ c] at h
  exact h
theorem W12_sumsq : W12 m ρ c (Proc.devRef .tc main_v87_1) = Cert.Spec.colSumSq (shiftedAgg m c) := by
  have h := (W12_arr m ρ c 3).trans (Regions.region1_sumsq (V11 m ρ) c)
  rw [show V11 m ρ c main_v83 = agg m c from W11_agg' m ρ c, show V11 m ρ c main_v84 = _ from W11_bias m ρ c] at h
  exact h

/-- The result array at the run's last boundary: the epilogue over the streaming statistics. -/
theorem W14_result : W14 m ρ c (Proc.devRef .tc main_v99)
    = Cert.Spec.epilogue (agg m c) (m ((c : Thread nD τ).loc main_arg0))
        (shapeCast S1x128 (m ((c : Thread nD τ).loc main_arg2)) shapeCasts_S128_S1x128)
        (shapeCast S1x128 (m ((c : Thread nD τ).loc main_arg3)) shapeCasts_S128_S1x128)
        (shapeCast S1x128 (m ((c : Thread nD τ).loc main_arg4)) shapeCasts_S128_S1x128)
        (meanRow (Cert.Spec.colSum (shiftedAgg m c)))
        (istdRow (Cert.Spec.colSum (shiftedAgg m c)) (Cert.Spec.colSumSq (shiftedAgg m c))) := by
  have h := (W14_arr m ρ c 7).trans (Regions.region2_value (V13 m ρ) c)
  rw [show V13 m ρ c main_v83 = agg m c from
        (W13_keep m ρ c main_v83 (Or.inl rfl)).trans ((W12_agg m ρ c).trans (W11_agg' m ρ c)),
      show V13 m ρ c main_arg0 = m ((c : Thread nD τ).loc main_arg0) from
        (W13_keep m ρ c main_arg0 (Or.inr (Or.inl rfl))).trans ((W12_of_ne m ρ c main_arg0 (by decide)).trans (W11_arg0 m ρ c)),
      show V13 m ρ c main_v84 = _ from
        (W13_keep m ρ c main_v84 (Or.inr (Or.inr (Or.inl rfl)))).trans ((W12_bias m ρ c).trans (W11_bias m ρ c)),
      show V13 m ρ c main_v85 = _ from
        (W13_keep m ρ c main_v85 (Or.inr (Or.inr (Or.inr (Or.inl rfl))))).trans ((W12_of_ne m ρ c main_v85 (by decide)).trans (W11_gamma m ρ c)),
      show V13 m ρ c main_v86 = _ from
        (W13_keep m ρ c main_v86 (Or.inr (Or.inr (Or.inr (Or.inr rfl))))).trans ((W12_of_ne m ρ c main_v86 (by decide)).trans (W11_beta m ρ c)),
      show V13 m ρ c main_v89 = _ from (W13_mean m ρ c).trans (congrArg meanRow (W12_sum m ρ c)),
      show V13 m ρ c main_v98 = _ from
        (W13_istd m ρ c).trans (by rw [W12_sum, W12_sumsq])] at h
  exact h

end Cert.KernelIdeal.Gen

end
-- ==== Proof.Finite.lean ====
/-
  The precondition read back: when the five conjuncts "every entry of |v| is below +∞" all hold, the entries of
  the node features, of the weight and of the bias are real numbers (neither infinity).  The conjunction is a chain
  of one-bit ands of five all-reductions; each all-reduction that is 1 had a 1 at every entry, and an entry's 1
  says max v (−v) < +∞.
-/
import proofs.«143204_j18743237280519_2_alg».proof.Pre_finite_inputs
import proofs.«143204_j18743237280519_2_alg».proof.Proof.Gen.Pre_finite_inputs
import proofs.«143204_j18743237280519_2_alg».proof.Proof.LibRealSums
import Idealize.ShloMosaic.Lib.ReduceAll
import Idealize.ShloMosaic.Lib.ValueIdx

noncomputable section

namespace Cert.Finite

open Idealize.ShloMosaic Cert.Pre_finite_inputs Cert.Pre_finite_inputs.Facts Cert.Math

/-- The scalar shape has one index. -/
instance : Subsingleton S_.Idx := ⟨fun a b => funext fun d => d.elim0⟩

/-- An entry whose comparison "max v (−v) < +∞" came out 1 is a real. -/
theorem real_of_bit (v : EReal) (h : Ideal.cmp .olt (max v (-v)) (Ideal.ofBits .f32 0x7F800000#32) = 1#1) : IsReal v := by
  rw [ofBits_inf] at h
  apply isReal_of_abs_lt_top
  by_cases hlt : max v (-v) < ⊤
  · exact hlt
  · exfalso
    simp [Ideal.cmp, hlt] at h

/-- The precondition's value 1 makes the entries of the first three arguments real. -/
theorem inputs_real (x : FVec Ideal S50000x128 .f32) (w : FVec Ideal S128x128 .f32) (b g be : FVec Ideal S128 .f32)
    (e : IVec S2x800000 32) (h : fn (F := Ideal) x w b g be e = fun _ => 1#1) :
    (∀ i, IsReal (x i)) ∧ (∀ i, IsReal (w i)) ∧ (∀ i, IsReal (b i)) := by
  have h0 := congrFun h ValueIdx.ix0
  dsimp only [fn, fn_part1] at h0
  obtain ⟨h0123, -⟩ := IntOp.andi_eq_one.1 h0
  obtain ⟨h012, -⟩ := IntOp.andi_eq_one.1 h0123
  obtain ⟨h01, h2⟩ := IntOp.andi_eq_one.1 h012
  obtain ⟨hx, hw⟩ := IntOp.andi_eq_one.1 h01
  refine ⟨fun i => real_of_bit _ ?_, fun i => real_of_bit _ ?_, fun i => real_of_bit _ ?_⟩
  · exact Host.reduce_andi_all _ _ _ _ _ hx i
  · exact Host.reduce_andi_all _ _ _ _ _ hw i
  · exact Host.reduce_andi_all _ _ _ _ _ h2 i

end Cert.Finite

end
-- ==== Proof.KFinal.lean ====
/-
  The idealized kernel's result, in the reference's words.

  Under the precondition the features, the weight and the bias hold real numbers, so every entry of the shifted aggregate
  is real, and the epilogue over the streaming statistics the kernel computes is the two-pass batch normalisation of
  the shifted aggregate followed by the two leaky ReLUs.
-/
import proofs.«143204_j18743237280519_2_alg».proof.Proof.KValue
import proofs.«143204_j18743237280519_2_alg».proof.Proof.Finite

set_option maxRecDepth 16384

noncomputable section

namespace Cert.KernelIdeal.Gen

open Idealize.ShloMosaic Idealize.ShloMosaic.TcCoe Idealize.SL.Sem
open Cert.KernelIdeal.Facts₀ Cert.Math

variable (m : (ℓ : Loc nD τ sig) → Buf (Elt Ideal) ℓ) (ρ : Dev nD → PrngReg) (c : Dev nD)

/-- With real inputs the shifted aggregate is real at every entry. -/
theorem shiftedAgg_real
    (hx : ∀ i, IsReal ((m ((c : Thread nD τ).loc main_arg0) : S50000x128.Idx → EReal) i))
    (hw : ∀ i, IsReal ((m ((c : Thread nD τ).loc main_arg1) : S128x128.Idx → EReal) i))
    (hb : ∀ i, IsReal ((m ((c : Thread nD τ).loc main_arg2) : S128.Idx → EReal) i)) (i : Cert.Spec.SN.Idx) :
    IsReal (Cert.Spec.shifted (agg m c) (Cert.KernelIdeal.Bridge.kd (m ((c : Thread nD τ).loc main_arg2))) i) := by
  unfold Cert.Spec.shifted
  refine IsReal.add ?_ ?_
  · exact Cert.KernelIdeal.EdgeReal.aggOf_real _ _
      (Cert.KernelIdeal.EdgeReal.lin_real _ _ hx (Cert.KernelIdeal.EdgeReal.transpose_real _ hw)) i
  · rw [Cert.KernelIdeal.Bridge.kd_apply]; exact hb _

/-- The result array at the run's last boundary is the reference's function of the launch memory. -/
theorem kernel_result
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) = fun _ => 1#1) :
    W14 m ρ c (Proc.devRef .tc main_v99)
      = Cert.Stats.refOut (Cert.Spec.shifted (agg m c) (Cert.KernelIdeal.Bridge.kd (m ((c : Thread nD τ).loc main_arg2))))
          (m ((c : Thread nD τ).loc main_arg0)) (m ((c : Thread nD τ).loc main_arg3)) (m ((c : Thread nD τ).loc main_arg4)) := by
  obtain ⟨hx, hw, hb⟩ := Cert.Finite.inputs_real _ _ _ _ _ _ hpre
  rw [W14_result]
  exact Cert.KernelIdeal.Bridge.epilogue_eq_refOut (agg m c) _ _ _ _ (shiftedAgg_real m c hx hw hb)

end Cert.KernelIdeal.Gen

end
-- ==== Proof.RefRunOps.lean ====
/-
  The reference program read as a straight line of host operations, and its run.

  The reference's entry function is three consecutive windows of statements, some of which call the module's
  other functions (a select against a broadcast scalar, the per-column variance, the leaky rectifier).  A call
  means the callee's body run on the caller's buffers, so with every call replaced by its callee's operations
  the entry function is one list of 178 operations.  The list is cut after the operation that adds the bias row
  to the edge aggregate (buffer `main_v85`): `opsA` is everything up to and including that sum (117
  operations: the degree normalisation of the edge list, the linear layer, the gather, the scatter-add and the
  bias), `opsB` the remaining 61 (column statistics, normalisation, scale and shift, the two rectifiers around
  the residual sum).  Each window is its own sub-list by unfolding; the windows in sequence are the concatenation.
  The run is then the library's statement for a straight line: every fair execution ends, with every buffer at
  the fold of the operations' results over what the buffer held at launch.
-/
import proofs.«143204_j18743237280519_2_alg».proof.ReferenceIdeal
import proofs.«143204_j18743237280519_2_alg».proof.Proof.Gen.ReferenceIdeal
import Idealize.ShloMosaic.Lib.StableHlo.Run

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]
/-- The first window's operations (64), calls replaced by their callees' operations. -/
abbrev ops0 : List (HloOp τ sig (Elt F)) :=
  [ StableHlo.nullary main_v0 (iotaInDim S50000 32 0),
    StableHlo.unary main_v0 main_v1 (broadcastInDim S1x50000 ![1] bcast_S50000_S1x50000_1 : (⟨S50000, .i32⟩ : BufTy).Contents (Elt F) → (⟨S1x50000, .i32⟩ : BufTy).Contents (Elt F)),
    StableHlo.unary main_v0 main_v2 (broadcastInDim S1x50000 ![1] bcast_S50000_S1x50000_1 : (⟨S50000, .i32⟩ : BufTy).Contents (Elt F) → (⟨S1x50000, .i32⟩ : BufTy).Contents (Elt F)),
    StableHlo.binary main_v1 main_v2 main_v3 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)),
    StableHlo.binary main_arg5 main_v3 main_v4 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)),
    StableHlo.unary main_v4 main_v5 ((extractStridedSlice S1x850000 ![0, 0] · slices_S2x850000_S1x850000_0_0) : (⟨S2x850000, .i32⟩ : BufTy).Contents (Elt F) → (⟨S1x850000, .i32⟩ : BufTy).Contents (Elt F)),
    StableHlo.reshape main_v5 main_v6 rfl shapeCasts_S1x850000_S850000,
    StableHlo.unary main_v4 main_v7 ((extractStridedSlice S1x850000 ![1, 0] · slices_S2x850000_S1x850000_1_0) : (⟨S2x850000, .i32⟩ : BufTy).Contents (Elt F) → (⟨S1x850000, .i32⟩ : BufTy).Contents (Elt F)),
    StableHlo.reshape main_v7 main_v8 rfl shapeCasts_S1x850000_S850000,
    StableHlo.nullary main_cst (constant S_ .f32 0x3F800000#32),
    StableHlo.unary main_cst main_v9 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v6 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.binary main_v12 main_v15 main_v16 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.TRef.unary (.of main_cst_3) main_call0.v0 id,
    StableHlo.TRef.unary main_call0.v0 main_call0.v1 (broadcastInDim S50000 ![] bcast_S_S50000),
    StableHlo.TRef.ternary (.of main_v16) (.of main_v12) main_call0.v1 main_call0.v2 select,
    StableHlo.unary main_v17 main_v18 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4) main_call1.v0 id,
    StableHlo.TRef.unary main_call1.v0 main_call1.v1 (broadcastInDim S50000 ![] bcast_S_S50000),
    StableHlo.TRef.ternary (.of main_v14) (.of main_v18) main_call1.v1 main_call1.v2 select,
    StableHlo.nullary main_c (constantI S_ 32 0#32),
    StableHlo.unary main_c main_v20 (broadcastInDim S850000 ![] bcast_S_S850000 : (⟨S_, .i32⟩ : BufTy).Contents (Elt F) → (⟨S850000, .i32⟩ : BufTy).Contents (Elt F)),
    StableHlo.binary main_v6 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v22 (broadcastInDim S850000 ![] bcast_S_S850000 : (⟨S_, .i32⟩ : BufTy).Contents (Elt F) → (⟨S850000, .i32⟩ : BufTy).Contents (Elt F)),
    StableHlo.binary main_v6 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v6 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v19 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_6 (constantI S_ 32 0#32),
    StableHlo.unary main_c_6 main_v27 (broadcastInDim S850000 ![] bcast_S_S850000 : (⟨S_, .i32⟩ : BufTy).Contents (Elt F) → (⟨S850000, .i32⟩ : BufTy).Contents (Elt F)),
    StableHlo.binary main_v8 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v29 (broadcastInDim S850000 ![] bcast_S_S850000 : (⟨S_, .i32⟩ : BufTy).Contents (Elt F) → (⟨S850000, .i32⟩ : BufTy).Contents (Elt F)),
    StableHlo.binary main_v8 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v8 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v19 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v33 main_v34 (mulf : (⟨S850000, .f32⟩ : BufTy).Contents (Elt F) → (⟨S850000, .f32⟩ : BufTy).Contents (Elt F) → (⟨S850000, .f32⟩ : BufTy).Contents (Elt F)),
    StableHlo.binary main_v4 main_v3 main_v35 ((fun a b => concatenate S2x900000 1 [⟨S2x850000, a⟩, ⟨S2x50000, b⟩] concatenates_S2x850000_S2x50000_S2x900000_d1) : (⟨S2x850000, .i32⟩ : BufTy).Contents (Elt F) → (⟨S2x50000, .i32⟩ : BufTy).Contents (Elt F) → (⟨S2x900000, .i32⟩ : BufTy).Contents (Elt F)),
    StableHlo.nullary main_cst_8 (constant S_ .f32 0x40000000#32),
    StableHlo.unary main_cst_8 main_v36 (broadcastInDim S50000 ![] bcast_S_S50000 : (⟨S_, .f32⟩ : BufTy).Contents (Elt F) → (⟨S50000, .f32⟩ : BufTy).Contents (Elt F)),
    StableHlo.binary main_v34 main_v36 main_v37 ((fun a b => concatenate S900000 0 [⟨S850000, a⟩, ⟨S50000, b⟩] concatenates_S850000_S50000_S900000_d0) : (⟨S850000, .f32⟩ : BufTy).Contents (Elt F) → (⟨S50000, .f32⟩ : BufTy).Contents (Elt F) → (⟨S900000, .f32⟩ : BufTy).Contents (Elt F)),
    StableHlo.unary main_v35 main_v38 ((extractStridedSlice S1x900000 ![0, 0] · slices_S2x900000_S1x900000_0_0) : (⟨S2x900000, .i32⟩ : BufTy).Contents (Elt F) → (⟨S1x900000, .i32⟩ : BufTy).Contents (Elt F)),
    StableHlo.reshape main_v38 main_v39 rfl shapeCasts_S1x900000_S900000,
    StableHlo.unary main_v35 main_v40 ((extractStridedSlice S1x900000 ![1, 0] · slices_S2x900000_S1x900000_1_0) : (⟨S2x900000, .i32⟩ : BufTy).Contents (Elt F) → (⟨S1x900000, .i32⟩ : BufTy).Contents (Elt F)),
    StableHlo.reshape main_v40 main_v41 rfl shapeCasts_S1x900000_S900000,
    StableHlo.nullary main_cst_9 (constant S_ .f32 0x00000000#32),
    StableHlo.unary main_cst_9 main_v42 (broadcastInDim S50000 ![] bcast_S_S50000 : (⟨S_, .f32⟩ : BufTy).Contents (Elt F) → (⟨S50000, .f32⟩ : BufTy).Contents (Elt F)),
    StableHlo.unary main_v41 main_v43 (broadcastInDim S900000x1 ![0] bcast_S900000_S900000x1_0 : (⟨S900000, .i32⟩ : BufTy).Contents (Elt F) → (⟨S900000x1, .i32⟩ : BufTy).Contents (Elt F)),
    StableHlo.ternary main_v42 main_v43 main_v37 main_v44 ((fun x i u => Host.scatterAdd scatter_S50000_S900000x1_S900000_n_0_0_1 x i u) : (⟨S50000, .f32⟩ : BufTy).Contents (Elt F) → (⟨S900000x1, .i32⟩ : BufTy).Contents (Elt F) → (⟨S900000, .f32⟩ : BufTy).Contents (Elt F) → (⟨S50000, .f32⟩ : BufTy).Contents (Elt F)),
    StableHlo.nullary main_cst_10 (constant S_ .f32 0x00000000#32),
    StableHlo.unary main_cst_10 main_v45 (broadcastInDim S50000 ![] bcast_S_S50000 : (⟨S_, .f32⟩ : BufTy).Contents (Elt F) → (⟨S50000, .f32⟩ : BufTy).Contents (Elt F)),
    StableHlo.binary main_v44 main_v45 main_v46 (cmpf .ogt : (⟨S50000, .f32⟩ : BufTy).Contents (Elt F) → (⟨S50000, .f32⟩ : BufTy).Contents (Elt F) → (⟨S50000, .i1⟩ : BufTy).Contents (Elt F)) ]

/-- The second window's operations up to and including the sum of the aggregate and the bias row (53). -/
abbrev ops1a : List (HloOp τ sig (Elt F)) :=
  [ StableHlo.nullary main_cst_11 (constant S_ .f32 0x00000000#32),
    StableHlo.unary main_cst_11 main_v47 (broadcastInDim S50000 ![] bcast_S_S50000 : (⟨S_, .f32⟩ : BufTy).Contents (Elt F) → (⟨S50000, .f32⟩ : BufTy).Contents (Elt F)),
    StableHlo.binary main_v44 main_v47 main_v48 (cmpf .ogt : (⟨S50000, .f32⟩ : BufTy).Contents (Elt F) → (⟨S50000, .f32⟩ : BufTy).Contents (Elt F) → (⟨S50000, .i1⟩ : BufTy).Contents (Elt F)),
    StableHlo.nullary main_cst_12 (constant S_ .f32 0x3F800000#32),
    StableHlo.TRef.unary (.of main_cst_12) main_call2.v0 id,
    StableHlo.TRef.unary main_call2.v0 main_call2.v1 (broadcastInDim S50000 ![] bcast_S_S50000),
    StableHlo.TRef.ternary (.of main_v48) (.of main_v44) main_call2.v1 main_call2.v2 select,
    StableHlo.unary main_v49 main_v50 (Host.rsqrt : (⟨S50000, .f32⟩ : BufTy).Contents (Elt F) → (⟨S50000, .f32⟩ : BufTy).Contents (Elt F)),
    StableHlo.nullary main_cst_13 (constant S_ .f32 0x00000000#32),
    StableHlo.TRef.unary (.of main_cst_13) main_call3.v0 id,
    StableHlo.TRef.unary main_call3.v0 main_call3.v1 (broadcastInDim S50000 ![] bcast_S_S50000),
    StableHlo.TRef.ternary (.of main_v46) (.of main_v50) main_call3.v1 main_call3.v2 select,
    StableHlo.nullary main_c_14 (constantI S_ 32 0#32),
    StableHlo.unary main_c_14 main_v52 (broadcastInDim S900000 ![] bcast_S_S900000 : (⟨S_, .i32⟩ : BufTy).Contents (Elt F) → (⟨S900000, .i32⟩ : BufTy).Contents (Elt F)),
    StableHlo.binary main_v39 main_v52 main_v53 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 50000#32),
    StableHlo.unary main_c_15 main_v54 (broadcastInDim S900000 ![] bcast_S_S900000 : (⟨S_, .i32⟩ : BufTy).Contents (Elt F) → (⟨S900000, .i32⟩ : BufTy).Contents (Elt F)),
    StableHlo.binary main_v39 main_v54 main_v55 (addi : (⟨S900000, .i32⟩ : BufTy).Contents (Elt F) → (⟨S900000, .i32⟩ : BufTy).Contents (Elt F) → (⟨S900000, .i32⟩ : BufTy).Contents (Elt F)),
    StableHlo.ternary main_v53 main_v55 main_v39 main_v56 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v56 main_v57 (broadcastInDim S900000x1 ![0] bcast_S900000_S900000x1_0 : (⟨S900000, .i32⟩ : BufTy).Contents (Elt F) → (⟨S900000x1, .i32⟩ : BufTy).Contents (Elt F)),
    StableHlo.binary main_v51 main_v57 main_v58 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.binary main_v58 main_v37 main_v59 (mulf : (⟨S900000, .f32⟩ : BufTy).Contents (Elt F) → (⟨S900000, .f32⟩ : BufTy).Contents (Elt F) → (⟨S900000, .f32⟩ : BufTy).Contents (Elt F)),
    StableHlo.nullary main_c_16 (constantI S_ 32 0#32),
    StableHlo.unary main_c_16 main_v60 (broadcastInDim S900000 ![] bcast_S_S900000 : (⟨S_, .i32⟩ : BufTy).Contents (Elt F) → (⟨S900000, .i32⟩ : BufTy).Contents (Elt F)),
    StableHlo.binary main_v41 main_v60 main_v61 (cmpi .slt : (⟨S900000, .i32⟩ : BufTy).Contents (Elt F) → (⟨S900000, .i32⟩ : BufTy).Contents (Elt F) → (⟨S900000, .i1⟩ : BufTy).Contents (Elt F)),
    StableHlo.nullary main_c_17 (constantI S_ 32 50000#32),
    StableHlo.unary main_c_17 main_v62 (broadcastInDim S900000 ![] bcast_S_S900000 : (⟨S_, .i32⟩ : BufTy).Contents (Elt F) → (⟨S900000, .i32⟩ : BufTy).Contents (Elt F)),
    StableHlo.binary main_v41 main_v62 main_v63 (addi : (⟨S900000, .i32⟩ : BufTy).Contents (Elt F) → (⟨S900000, .i32⟩ : BufTy).Contents (Elt F) → (⟨S900000, .i32⟩ : BufTy).Contents (Elt F)),
    StableHlo.ternary main_v61 main_v63 main_v41 main_v64 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v64 main_v65 (broadcastInDim S900000x1 ![0] bcast_S900000_S900000x1_0 : (⟨S900000, .i32⟩ : BufTy).Contents (Elt F) → (⟨S900000x1, .i32⟩ : BufTy).Contents (Elt F)),
    StableHlo.binary main_v51 main_v65 main_v66 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.binary main_v59 main_v66 main_v67 (mulf : (⟨S900000, .f32⟩ : BufTy).Contents (Elt F) → (⟨S900000, .f32⟩ : BufTy).Contents (Elt F) → (⟨S900000, .f32⟩ : BufTy).Contents (Elt F)),
    StableHlo.unary main_arg1 main_v68 ((transpose S128x128 [1, 0] · transposes_S128x128_S128x128_1_0) : (⟨S128x128, .f32⟩ : BufTy).Contents (Elt F) → (⟨S128x128, .f32⟩ : BufTy).Contents (Elt F)),
    StableHlo.binary main_arg0 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v67 main_v70 (broadcastInDim S900000x1 ![0] bcast_S900000_S900000x1_0 : (⟨S900000, .f32⟩ : BufTy).Contents (Elt F) → (⟨S900000x1, .f32⟩ : BufTy).Contents (Elt F)),
    StableHlo.nullary main_c_18 (constantI S_ 32 0#32),
    StableHlo.unary main_c_18 main_v71 (broadcastInDim S900000 ![] bcast_S_S900000 : (⟨S_, .i32⟩ : BufTy).Contents (Elt F) → (⟨S900000, .i32⟩ : BufTy).Contents (Elt F)),
    StableHlo.binary main_v39 main_v71 main_v72 (cmpi .slt : (⟨S900000, .i32⟩ : BufTy).Contents (Elt F) → (⟨S900000, .i32⟩ : BufTy).Contents (Elt F) → (⟨S900000, .i1⟩ : BufTy).Contents (Elt F)),
    StableHlo.nullary main_c_19 (constantI S_ 32 50000#32),
    StableHlo.unary main_c_19 main_v73 (broadcastInDim S900000 ![] bcast_S_S900000 : (⟨S_, .i32⟩ : BufTy).Contents (Elt F) → (⟨S900000, .i32⟩ : BufTy).Contents (Elt F)),
    StableHlo.binary main_v39 main_v73 main_v74 (addi : (⟨S900000, .i32⟩ : BufTy).Contents (Elt F) → (⟨S900000, .i32⟩ : BufTy).Contents (Elt F) → (⟨S900000, .i32⟩ : BufTy).Contents (Elt F)),
    StableHlo.ternary main_v72 main_v74 main_v39 main_v75 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v75 main_v76 (broadcastInDim S900000x1 ![0] bcast_S900000_S900000x1_0 : (⟨S900000, .i32⟩ : BufTy).Contents (Elt F) → (⟨S900000x1, .i32⟩ : BufTy).Contents (Elt F)),
    StableHlo.binary main_v69 main_v76 main_v77 ((fun x i => Host.gather gather_S50000x128_S900000x1_S900000x128_1_0_n_n_0_1_1128 x i) : (⟨S50000x128, .f32⟩ : BufTy).Contents (Elt F) → (⟨S900000x1, .i32⟩ : BufTy).Contents (Elt F) → (⟨S900000x128, .f32⟩ : BufTy).Contents (Elt F)),
    StableHlo.unary main_v70 main_v78 (broadcastInDim S900000x128 ![0, 1] bcast_S900000x1_S900000x128_0_1 : (⟨S900000x1, .f32⟩ : BufTy).Contents (Elt F) → (⟨S900000x128, .f32⟩ : BufTy).Contents (Elt F)),
    StableHlo.binary main_v78 main_v77 main_v79 (mulf : (⟨S900000x128, .f32⟩ : BufTy).Contents (Elt F) → (⟨S900000x128, .f32⟩ : BufTy).Contents (Elt F) → (⟨S900000x128, .f32⟩ : BufTy).Contents (Elt F)),
    StableHlo.nullary main_cst_20 (constant S_ .f32 0x00000000#32),
    StableHlo.unary main_cst_20 main_v80 (broadcastInDim S50000x128 ![] bcast_S_S50000x128 : (⟨S_, .f32⟩ : BufTy).Contents (Elt F) → (⟨S50000x128, .f32⟩ : BufTy).Contents (Elt F)),
    StableHlo.unary main_v41 main_v81 (broadcastInDim S900000x1 ![0] bcast_S900000_S900000x1_0 : (⟨S900000, .i32⟩ : BufTy).Contents (Elt F) → (⟨S900000x1, .i32⟩ : BufTy).Contents (Elt F)),
    StableHlo.ternary main_v80 main_v81 main_v79 main_v82 ((fun x i u => Host.scatterAdd scatter_S50000x128_S900000x1_S900000x128_1_0_0_1 x i u) : (⟨S50000x128, .f32⟩ : BufTy).Contents (Elt F) → (⟨S900000x1, .i32⟩ : BufTy).Contents (Elt F) → (⟨S900000x128, .f32⟩ : BufTy).Contents (Elt F) → (⟨S50000x128, .f32⟩ : BufTy).Contents (Elt F)),
    StableHlo.unary main_arg2 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)) ]

/-- The rest of the second window (32): the column mean, the variance function's body, the centred array, the guard constant. -/
abbrev ops1b : List (HloOp τ sig (Elt F)) :=
  [ StableHlo.nullary main_cst_21 (constant S_ .f32 0x00000000#32),
    StableHlo.binary main_v85 main_cst_21 main_v86 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_22 (constant S_ .f32 0x47435000#32),
    StableHlo.unary main_cst_22 main_v87 (broadcastInDim S128 ![] bcast_S_S128 : (⟨S_, .f32⟩ : BufTy).Contents (Elt F) → (⟨S128, .f32⟩ : BufTy).Contents (Elt F)),
    StableHlo.binary main_v86 main_v87 main_v88 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call4.cst (constant S_ .f32 0x00000000#32),
    StableHlo.TRef.binary (.of main_v85) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v85) main_call4.v4 main_call4.v5 subf,
    StableHlo.TRef.binary main_call4.v5 main_call4.v5 main_call4.v6 mulf,
    StableHlo.TRef.unary (.of main_c_23) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v88 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v91 main_v92 (subf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x3727C5AC#32) ]

/-- The third window's operations (29): inverse deviation, scale, shift, rectifier, residual sum, rectifier. -/
abbrev ops2 : List (HloOp τ sig (Elt F)) :=
  [ StableHlo.unary main_cst_24 main_v93 (broadcastInDim S128 ![] bcast_S_S128 : (⟨S_, .f32⟩ : BufTy).Contents (Elt F) → (⟨S128, .f32⟩ : BufTy).Contents (Elt F)),
    StableHlo.binary main_v89 main_v93 main_v94 (addf : (⟨S128, .f32⟩ : BufTy).Contents (Elt F) → (⟨S128, .f32⟩ : BufTy).Contents (Elt F) → (⟨S128, .f32⟩ : BufTy).Contents (Elt F)),
    StableHlo.unary main_v94 main_v95 (Host.rsqrt : (⟨S128, .f32⟩ : BufTy).Contents (Elt F) → (⟨S128, .f32⟩ : BufTy).Contents (Elt F)),
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v97 main_v98 (mulf : (⟨S50000x128, .f32⟩ : BufTy).Contents (Elt F) → (⟨S50000x128, .f32⟩ : BufTy).Contents (Elt F) → (⟨S50000x128, .f32⟩ : BufTy).Contents (Elt F)),
    StableHlo.unary main_arg3 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v100 main_v101 (mulf : (⟨S50000x128, .f32⟩ : BufTy).Contents (Elt F) → (⟨S50000x128, .f32⟩ : BufTy).Contents (Elt F) → (⟨S50000x128, .f32⟩ : BufTy).Contents (Elt F)),
    StableHlo.unary main_arg4 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v103 main_v104 (addf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3DCCCCCD#32),
    StableHlo.TRef.nullary main_call5.cst (constant S_ .f32 0x00000000#32),
    StableHlo.TRef.unary main_call5.cst main_call5.v0 (broadcastInDim S50000x128 ![] bcast_S_S50000x128),
    StableHlo.TRef.binary (.of main_v104) main_call5.v0 main_call5.v1 (cmpf .oge),
    StableHlo.TRef.unary (.of main_cst_25) main_call5.v2 id,
    StableHlo.TRef.unary main_call5.v2 main_call5.v3 (broadcastInDim S50000x128 ![] bcast_S_S50000x128),
    StableHlo.TRef.binary main_call5.v3 (.of main_v104) main_call5.v4 mulf,
    StableHlo.TRef.ternary main_call5.v1 (.of main_v104) main_call5.v4 main_call5.call0.v0 select,
    StableHlo.binary main_v105 main_arg0 main_v106 (addf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3DCCCCCD#32),
    StableHlo.TRef.nullary main_call6.cst (constant S_ .f32 0x00000000#32),
    StableHlo.TRef.unary main_call6.cst main_call6.v0 (broadcastInDim S50000x128 ![] bcast_S_S50000x128),
    StableHlo.TRef.binary (.of main_v106) main_call6.v0 main_call6.v1 (cmpf .oge),
    StableHlo.TRef.unary (.of main_cst_26) main_call6.v2 id,
    StableHlo.TRef.unary main_call6.v2 main_call6.v3 (broadcastInDim S50000x128 ![] bcast_S_S50000x128),
    StableHlo.TRef.binary main_call6.v3 (.of main_v106) main_call6.v4 mulf,
    StableHlo.TRef.ternary main_call6.v1 (.of main_v106) main_call6.v4 main_call6.call0.v0 select ]

/-- Everything up to and including the aggregate plus the bias row: the first window followed by `ops1a`, written out (117 operations). -/
abbrev opsA : List (HloOp τ sig (Elt F)) :=
  [ StableHlo.nullary main_v0 (iotaInDim S50000 32 0),
    StableHlo.unary main_v0 main_v1 (broadcastInDim S1x50000 ![1] bcast_S50000_S1x50000_1 : (⟨S50000, .i32⟩ : BufTy).Contents (Elt F) → (⟨S1x50000, .i32⟩ : BufTy).Contents (Elt F)),
    StableHlo.unary main_v0 main_v2 (broadcastInDim S1x50000 ![1] bcast_S50000_S1x50000_1 : (⟨S50000, .i32⟩ : BufTy).Contents (Elt F) → (⟨S1x50000, .i32⟩ : BufTy).Contents (Elt F)),
    StableHlo.binary main_v1 main_v2 main_v3 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)),
    StableHlo.binary main_arg5 main_v3 main_v4 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)),
    StableHlo.unary main_v4 main_v5 ((extractStridedSlice S1x850000 ![0, 0] · slices_S2x850000_S1x850000_0_0) : (⟨S2x850000, .i32⟩ : BufTy).Contents (Elt F) → (⟨S1x850000, .i32⟩ : BufTy).Contents (Elt F)),
    StableHlo.reshape main_v5 main_v6 rfl shapeCasts_S1x850000_S850000,
    StableHlo.unary main_v4 main_v7 ((extractStridedSlice S1x850000 ![1, 0] · slices_S2x850000_S1x850000_1_0) : (⟨S2x850000, .i32⟩ : BufTy).Contents (Elt F) → (⟨S1x850000, .i32⟩ : BufTy).Contents (Elt F)),
    StableHlo.reshape main_v7 main_v8 rfl shapeCasts_S1x850000_S850000,
    StableHlo.nullary main_cst (constant S_ .f32 0x3F800000#32),
    StableHlo.unary main_cst main_v9 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v6 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.binary main_v12 main_v15 main_v16 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.TRef.unary (.of main_cst_3) main_call0.v0 id,
    StableHlo.TRef.unary main_call0.v0 main_call0.v1 (broadcastInDim S50000 ![] bcast_S_S50000),
    StableHlo.TRef.ternary (.of main_v16) (.of main_v12) main_call0.v1 main_call0.v2 select,
    StableHlo.unary main_v17 main_v18 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4) main_call1.v0 id,
    StableHlo.TRef.unary main_call1.v0 main_call1.v1 (broadcastInDim S50000 ![] bcast_S_S50000),
    StableHlo.TRef.ternary (.of main_v14) (.of main_v18) main_call1.v1 main_call1.v2 select,
    StableHlo.nullary main_c (constantI S_ 32 0#32),
    StableHlo.unary main_c main_v20 (broadcastInDim S850000 ![] bcast_S_S850000 : (⟨S_, .i32⟩ : BufTy).Contents (Elt F) → (⟨S850000, .i32⟩ : BufTy).Contents (Elt F)),
    StableHlo.binary main_v6 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v22 (broadcastInDim S850000 ![] bcast_S_S850000 : (⟨S_, .i32⟩ : BufTy).Contents (Elt F) → (⟨S850000, .i32⟩ : BufTy).Contents (Elt F)),
    StableHlo.binary main_v6 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v6 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v19 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_6 (constantI S_ 32 0#32),
    StableHlo.unary main_c_6 main_v27 (broadcastInDim S850000 ![] bcast_S_S850000 : (⟨S_, .i32⟩ : BufTy).Contents (Elt F) → (⟨S850000, .i32⟩ : BufTy).Contents (Elt F)),
    StableHlo.binary main_v8 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v29 (broadcastInDim S850000 ![] bcast_S_S850000 : (⟨S_, .i32⟩ : BufTy).Contents (Elt F) → (⟨S850000, .i32⟩ : BufTy).Contents (Elt F)),
    StableHlo.binary main_v8 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v8 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v19 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v33 main_v34 (mulf : (⟨S850000, .f32⟩ : BufTy).Contents (Elt F) → (⟨S850000, .f32⟩ : BufTy).Contents (Elt F) → (⟨S850000, .f32⟩ : BufTy).Contents (Elt F)),
    StableHlo.binary main_v4 main_v3 main_v35 ((fun a b => concatenate S2x900000 1 [⟨S2x850000, a⟩, ⟨S2x50000, b⟩] concatenates_S2x850000_S2x50000_S2x900000_d1) : (⟨S2x850000, .i32⟩ : BufTy).Contents (Elt F) → (⟨S2x50000, .i32⟩ : BufTy).Contents (Elt F) → (⟨S2x900000, .i32⟩ : BufTy).Contents (Elt F)),
    StableHlo.nullary main_cst_8 (constant S_ .f32 0x40000000#32),
    StableHlo.unary main_cst_8 main_v36 (broadcastInDim S50000 ![] bcast_S_S50000 : (⟨S_, .f32⟩ : BufTy).Contents (Elt F) → (⟨S50000, .f32⟩ : BufTy).Contents (Elt F)),
    StableHlo.binary main_v34 main_v36 main_v37 ((fun a b => concatenate S900000 0 [⟨S850000, a⟩, ⟨S50000, b⟩] concatenates_S850000_S50000_S900000_d0) : (⟨S850000, .f32⟩ : BufTy).Contents (Elt F) → (⟨S50000, .f32⟩ : BufTy).Contents (Elt F) → (⟨S900000, .f32⟩ : BufTy).Contents (Elt F)),
    StableHlo.unary main_v35 main_v38 ((extractStridedSlice S1x900000 ![0, 0] · slices_S2x900000_S1x900000_0_0) : (⟨S2x900000, .i32⟩ : BufTy).Contents (Elt F) → (⟨S1x900000, .i32⟩ : BufTy).Contents (Elt F)),
    StableHlo.reshape main_v38 main_v39 rfl shapeCasts_S1x900000_S900000,
    StableHlo.unary main_v35 main_v40 ((extractStridedSlice S1x900000 ![1, 0] · slices_S2x900000_S1x900000_1_0) : (⟨S2x900000, .i32⟩ : BufTy).Contents (Elt F) → (⟨S1x900000, .i32⟩ : BufTy).Contents (Elt F)),
    StableHlo.reshape main_v40 main_v41 rfl shapeCasts_S1x900000_S900000,
    StableHlo.nullary main_cst_9 (constant S_ .f32 0x00000000#32),
    StableHlo.unary main_cst_9 main_v42 (broadcastInDim S50000 ![] bcast_S_S50000 : (⟨S_, .f32⟩ : BufTy).Contents (Elt F) → (⟨S50000, .f32⟩ : BufTy).Contents (Elt F)),
    StableHlo.unary main_v41 main_v43 (broadcastInDim S900000x1 ![0] bcast_S900000_S900000x1_0 : (⟨S900000, .i32⟩ : BufTy).Contents (Elt F) → (⟨S900000x1, .i32⟩ : BufTy).Contents (Elt F)),
    StableHlo.ternary main_v42 main_v43 main_v37 main_v44 ((fun x i u => Host.scatterAdd scatter_S50000_S900000x1_S900000_n_0_0_1 x i u) : (⟨S50000, .f32⟩ : BufTy).Contents (Elt F) → (⟨S900000x1, .i32⟩ : BufTy).Contents (Elt F) → (⟨S900000, .f32⟩ : BufTy).Contents (Elt F) → (⟨S50000, .f32⟩ : BufTy).Contents (Elt F)),
    StableHlo.nullary main_cst_10 (constant S_ .f32 0x00000000#32),
    StableHlo.unary main_cst_10 main_v45 (broadcastInDim S50000 ![] bcast_S_S50000 : (⟨S_, .f32⟩ : BufTy).Contents (Elt F) → (⟨S50000, .f32⟩ : BufTy).Contents (Elt F)),
    StableHlo.binary main_v44 main_v45 main_v46 (cmpf .ogt : (⟨S50000, .f32⟩ : BufTy).Contents (Elt F) → (⟨S50000, .f32⟩ : BufTy).Contents (Elt F) → (⟨S50000, .i1⟩ : BufTy).Contents (Elt F)),
    StableHlo.nullary main_cst_11 (constant S_ .f32 0x00000000#32),
    StableHlo.unary main_cst_11 main_v47 (broadcastInDim S50000 ![] bcast_S_S50000 : (⟨S_, .f32⟩ : BufTy).Contents (Elt F) → (⟨S50000, .f32⟩ : BufTy).Contents (Elt F)),
    StableHlo.binary main_v44 main_v47 main_v48 (cmpf .ogt : (⟨S50000, .f32⟩ : BufTy).Contents (Elt F) → (⟨S50000, .f32⟩ : BufTy).Contents (Elt F) → (⟨S50000, .i1⟩ : BufTy).Contents (Elt F)),
    StableHlo.nullary main_cst_12 (constant S_ .f32 0x3F800000#32),
    StableHlo.TRef.unary (.of main_cst_12) main_call2.v0 id,
    StableHlo.TRef.unary main_call2.v0 main_call2.v1 (broadcastInDim S50000 ![] bcast_S_S50000),
    StableHlo.TRef.ternary (.of main_v48) (.of main_v44) main_call2.v1 main_call2.v2 select,
    StableHlo.unary main_v49 main_v50 (Host.rsqrt : (⟨S50000, .f32⟩ : BufTy).Contents (Elt F) → (⟨S50000, .f32⟩ : BufTy).Contents (Elt F)),
    StableHlo.nullary main_cst_13 (constant S_ .f32 0x00000000#32),
    StableHlo.TRef.unary (.of main_cst_13) main_call3.v0 id,
    StableHlo.TRef.unary main_call3.v0 main_call3.v1 (broadcastInDim S50000 ![] bcast_S_S50000),
    StableHlo.TRef.ternary (.of main_v46) (.of main_v50) main_call3.v1 main_call3.v2 select,
    StableHlo.nullary main_c_14 (constantI S_ 32 0#32),
    StableHlo.unary main_c_14 main_v52 (broadcastInDim S900000 ![] bcast_S_S900000 : (⟨S_, .i32⟩ : BufTy).Contents (Elt F) → (⟨S900000, .i32⟩ : BufTy).Contents (Elt F)),
    StableHlo.binary main_v39 main_v52 main_v53 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 50000#32),
    StableHlo.unary main_c_15 main_v54 (broadcastInDim S900000 ![] bcast_S_S900000 : (⟨S_, .i32⟩ : BufTy).Contents (Elt F) → (⟨S900000, .i32⟩ : BufTy).Contents (Elt F)),
    StableHlo.binary main_v39 main_v54 main_v55 (addi : (⟨S900000, .i32⟩ : BufTy).Contents (Elt F) → (⟨S900000, .i32⟩ : BufTy).Contents (Elt F) → (⟨S900000, .i32⟩ : BufTy).Contents (Elt F)),
    StableHlo.ternary main_v53 main_v55 main_v39 main_v56 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v56 main_v57 (broadcastInDim S900000x1 ![0] bcast_S900000_S900000x1_0 : (⟨S900000, .i32⟩ : BufTy).Contents (Elt F) → (⟨S900000x1, .i32⟩ : BufTy).Contents (Elt F)),
    StableHlo.binary main_v51 main_v57 main_v58 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.binary main_v58 main_v37 main_v59 (mulf : (⟨S900000, .f32⟩ : BufTy).Contents (Elt F) → (⟨S900000, .f32⟩ : BufTy).Contents (Elt F) → (⟨S900000, .f32⟩ : BufTy).Contents (Elt F)),
    StableHlo.nullary main_c_16 (constantI S_ 32 0#32),
    StableHlo.unary main_c_16 main_v60 (broadcastInDim S900000 ![] bcast_S_S900000 : (⟨S_, .i32⟩ : BufTy).Contents (Elt F) → (⟨S900000, .i32⟩ : BufTy).Contents (Elt F)),
    StableHlo.binary main_v41 main_v60 main_v61 (cmpi .slt : (⟨S900000, .i32⟩ : BufTy).Contents (Elt F) → (⟨S900000, .i32⟩ : BufTy).Contents (Elt F) → (⟨S900000, .i1⟩ : BufTy).Contents (Elt F)),
    StableHlo.nullary main_c_17 (constantI S_ 32 50000#32),
    StableHlo.unary main_c_17 main_v62 (broadcastInDim S900000 ![] bcast_S_S900000 : (⟨S_, .i32⟩ : BufTy).Contents (Elt F) → (⟨S900000, .i32⟩ : BufTy).Contents (Elt F)),
    StableHlo.binary main_v41 main_v62 main_v63 (addi : (⟨S900000, .i32⟩ : BufTy).Contents (Elt F) → (⟨S900000, .i32⟩ : BufTy).Contents (Elt F) → (⟨S900000, .i32⟩ : BufTy).Contents (Elt F)),
    StableHlo.ternary main_v61 main_v63 main_v41 main_v64 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v64 main_v65 (broadcastInDim S900000x1 ![0] bcast_S900000_S900000x1_0 : (⟨S900000, .i32⟩ : BufTy).Contents (Elt F) → (⟨S900000x1, .i32⟩ : BufTy).Contents (Elt F)),
    StableHlo.binary main_v51 main_v65 main_v66 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.binary main_v59 main_v66 main_v67 (mulf : (⟨S900000, .f32⟩ : BufTy).Contents (Elt F) → (⟨S900000, .f32⟩ : BufTy).Contents (Elt F) → (⟨S900000, .f32⟩ : BufTy).Contents (Elt F)),
    StableHlo.unary main_arg1 main_v68 ((transpose S128x128 [1, 0] · transposes_S128x128_S128x128_1_0) : (⟨S128x128, .f32⟩ : BufTy).Contents (Elt F) → (⟨S128x128, .f32⟩ : BufTy).Contents (Elt F)),
    StableHlo.binary main_arg0 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v67 main_v70 (broadcastInDim S900000x1 ![0] bcast_S900000_S900000x1_0 : (⟨S900000, .f32⟩ : BufTy).Contents (Elt F) → (⟨S900000x1, .f32⟩ : BufTy).Contents (Elt F)),
    StableHlo.nullary main_c_18 (constantI S_ 32 0#32),
    StableHlo.unary main_c_18 main_v71 (broadcastInDim S900000 ![] bcast_S_S900000 : (⟨S_, .i32⟩ : BufTy).Contents (Elt F) → (⟨S900000, .i32⟩ : BufTy).Contents (Elt F)),
    StableHlo.binary main_v39 main_v71 main_v72 (cmpi .slt : (⟨S900000, .i32⟩ : BufTy).Contents (Elt F) → (⟨S900000, .i32⟩ : BufTy).Contents (Elt F) → (⟨S900000, .i1⟩ : BufTy).Contents (Elt F)),
    StableHlo.nullary main_c_19 (constantI S_ 32 50000#32),
    StableHlo.unary main_c_19 main_v73 (broadcastInDim S900000 ![] bcast_S_S900000 : (⟨S_, .i32⟩ : BufTy).Contents (Elt F) → (⟨S900000, .i32⟩ : BufTy).Contents (Elt F)),
    StableHlo.binary main_v39 main_v73 main_v74 (addi : (⟨S900000, .i32⟩ : BufTy).Contents (Elt F) → (⟨S900000, .i32⟩ : BufTy).Contents (Elt F) → (⟨S900000, .i32⟩ : BufTy).Contents (Elt F)),
    StableHlo.ternary main_v72 main_v74 main_v39 main_v75 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v75 main_v76 (broadcastInDim S900000x1 ![0] bcast_S900000_S900000x1_0 : (⟨S900000, .i32⟩ : BufTy).Contents (Elt F) → (⟨S900000x1, .i32⟩ : BufTy).Contents (Elt F)),
    StableHlo.binary main_v69 main_v76 main_v77 ((fun x i => Host.gather gather_S50000x128_S900000x1_S900000x128_1_0_n_n_0_1_1128 x i) : (⟨S50000x128, .f32⟩ : BufTy).Contents (Elt F) → (⟨S900000x1, .i32⟩ : BufTy).Contents (Elt F) → (⟨S900000x128, .f32⟩ : BufTy).Contents (Elt F)),
    StableHlo.unary main_v70 main_v78 (broadcastInDim S900000x128 ![0, 1] bcast_S900000x1_S900000x128_0_1 : (⟨S900000x1, .f32⟩ : BufTy).Contents (Elt F) → (⟨S900000x128, .f32⟩ : BufTy).Contents (Elt F)),
    StableHlo.binary main_v78 main_v77 main_v79 (mulf : (⟨S900000x128, .f32⟩ : BufTy).Contents (Elt F) → (⟨S900000x128, .f32⟩ : BufTy).Contents (Elt F) → (⟨S900000x128, .f32⟩ : BufTy).Contents (Elt F)),
    StableHlo.nullary main_cst_20 (constant S_ .f32 0x00000000#32),
    StableHlo.unary main_cst_20 main_v80 (broadcastInDim S50000x128 ![] bcast_S_S50000x128 : (⟨S_, .f32⟩ : BufTy).Contents (Elt F) → (⟨S50000x128, .f32⟩ : BufTy).Contents (Elt F)),
    StableHlo.unary main_v41 main_v81 (broadcastInDim S900000x1 ![0] bcast_S900000_S900000x1_0 : (⟨S900000, .i32⟩ : BufTy).Contents (Elt F) → (⟨S900000x1, .i32⟩ : BufTy).Contents (Elt F)),
    StableHlo.ternary main_v80 main_v81 main_v79 main_v82 ((fun x i u => Host.scatterAdd scatter_S50000x128_S900000x1_S900000x128_1_0_0_1 x i u) : (⟨S50000x128, .f32⟩ : BufTy).Contents (Elt F) → (⟨S900000x1, .i32⟩ : BufTy).Contents (Elt F) → (⟨S900000x128, .f32⟩ : BufTy).Contents (Elt F) → (⟨S50000x128, .f32⟩ : BufTy).Contents (Elt F)),
    StableHlo.unary main_arg2 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)) ]

/-- Everything after the cut: `ops1b` followed by the third window, written out (61 operations). -/
abbrev opsB : List (HloOp τ sig (Elt F)) :=
  [ StableHlo.nullary main_cst_21 (constant S_ .f32 0x00000000#32),
    StableHlo.binary main_v85 main_cst_21 main_v86 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_22 (constant S_ .f32 0x47435000#32),
    StableHlo.unary main_cst_22 main_v87 (broadcastInDim S128 ![] bcast_S_S128 : (⟨S_, .f32⟩ : BufTy).Contents (Elt F) → (⟨S128, .f32⟩ : BufTy).Contents (Elt F)),
    StableHlo.binary main_v86 main_v87 main_v88 (Host.divf : (⟨S128, .f32⟩ : BufTy).Contents (Elt F) → (⟨S128, .f32⟩ : BufTy).Contents (Elt F) → (⟨S128, .f32⟩ : BufTy).Contents (Elt F)),
    StableHlo.nullary main_c_23 (constantI S_ 32 0#32),
    StableHlo.TRef.nullary main_call4.cst (constant S_ .f32 0x00000000#32),
    StableHlo.TRef.binary (.of main_v85) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v85) main_call4.v4 main_call4.v5 subf,
    StableHlo.TRef.binary main_call4.v5 main_call4.v5 main_call4.v6 mulf,
    StableHlo.TRef.unary (.of main_c_23) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v88 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v85 main_v91 main_v92 (subf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x3727C5AC#32),
    StableHlo.unary main_cst_24 main_v93 (broadcastInDim S128 ![] bcast_S_S128 : (⟨S_, .f32⟩ : BufTy).Contents (Elt F) → (⟨S128, .f32⟩ : BufTy).Contents (Elt F)),
    StableHlo.binary main_v89 main_v93 main_v94 (addf : (⟨S128, .f32⟩ : BufTy).Contents (Elt F) → (⟨S128, .f32⟩ : BufTy).Contents (Elt F) → (⟨S128, .f32⟩ : BufTy).Contents (Elt F)),
    StableHlo.unary main_v94 main_v95 (Host.rsqrt : (⟨S128, .f32⟩ : BufTy).Contents (Elt F) → (⟨S128, .f32⟩ : BufTy).Contents (Elt F)),
    StableHlo.unary main_v95 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)),
    StableHlo.binary main_v92 main_v97 main_v98 (mulf : (⟨S50000x128, .f32⟩ : BufTy).Contents (Elt F) → (⟨S50000x128, .f32⟩ : BufTy).Contents (Elt F) → (⟨S50000x128, .f32⟩ : BufTy).Contents (Elt F)),
    StableHlo.unary main_arg3 main_v99 (broadcastInDim S1x128 ![1] bcast_S128_S1x128_1 : (⟨S128, .f32⟩ : BufTy).Contents (Elt F) → (⟨S1x128, .f32⟩ : BufTy).Contents (Elt F)),
    StableHlo.unary main_v99 main_v100 (broadcastInDim S50000x128 ![0, 1] bcast_S1x128_S50000x128_0_1 : (⟨S1x128, .f32⟩ : BufTy).Contents (Elt F) → (⟨S50000x128, .f32⟩ : BufTy).Contents (Elt F)),
    StableHlo.binary main_v98 main_v100 main_v101 (mulf : (⟨S50000x128, .f32⟩ : BufTy).Contents (Elt F) → (⟨S50000x128, .f32⟩ : BufTy).Contents (Elt F) → (⟨S50000x128, .f32⟩ : BufTy).Contents (Elt F)),
    StableHlo.unary main_arg4 main_v102 (broadcastInDim S1x128 ![1] bcast_S128_S1x128_1 : (⟨S128, .f32⟩ : BufTy).Contents (Elt F) → (⟨S1x128, .f32⟩ : BufTy).Contents (Elt F)),
    StableHlo.unary main_v102 main_v103 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v103 main_v104 (addf : (⟨S50000x128, .f32⟩ : BufTy).Contents (Elt F) → (⟨S50000x128, .f32⟩ : BufTy).Contents (Elt F) → (⟨S50000x128, .f32⟩ : BufTy).Contents (Elt F)),
    StableHlo.nullary main_cst_25 (constant S_ .f32 0x3DCCCCCD#32),
    StableHlo.TRef.nullary main_call5.cst (constant S_ .f32 0x00000000#32),
    StableHlo.TRef.unary main_call5.cst main_call5.v0 (broadcastInDim S50000x128 ![] bcast_S_S50000x128),
    StableHlo.TRef.binary (.of main_v104) main_call5.v0 main_call5.v1 (cmpf .oge),
    StableHlo.TRef.unary (.of main_cst_25) main_call5.v2 id,
    StableHlo.TRef.unary main_call5.v2 main_call5.v3 (broadcastInDim S50000x128 ![] bcast_S_S50000x128),
    StableHlo.TRef.binary main_call5.v3 (.of main_v104) main_call5.v4 mulf,
    StableHlo.TRef.ternary main_call5.v1 (.of main_v104) main_call5.v4 main_call5.call0.v0 select,
    StableHlo.binary main_v105 main_arg0 main_v106 (addf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x3DCCCCCD#32),
    StableHlo.TRef.nullary main_call6.cst (constant S_ .f32 0x00000000#32),
    StableHlo.TRef.unary main_call6.cst main_call6.v0 (broadcastInDim S50000x128 ![] bcast_S_S50000x128),
    StableHlo.TRef.binary (.of main_v106) main_call6.v0 main_call6.v1 (cmpf .oge),
    StableHlo.TRef.unary (.of main_cst_26) main_call6.v2 id,
    StableHlo.TRef.unary main_call6.v2 main_call6.v3 (broadcastInDim S50000x128 ![] bcast_S_S50000x128),
    StableHlo.TRef.binary main_call6.v3 (.of main_v106) main_call6.v4 mulf,
    StableHlo.TRef.ternary main_call6.v1 (.of main_v106) main_call6.v4 main_call6.call0.v0 select ]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
/-- The first window is its list: both are the same chain of steps once the callees' definitions unfold. -/
theorem part0_eq (d : Dev nD) : main_part0 (F := F) d = seq ops0 := rfl

set_option maxRecDepth 8192 in
/-- The second window is its two lists in sequence. -/
theorem part1_eq (d : Dev nD) : main_part1 (F := F) d = seq (ops1a ++ ops1b) := rfl

set_option maxRecDepth 8192 in
/-- The third window is its list. -/
theorem part2_eq (d : Dev nD) : main_part2 (F := F) d = seq ops2 := rfl

set_option maxRecDepth 8192 in
/-- The two written-out lists are the windows' lists concatenated. -/
theorem opsAB_eq : (opsA ++ opsB : List (HloOp τ sig (Elt F))) = ops0 ++ ((ops1a ++ ops1b) ++ ops2) := rfl

/-- The entry function is the whole line: its three windows in order, each its own list. -/
theorem main_eq (d : Dev nD) : main (F := F) d = seq (opsA ++ opsB) := by
  rw [opsAB_eq, seq_append, seq_append, ← part0_eq d, ← part1_eq d, ← part2_eq d]
  rfl

theorem scopedRefs_eq : (Finset.univ.filter fun b : Ref sig .tc => b.isScoped) = ∅ := by decide
theorem scopedSems_eq : (Finset.univ.filter fun sm : SemLoc sig => sm.isScoped .tc) = ∅ := by decide

/-- Every operation before the cut touches TensorCore buffers only. -/
theorem opsA_sub : (opsA : List (HloOp τ sig (Elt F))).Forall fun op => op.bufs ⊆ tcRefs τ sig :=
  ⟨nullary_bufs_sub .., unary_bufs_sub .., unary_bufs_sub .., binary_bufs_sub .., binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., unary_bufs_sub .., reshape_bufs_sub .., unary_bufs_sub .., reshape_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

/-- Every operation after the cut touches TensorCore buffers only. -/
theorem opsB_sub : (opsB : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., nullary_bufs_sub .., unary_bufs_sub .., binary_bufs_sub .., unary_bufs_sub .., unary_bufs_sub .., binary_bufs_sub .., ternary_bufs_sub ..⟩

theorem ops_sub : (opsA ++ opsB : List (HloOp τ sig (Elt F))).Forall fun op => op.bufs ⊆ tcRefs τ sig :=
  List.forall_iff_forall_mem.2 fun op h => (List.mem_append.1 h).elim
    (List.forall_iff_forall_mem.1 opsA_sub op) (List.forall_iff_forall_mem.1 opsB_sub op)

/-- Every operation before the cut determines its results. -/
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation after the cut determines its results. -/
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops_fresh : ∀ op ∈ (opsA ++ opsB : List (HloOp τ sig (Elt F))), op.fresh = ∅ :=
  fun op h => (List.mem_append.1 h).elim
    (List.forall_iff_forall_mem.1 opsA_fresh op) (List.forall_iff_forall_mem.1 opsB_fresh op)

/-- From any memory with zero counters every fair execution of the reference ends, and every buffer of every
    device then holds the fold of the 178 operations' results over what the device's buffers held at launch. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (opsA ++ opsB) (launchContents m d) (Proc.devRef .tc b) :=
  run_seq scopedRefs_eq scopedSems_eq defs main (fun _ => opsA ++ opsB) main_eq (fun _ => ops_sub) m ρ
    (fun _ => ops_fresh)

end Cert.ReferenceIdeal.HandRun

end
-- ==== Proof.RefRunTail.lean ====
/-
  What the operations after the cut compute, as one function of four arrays.

  After the cut the program reads only the shifted aggregate `B` (the [50000,128] array the cut leaves in
  `main_v85`), the node features `x`, and the scale and shift rows `g`, `be`.  Its result is
  `tail B x g be`: the per-column mean of `B` (`colMean`: the column sums over the count), the per-column
  variance (`colVar`: the sum of squared deviations from the mean over the count less zero, selected against a
  quiet not-a-number should that divisor not be positive), `B` centred by the mean row, scaled by the inverse square
  root of the variance plus the guard, by `g`, and shifted by `be` (`normed`); then the leaky rectifier
  (`lreluArr`: the array where it is at least zero, a tenth of it elsewhere), the residual sum with `x`, and
  the rectifier again.  No operation of the program writes an argument buffer.
-/
import proofs.«143204_j18743237280519_2_alg».proof.Proof.RefRunOps

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]

/-- The per-column mean of a [50000,128] array: the column sums (from zero) over fifty thousand. -/
def colMean (B : (⟨S50000x128, .f32⟩ : BufTy).Contents (Elt F)) : (⟨S128, .f32⟩ : BufTy).Contents (Elt F) :=
  Host.divf (Host.reduceAdd B (constant S_ .f32 0x00000000#32) reducesTo_S50000x128_S128_d0 h_S_) (broadcastInDim S128 ![] bcast_S_S128 (constant S_ .f32 0x47435000#32))

/-- The per-column variance as the variance function computes it: its own mean (the column sums as a [1,128] row
    over fifty thousand), the squared deviations summed by column, over fifty thousand less the zero correction,
    selected on that divisor being positive against a quiet not-a-number. -/
def colVar (B : (⟨S50000x128, .f32⟩ : BufTy).Contents (Elt F)) : (⟨S128, .f32⟩ : BufTy).Contents (Elt F) :=
  select (broadcastInDim S128 ![] bcast_S_S128 (cmpf (F := F) .ogt (subf (constant S_ .f32 0x47435000#32) (sitofp .f32 (constantI S_ 32 0#32))) (constant S_ .f32 0x00000000#32))) (Host.divf (Host.reduceAdd (mulf (subf B (broadcastInDim S50000x128 ![0, 1] bcast_S1x128_S50000x128_0_1 (Host.divf (broadcastInDim S1x128 ![1] bcast_S128_S1x128_1 (Host.reduceAdd B (constant S_ .f32 0x00000000#32) reducesTo_S50000x128_S128_d0 h_S_)) (broadcastInDim S1x128 ![] bcast_S_S1x128 (constant S_ .f32 0x47435000#32))))) (subf B (broadcastInDim S50000x128 ![0, 1] bcast_S1x128_S50000x128_0_1 (Host.divf (broadcastInDim S1x128 ![1] bcast_S128_S1x128_1 (Host.reduceAdd B (constant S_ .f32 0x00000000#32) reducesTo_S50000x128_S128_d0 h_S_)) (broadcastInDim S1x128 ![] bcast_S_S1x128 (constant S_ .f32 0x47435000#32)))))) (constant S_ .f32 0x00000000#32) reducesTo_S50000x128_S128_d0 h_S_) (broadcastInDim S128 ![] bcast_S_S128 (subf (constant S_ .f32 0x47435000#32) (sitofp .f32 (constantI S_ 32 0#32))))) (broadcastInDim S128 ![] bcast_S_S128 (constant S_ .f32 0x7FC00000#32))

/-- Centre by the mean row, scale by the inverse square root of the variance plus the guard, scale by `g`, shift by `be`. -/
def normed (B : (⟨S50000x128, .f32⟩ : BufTy).Contents (Elt F)) (g be : (⟨S128, .f32⟩ : BufTy).Contents (Elt F)) : (⟨S50000x128, .f32⟩ : BufTy).Contents (Elt F) :=
  addf (mulf (mulf (subf B (broadcastInDim S50000x128 ![0, 1] bcast_S1x128_S50000x128_0_1 (broadcastInDim S1x128 ![1] bcast_S128_S1x128_1 (colMean B)))) (broadcastInDim S50000x128 ![0, 1] bcast_S1x128_S50000x128_0_1 (broadcastInDim S1x128 ![1] bcast_S128_S1x128_1 (Host.rsqrt (addf (colVar B) (broadcastInDim S128 ![] bcast_S_S128 (constant S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 be))

/-- The leaky rectifier on a [50000,128] array: the entry where it is at least zero, a tenth of it elsewhere. -/
def lreluArr (z : (⟨S50000x128, .f32⟩ : BufTy).Contents (Elt F)) : (⟨S50000x128, .f32⟩ : BufTy).Contents (Elt F) :=
  select (cmpf (F := F) .oge z (broadcastInDim S50000x128 ![] bcast_S_S50000x128 (constant S_ .f32 0x00000000#32))) z (mulf (broadcastInDim S50000x128 ![] bcast_S_S50000x128 (constant S_ .f32 0x3DCCCCCD#32)) z)

/-- Everything after the cut: normalise, rectify, add the residual, rectify. -/
def tail (B x : (⟨S50000x128, .f32⟩ : BufTy).Contents (Elt F)) (g be : (⟨S128, .f32⟩ : BufTy).Contents (Elt F)) : (⟨S50000x128, .f32⟩ : BufTy).Contents (Elt F) :=
  lreluArr (addf (lreluArr (normed B g be)) x)

set_option maxRecDepth 8192 in
/-- The result buffer after the operations past the cut, from any contents: `tail` of the four buffers they read. -/
theorem tail_eq (V : Valuation τ sig (Elt F)) :
    after opsB V (Proc.devRef .tc main_v107 : DevRef τ sig)
      = tail (V (Proc.devRef .tc main_v85 : DevRef τ sig)) (V (Proc.devRef .tc main_arg0 : DevRef τ sig)) (V (Proc.devRef .tc main_arg3 : DevRef τ sig)) (V (Proc.devRef .tc main_arg4 : DevRef τ sig)) := by
  after_results_simp
  rfl

/-- No operation before the cut writes argument 0. -/
theorem arg0_A (V : Valuation τ sig (Elt F)) : after opsA V (Proc.devRef .tc main_arg0 : DevRef τ sig) = V (Proc.devRef .tc main_arg0 : DevRef τ sig) := by
  after_results_simp
/-- No operation after the cut writes argument 0. -/
theorem arg0_B (V : Valuation τ sig (Elt F)) : after opsB V (Proc.devRef .tc main_arg0 : DevRef τ sig) = V (Proc.devRef .tc main_arg0 : DevRef τ sig) := by
  after_results_simp
/-- No operation writes argument 0. -/
theorem arg0_all (V : Valuation τ sig (Elt F)) : after (opsA ++ opsB) V (Proc.devRef .tc main_arg0 : DevRef τ sig) = V (Proc.devRef .tc main_arg0 : DevRef τ sig) := by
  rw [after_append, arg0_B, arg0_A]

/-- No operation before the cut writes argument 1. -/
theorem arg1_A (V : Valuation τ sig (Elt F)) : after opsA V (Proc.devRef .tc main_arg1 : DevRef τ sig) = V (Proc.devRef .tc main_arg1 : DevRef τ sig) := by
  after_results_simp
/-- No operation after the cut writes argument 1. -/
theorem arg1_B (V : Valuation τ sig (Elt F)) : after opsB V (Proc.devRef .tc main_arg1 : DevRef τ sig) = V (Proc.devRef .tc main_arg1 : DevRef τ sig) := by
  after_results_simp
/-- No operation writes argument 1. -/
theorem arg1_all (V : Valuation τ sig (Elt F)) : after (opsA ++ opsB) V (Proc.devRef .tc main_arg1 : DevRef τ sig) = V (Proc.devRef .tc main_arg1 : DevRef τ sig) := by
  rw [after_append, arg1_B, arg1_A]

/-- No operation before the cut writes argument 2. -/
theorem arg2_A (V : Valuation τ sig (Elt F)) : after opsA V (Proc.devRef .tc main_arg2 : DevRef τ sig) = V (Proc.devRef .tc main_arg2 : DevRef τ sig) := by
  after_results_simp
/-- No operation after the cut writes argument 2. -/
theorem arg2_B (V : Valuation τ sig (Elt F)) : after opsB V (Proc.devRef .tc main_arg2 : DevRef τ sig) = V (Proc.devRef .tc main_arg2 : DevRef τ sig) := by
  after_results_simp
/-- No operation writes argument 2. -/
theorem arg2_all (V : Valuation τ sig (Elt F)) : after (opsA ++ opsB) V (Proc.devRef .tc main_arg2 : DevRef τ sig) = V (Proc.devRef .tc main_arg2 : DevRef τ sig) := by
  rw [after_append, arg2_B, arg2_A]

/-- No operation before the cut writes argument 3. -/
theorem arg3_A (V : Valuation τ sig (Elt F)) : after opsA V (Proc.devRef .tc main_arg3 : DevRef τ sig) = V (Proc.devRef .tc main_arg3 : DevRef τ sig) := by
  after_results_simp
/-- No operation after the cut writes argument 3. -/
theorem arg3_B (V : Valuation τ sig (Elt F)) : after opsB V (Proc.devRef .tc main_arg3 : DevRef τ sig) = V (Proc.devRef .tc main_arg3 : DevRef τ sig) := by
  after_results_simp
/-- No operation writes argument 3. -/
theorem arg3_all (V : Valuation τ sig (Elt F)) : after (opsA ++ opsB) V (Proc.devRef .tc main_arg3 : DevRef τ sig) = V (Proc.devRef .tc main_arg3 : DevRef τ sig) := by
  rw [after_append, arg3_B, arg3_A]

/-- No operation before the cut writes argument 4. -/
theorem arg4_A (V : Valuation τ sig (Elt F)) : after opsA V (Proc.devRef .tc main_arg4 : DevRef τ sig) = V (Proc.devRef .tc main_arg4 : DevRef τ sig) := by
  after_results_simp
/-- No operation after the cut writes argument 4. -/
theorem arg4_B (V : Valuation τ sig (Elt F)) : after opsB V (Proc.devRef .tc main_arg4 : DevRef τ sig) = V (Proc.devRef .tc main_arg4 : DevRef τ sig) := by
  after_results_simp
/-- No operation writes argument 4. -/
theorem arg4_all (V : Valuation τ sig (Elt F)) : after (opsA ++ opsB) V (Proc.devRef .tc main_arg4 : DevRef τ sig) = V (Proc.devRef .tc main_arg4 : DevRef τ sig) := by
  rw [after_append, arg4_B, arg4_A]

/-- No operation before the cut writes argument 5. -/
theorem arg5_A (V : Valuation τ sig (Elt F)) : after opsA V (Proc.devRef .tc main_arg5 : DevRef τ sig) = V (Proc.devRef .tc main_arg5 : DevRef τ sig) := by
  after_results_simp
/-- No operation after the cut writes argument 5. -/
theorem arg5_B (V : Valuation τ sig (Elt F)) : after opsB V (Proc.devRef .tc main_arg5 : DevRef τ sig) = V (Proc.devRef .tc main_arg5 : DevRef τ sig) := by
  after_results_simp
/-- No operation writes argument 5. -/
theorem arg5_all (V : Valuation τ sig (Elt F)) : after (opsA ++ opsB) V (Proc.devRef .tc main_arg5 : DevRef τ sig) = V (Proc.devRef .tc main_arg5 : DevRef τ sig) := by
  rw [after_append, arg5_B, arg5_A]

/-- The whole line's result: `tail` of what the cut leaves in the aggregate buffer and of the launch contents of the
    three arguments read after it. -/
theorem out_eq (V : Valuation τ sig (Elt F)) :
    after (opsA ++ opsB) V (Proc.devRef .tc main_v107 : DevRef τ sig)
      = tail (after opsA V (Proc.devRef .tc main_v85 : DevRef τ sig)) (V (Proc.devRef .tc main_arg0 : DevRef τ sig)) (V (Proc.devRef .tc main_arg3 : DevRef τ sig)) (V (Proc.devRef .tc main_arg4 : DevRef τ sig)) := by
  rw [after_append, tail_eq, arg0_A, arg3_A, arg4_A]

end Cert.ReferenceIdeal.HandRun

end
-- ==== Proof.RefRunAggStep.lean ====
/-
  The last steps before the cut, read one at a time.

  The operations before the cut end with twenty-one that no longer touch the edge list itself: the weight's transpose
  and the linear layer, the edge weights as a column, the source rows wrapped into range as an index column, the
  gather of the projected rows, their scaling, the scatter-add from zero at the target rows, and the bias row's
  sum.  `opsA1` is what comes before them (it ends with the edge weights, `main_v67`), `opsA2` those twenty-one.
  From any contents `opsA2` computes the aggregate buffer from six buffers it does not write: the edge weights, the
  two rows of the extended edge list (`main_v39` sources, `main_v41` targets), the features, the weight and the bias.
  Read against the contents after all of `opsA`: the aggregate is the scatter-add, at the target column, of the weight
  column times the gathered projection, plus the bias; the three columns are each one step from the buffers before.
-/
import proofs.«143204_j18743237280519_2_alg».proof.Proof.RefRunOps

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]

/-- The operations before the cut up to and including the edge weights (96). -/
abbrev opsA1 : List (HloOp τ sig (Elt F)) :=
  [ StableHlo.nullary main_v0 (iotaInDim S50000 32 0),
    StableHlo.unary main_v0 main_v1 (broadcastInDim S1x50000 ![1] bcast_S50000_S1x50000_1 : (⟨S50000, .i32⟩ : BufTy).Contents (Elt F) → (⟨S1x50000, .i32⟩ : BufTy).Contents (Elt F)),
    StableHlo.unary main_v0 main_v2 (broadcastInDim S1x50000 ![1] bcast_S50000_S1x50000_1 : (⟨S50000, .i32⟩ : BufTy).Contents (Elt F) → (⟨S1x50000, .i32⟩ : BufTy).Contents (Elt F)),
    StableHlo.binary main_v1 main_v2 main_v3 ((fun a b => concatenate S2x50000 0 [⟨S1x50000, a⟩, ⟨S1x50000, b⟩] concatenates_S1x50000_S1x50000_S2x50000_d0) : (⟨S1x50000, .i32⟩ : BufTy).Contents (Elt F) → (⟨S1x50000, .i32⟩ : BufTy).Contents (Elt F) → (⟨S2x50000, .i32⟩ : BufTy).Contents (Elt F)),
    StableHlo.binary main_arg5 main_v3 main_v4 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)),
    StableHlo.unary main_v4 main_v5 ((extractStridedSlice S1x850000 ![0, 0] · slices_S2x850000_S1x850000_0_0) : (⟨S2x850000, .i32⟩ : BufTy).Contents (Elt F) → (⟨S1x850000, .i32⟩ : BufTy).Contents (Elt F)),
    StableHlo.reshape main_v5 main_v6 rfl shapeCasts_S1x850000_S850000,
    StableHlo.unary main_v4 main_v7 ((extractStridedSlice S1x850000 ![1, 0] · slices_S2x850000_S1x850000_1_0) : (⟨S2x850000, .i32⟩ : BufTy).Contents (Elt F) → (⟨S1x850000, .i32⟩ : BufTy).Contents (Elt F)),
    StableHlo.reshape main_v7 main_v8 rfl shapeCasts_S1x850000_S850000,
    StableHlo.nullary main_cst (constant S_ .f32 0x3F800000#32),
    StableHlo.unary main_cst main_v9 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v10 (broadcastInDim S50000 ![] bcast_S_S50000 : (⟨S_, .f32⟩ : BufTy).Contents (Elt F) → (⟨S50000, .f32⟩ : BufTy).Contents (Elt F)),
    StableHlo.unary main_v6 main_v11 (broadcastInDim S850000x1 ![0] bcast_S850000_S850000x1_0 : (⟨S850000, .i32⟩ : BufTy).Contents (Elt F) → (⟨S850000x1, .i32⟩ : BufTy).Contents (Elt F)),
    StableHlo.ternary main_v10 main_v11 main_v9 main_v12 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v13 (broadcastInDim S50000 ![] bcast_S_S50000 : (⟨S_, .f32⟩ : BufTy).Contents (Elt F) → (⟨S50000, .f32⟩ : BufTy).Contents (Elt F)),
    StableHlo.binary main_v12 main_v13 main_v14 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.binary main_v12 main_v15 main_v16 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.TRef.unary (.of main_cst_3) main_call0.v0 id,
    StableHlo.TRef.unary main_call0.v0 main_call0.v1 (broadcastInDim S50000 ![] bcast_S_S50000),
    StableHlo.TRef.ternary (.of main_v16) (.of main_v12) main_call0.v1 main_call0.v2 select,
    StableHlo.unary main_v17 main_v18 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4) main_call1.v0 id,
    StableHlo.TRef.unary main_call1.v0 main_call1.v1 (broadcastInDim S50000 ![] bcast_S_S50000),
    StableHlo.TRef.ternary (.of main_v14) (.of main_v18) main_call1.v1 main_call1.v2 select,
    StableHlo.nullary main_c (constantI S_ 32 0#32),
    StableHlo.unary main_c main_v20 (broadcastInDim S850000 ![] bcast_S_S850000 : (⟨S_, .i32⟩ : BufTy).Contents (Elt F) → (⟨S850000, .i32⟩ : BufTy).Contents (Elt F)),
    StableHlo.binary main_v6 main_v20 main_v21 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v22 (broadcastInDim S850000 ![] bcast_S_S850000 : (⟨S_, .i32⟩ : BufTy).Contents (Elt F) → (⟨S850000, .i32⟩ : BufTy).Contents (Elt F)),
    StableHlo.binary main_v6 main_v22 main_v23 (addi : (⟨S850000, .i32⟩ : BufTy).Contents (Elt F) → (⟨S850000, .i32⟩ : BufTy).Contents (Elt F) → (⟨S850000, .i32⟩ : BufTy).Contents (Elt F)),
    StableHlo.ternary main_v21 main_v23 main_v6 main_v24 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v24 main_v25 (broadcastInDim S850000x1 ![0] bcast_S850000_S850000x1_0 : (⟨S850000, .i32⟩ : BufTy).Contents (Elt F) → (⟨S850000x1, .i32⟩ : BufTy).Contents (Elt F)),
    StableHlo.binary main_v19 main_v25 main_v26 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_6 (constantI S_ 32 0#32),
    StableHlo.unary main_c_6 main_v27 (broadcastInDim S850000 ![] bcast_S_S850000 : (⟨S_, .i32⟩ : BufTy).Contents (Elt F) → (⟨S850000, .i32⟩ : BufTy).Contents (Elt F)),
    StableHlo.binary main_v8 main_v27 main_v28 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v29 (broadcastInDim S850000 ![] bcast_S_S850000 : (⟨S_, .i32⟩ : BufTy).Contents (Elt F) → (⟨S850000, .i32⟩ : BufTy).Contents (Elt F)),
    StableHlo.binary main_v8 main_v29 main_v30 (addi : (⟨S850000, .i32⟩ : BufTy).Contents (Elt F) → (⟨S850000, .i32⟩ : BufTy).Contents (Elt F) → (⟨S850000, .i32⟩ : BufTy).Contents (Elt F)),
    StableHlo.ternary main_v28 main_v30 main_v8 main_v31 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v31 main_v32 (broadcastInDim S850000x1 ![0] bcast_S850000_S850000x1_0 : (⟨S850000, .i32⟩ : BufTy).Contents (Elt F) → (⟨S850000x1, .i32⟩ : BufTy).Contents (Elt F)),
    StableHlo.binary main_v19 main_v32 main_v33 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v26 main_v33 main_v34 (mulf : (⟨S850000, .f32⟩ : BufTy).Contents (Elt F) → (⟨S850000, .f32⟩ : BufTy).Contents (Elt F) → (⟨S850000, .f32⟩ : BufTy).Contents (Elt F)),
    StableHlo.binary main_v4 main_v3 main_v35 ((fun a b => concatenate S2x900000 1 [⟨S2x850000, a⟩, ⟨S2x50000, b⟩] concatenates_S2x850000_S2x50000_S2x900000_d1) : (⟨S2x850000, .i32⟩ : BufTy).Contents (Elt F) → (⟨S2x50000, .i32⟩ : BufTy).Contents (Elt F) → (⟨S2x900000, .i32⟩ : BufTy).Contents (Elt F)),
    StableHlo.nullary main_cst_8 (constant S_ .f32 0x40000000#32),
    StableHlo.unary main_cst_8 main_v36 (broadcastInDim S50000 ![] bcast_S_S50000 : (⟨S_, .f32⟩ : BufTy).Contents (Elt F) → (⟨S50000, .f32⟩ : BufTy).Contents (Elt F)),
    StableHlo.binary main_v34 main_v36 main_v37 ((fun a b => concatenate S900000 0 [⟨S850000, a⟩, ⟨S50000, b⟩] concatenates_S850000_S50000_S900000_d0) : (⟨S850000, .f32⟩ : BufTy).Contents (Elt F) → (⟨S50000, .f32⟩ : BufTy).Contents (Elt F) → (⟨S900000, .f32⟩ : BufTy).Contents (Elt F)),
    StableHlo.unary main_v35 main_v38 ((extractStridedSlice S1x900000 ![0, 0] · slices_S2x900000_S1x900000_0_0) : (⟨S2x900000, .i32⟩ : BufTy).Contents (Elt F) → (⟨S1x900000, .i32⟩ : BufTy).Contents (Elt F)),
    StableHlo.reshape main_v38 main_v39 rfl shapeCasts_S1x900000_S900000,
    StableHlo.unary main_v35 main_v40 ((extractStridedSlice S1x900000 ![1, 0] · slices_S2x900000_S1x900000_1_0) : (⟨S2x900000, .i32⟩ : BufTy).Contents (Elt F) → (⟨S1x900000, .i32⟩ : BufTy).Contents (Elt F)),
    StableHlo.reshape main_v40 main_v41 rfl shapeCasts_S1x900000_S900000,
    StableHlo.nullary main_cst_9 (constant S_ .f32 0x00000000#32),
    StableHlo.unary main_cst_9 main_v42 (broadcastInDim S50000 ![] bcast_S_S50000 : (⟨S_, .f32⟩ : BufTy).Contents (Elt F) → (⟨S50000, .f32⟩ : BufTy).Contents (Elt F)),
    StableHlo.unary main_v41 main_v43 (broadcastInDim S900000x1 ![0] bcast_S900000_S900000x1_0 : (⟨S900000, .i32⟩ : BufTy).Contents (Elt F) → (⟨S900000x1, .i32⟩ : BufTy).Contents (Elt F)),
    StableHlo.ternary main_v42 main_v43 main_v37 main_v44 ((fun x i u => Host.scatterAdd scatter_S50000_S900000x1_S900000_n_0_0_1 x i u) : (⟨S50000, .f32⟩ : BufTy).Contents (Elt F) → (⟨S900000x1, .i32⟩ : BufTy).Contents (Elt F) → (⟨S900000, .f32⟩ : BufTy).Contents (Elt F) → (⟨S50000, .f32⟩ : BufTy).Contents (Elt F)),
    StableHlo.nullary main_cst_10 (constant S_ .f32 0x00000000#32),
    StableHlo.unary main_cst_10 main_v45 (broadcastInDim S50000 ![] bcast_S_S50000 : (⟨S_, .f32⟩ : BufTy).Contents (Elt F) → (⟨S50000, .f32⟩ : BufTy).Contents (Elt F)),
    StableHlo.binary main_v44 main_v45 main_v46 (cmpf .ogt : (⟨S50000, .f32⟩ : BufTy).Contents (Elt F) → (⟨S50000, .f32⟩ : BufTy).Contents (Elt F) → (⟨S50000, .i1⟩ : BufTy).Contents (Elt F)),
    StableHlo.nullary main_cst_11 (constant S_ .f32 0x00000000#32),
    StableHlo.unary main_cst_11 main_v47 (broadcastInDim S50000 ![] bcast_S_S50000 : (⟨S_, .f32⟩ : BufTy).Contents (Elt F) → (⟨S50000, .f32⟩ : BufTy).Contents (Elt F)),
    StableHlo.binary main_v44 main_v47 main_v48 (cmpf .ogt : (⟨S50000, .f32⟩ : BufTy).Contents (Elt F) → (⟨S50000, .f32⟩ : BufTy).Contents (Elt F) → (⟨S50000, .i1⟩ : BufTy).Contents (Elt F)),
    StableHlo.nullary main_cst_12 (constant S_ .f32 0x3F800000#32),
    StableHlo.TRef.unary (.of main_cst_12) main_call2.v0 id,
    StableHlo.TRef.unary main_call2.v0 main_call2.v1 (broadcastInDim S50000 ![] bcast_S_S50000),
    StableHlo.TRef.ternary (.of main_v48) (.of main_v44) main_call2.v1 main_call2.v2 select,
    StableHlo.unary main_v49 main_v50 (Host.rsqrt : (⟨S50000, .f32⟩ : BufTy).Contents (Elt F) → (⟨S50000, .f32⟩ : BufTy).Contents (Elt F)),
    StableHlo.nullary main_cst_13 (constant S_ .f32 0x00000000#32),
    StableHlo.TRef.unary (.of main_cst_13) main_call3.v0 id,
    StableHlo.TRef.unary main_call3.v0 main_call3.v1 (broadcastInDim S50000 ![] bcast_S_S50000),
    StableHlo.TRef.ternary (.of main_v46) (.of main_v50) main_call3.v1 main_call3.v2 select,
    StableHlo.nullary main_c_14 (constantI S_ 32 0#32),
    StableHlo.unary main_c_14 main_v52 (broadcastInDim S900000 ![] bcast_S_S900000 : (⟨S_, .i32⟩ : BufTy).Contents (Elt F) → (⟨S900000, .i32⟩ : BufTy).Contents (Elt F)),
    StableHlo.binary main_v39 main_v52 main_v53 (cmpi .slt : (⟨S900000, .i32⟩ : BufTy).Contents (Elt F) → (⟨S900000, .i32⟩ : BufTy).Contents (Elt F) → (⟨S900000, .i1⟩ : BufTy).Contents (Elt F)),
    StableHlo.nullary main_c_15 (constantI S_ 32 50000#32),
    StableHlo.unary main_c_15 main_v54 (broadcastInDim S900000 ![] bcast_S_S900000 : (⟨S_, .i32⟩ : BufTy).Contents (Elt F) → (⟨S900000, .i32⟩ : BufTy).Contents (Elt F)),
    StableHlo.binary main_v39 main_v54 main_v55 (addi : (⟨S900000, .i32⟩ : BufTy).Contents (Elt F) → (⟨S900000, .i32⟩ : BufTy).Contents (Elt F) → (⟨S900000, .i32⟩ : BufTy).Contents (Elt F)),
    StableHlo.ternary main_v53 main_v55 main_v39 main_v56 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v56 main_v57 (broadcastInDim S900000x1 ![0] bcast_S900000_S900000x1_0 : (⟨S900000, .i32⟩ : BufTy).Contents (Elt F) → (⟨S900000x1, .i32⟩ : BufTy).Contents (Elt F)),
    StableHlo.binary main_v51 main_v57 main_v58 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.binary main_v58 main_v37 main_v59 (mulf : (⟨S900000, .f32⟩ : BufTy).Contents (Elt F) → (⟨S900000, .f32⟩ : BufTy).Contents (Elt F) → (⟨S900000, .f32⟩ : BufTy).Contents (Elt F)),
    StableHlo.nullary main_c_16 (constantI S_ 32 0#32),
    StableHlo.unary main_c_16 main_v60 (broadcastInDim S900000 ![] bcast_S_S900000 : (⟨S_, .i32⟩ : BufTy).Contents (Elt F) → (⟨S900000, .i32⟩ : BufTy).Contents (Elt F)),
    StableHlo.binary main_v41 main_v60 main_v61 (cmpi .slt : (⟨S900000, .i32⟩ : BufTy).Contents (Elt F) → (⟨S900000, .i32⟩ : BufTy).Contents (Elt F) → (⟨S900000, .i1⟩ : BufTy).Contents (Elt F)),
    StableHlo.nullary main_c_17 (constantI S_ 32 50000#32),
    StableHlo.unary main_c_17 main_v62 (broadcastInDim S900000 ![] bcast_S_S900000 : (⟨S_, .i32⟩ : BufTy).Contents (Elt F) → (⟨S900000, .i32⟩ : BufTy).Contents (Elt F)),
    StableHlo.binary main_v41 main_v62 main_v63 (addi : (⟨S900000, .i32⟩ : BufTy).Contents (Elt F) → (⟨S900000, .i32⟩ : BufTy).Contents (Elt F) → (⟨S900000, .i32⟩ : BufTy).Contents (Elt F)),
    StableHlo.ternary main_v61 main_v63 main_v41 main_v64 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v64 main_v65 (broadcastInDim S900000x1 ![0] bcast_S900000_S900000x1_0 : (⟨S900000, .i32⟩ : BufTy).Contents (Elt F) → (⟨S900000x1, .i32⟩ : BufTy).Contents (Elt F)),
    StableHlo.binary main_v51 main_v65 main_v66 ((fun x i => Host.gather gather_S50000_S900000x1_S900000_n_0_n_n_0_1_1 x i) : (⟨S50000, .f32⟩ : BufTy).Contents (Elt F) → (⟨S900000x1, .i32⟩ : BufTy).Contents (Elt F) → (⟨S900000, .f32⟩ : BufTy).Contents (Elt F)),
    StableHlo.binary main_v59 main_v66 main_v67 (mulf : (⟨S900000, .f32⟩ : BufTy).Contents (Elt F) → (⟨S900000, .f32⟩ : BufTy).Contents (Elt F) → (⟨S900000, .f32⟩ : BufTy).Contents (Elt F)) ]

/-- The last twenty-one operations before the cut. -/
abbrev opsA2 : List (HloOp τ sig (Elt F)) :=
  [ StableHlo.unary main_arg1 main_v68 ((transpose S128x128 [1, 0] · transposes_S128x128_S128x128_1_0) : (⟨S128x128, .f32⟩ : BufTy).Contents (Elt F) → (⟨S128x128, .f32⟩ : BufTy).Contents (Elt F)),
    StableHlo.binary main_arg0 main_v68 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v67 main_v70 (broadcastInDim S900000x1 ![0] bcast_S900000_S900000x1_0 : (⟨S900000, .f32⟩ : BufTy).Contents (Elt F) → (⟨S900000x1, .f32⟩ : BufTy).Contents (Elt F)),
    StableHlo.nullary main_c_18 (constantI S_ 32 0#32),
    StableHlo.unary main_c_18 main_v71 (broadcastInDim S900000 ![] bcast_S_S900000 : (⟨S_, .i32⟩ : BufTy).Contents (Elt F) → (⟨S900000, .i32⟩ : BufTy).Contents (Elt F)),
    StableHlo.binary main_v39 main_v71 main_v72 (cmpi .slt : (⟨S900000, .i32⟩ : BufTy).Contents (Elt F) → (⟨S900000, .i32⟩ : BufTy).Contents (Elt F) → (⟨S900000, .i1⟩ : BufTy).Contents (Elt F)),
    StableHlo.nullary main_c_19 (constantI S_ 32 50000#32),
    StableHlo.unary main_c_19 main_v73 (broadcastInDim S900000 ![] bcast_S_S900000 : (⟨S_, .i32⟩ : BufTy).Contents (Elt F) → (⟨S900000, .i32⟩ : BufTy).Contents (Elt F)),
    StableHlo.binary main_v39 main_v73 main_v74 (addi : (⟨S900000, .i32⟩ : BufTy).Contents (Elt F) → (⟨S900000, .i32⟩ : BufTy).Contents (Elt F) → (⟨S900000, .i32⟩ : BufTy).Contents (Elt F)),
    StableHlo.ternary main_v72 main_v74 main_v39 main_v75 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    StableHlo.unary main_v75 main_v76 (broadcastInDim S900000x1 ![0] bcast_S900000_S900000x1_0 : (⟨S900000, .i32⟩ : BufTy).Contents (Elt F) → (⟨S900000x1, .i32⟩ : BufTy).Contents (Elt F)),
    StableHlo.binary main_v69 main_v76 main_v77 ((fun x i => Host.gather gather_S50000x128_S900000x1_S900000x128_1_0_n_n_0_1_1128 x i) : (⟨S50000x128, .f32⟩ : BufTy).Contents (Elt F) → (⟨S900000x1, .i32⟩ : BufTy).Contents (Elt F) → (⟨S900000x128, .f32⟩ : BufTy).Contents (Elt F)),
    StableHlo.unary main_v70 main_v78 (broadcastInDim S900000x128 ![0, 1] bcast_S900000x1_S900000x128_0_1 : (⟨S900000x1, .f32⟩ : BufTy).Contents (Elt F) → (⟨S900000x128, .f32⟩ : BufTy).Contents (Elt F)),
    StableHlo.binary main_v78 main_v77 main_v79 (mulf : (⟨S900000x128, .f32⟩ : BufTy).Contents (Elt F) → (⟨S900000x128, .f32⟩ : BufTy).Contents (Elt F) → (⟨S900000x128, .f32⟩ : BufTy).Contents (Elt F)),
    StableHlo.nullary main_cst_20 (constant S_ .f32 0x00000000#32),
    StableHlo.unary main_cst_20 main_v80 (broadcastInDim S50000x128 ![] bcast_S_S50000x128 : (⟨S_, .f32⟩ : BufTy).Contents (Elt F) → (⟨S50000x128, .f32⟩ : BufTy).Contents (Elt F)),
    StableHlo.unary main_v41 main_v81 (broadcastInDim S900000x1 ![0] bcast_S900000_S900000x1_0 : (⟨S900000, .i32⟩ : BufTy).Contents (Elt F) → (⟨S900000x1, .i32⟩ : BufTy).Contents (Elt F)),
    StableHlo.ternary main_v80 main_v81 main_v79 main_v82 ((fun x i u => Host.scatterAdd scatter_S50000x128_S900000x1_S900000x128_1_0_0_1 x i u) : (⟨S50000x128, .f32⟩ : BufTy).Contents (Elt F) → (⟨S900000x1, .i32⟩ : BufTy).Contents (Elt F) → (⟨S900000x128, .f32⟩ : BufTy).Contents (Elt F) → (⟨S50000x128, .f32⟩ : BufTy).Contents (Elt F)),
    StableHlo.unary main_arg2 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v84 main_v85 (addf : (⟨S50000x128, .f32⟩ : BufTy).Contents (Elt F) → (⟨S50000x128, .f32⟩ : BufTy).Contents (Elt F) → (⟨S50000x128, .f32⟩ : BufTy).Contents (Elt F)) ]

set_option maxRecDepth 8192 in
theorem opsA_split : (opsA : List (HloOp τ sig (Elt F))) = opsA1 ++ opsA2 := rfl

/-- The aggregate buffer after the last twenty-one operations, from any contents. -/
theorem v85_step (W : Valuation τ sig (Elt F)) :
    after opsA2 W (Proc.devRef .tc main_v85 : DevRef τ sig) = addf (Host.scatterAdd scatter_S50000x128_S900000x1_S900000x128_1_0_0_1 (broadcastInDim S50000x128 ![] bcast_S_S50000x128 (constant S_ .f32 0x00000000#32)) (broadcastInDim S900000x1 ![0] bcast_S900000_S900000x1_0 (W (Proc.devRef .tc main_v41 : DevRef τ sig))) (mulf (broadcastInDim S900000x128 ![0, 1] bcast_S900000x1_S900000x128_0_1 (broadcastInDim S900000x1 ![0] bcast_S900000_S900000x1_0 (W (Proc.devRef .tc main_v67 : DevRef τ sig)))) (Host.gather gather_S50000x128_S900000x1_S900000x128_1_0_n_n_0_1_1128 (Host.dotGeneral dot_S50000x128_S128x128_S50000x128_1_0_0_1_n_n none (W (Proc.devRef .tc main_arg0 : DevRef τ sig)) (transpose S128x128 [1, 0] (W (Proc.devRef .tc main_arg1 : DevRef τ sig)) transposes_S128x128_S128x128_1_0)) (broadcastInDim S900000x1 ![0] bcast_S900000_S900000x1_0 (select (cmpi .slt (W (Proc.devRef .tc main_v39 : DevRef τ sig)) (broadcastInDim S900000 ![] bcast_S_S900000 (constantI S_ 32 0#32))) (addi (W (Proc.devRef .tc main_v39 : DevRef τ sig)) (broadcastInDim S900000 ![] bcast_S_S900000 (constantI S_ 32 50000#32))) (W (Proc.devRef .tc main_v39 : DevRef τ sig))))))) (broadcastInDim S50000x128 ![0, 1] bcast_S1x128_S50000x128_0_1 (broadcastInDim S1x128 ![1] bcast_S128_S1x128_1 (W (Proc.devRef .tc main_arg2 : DevRef τ sig)))) := by
  after_results_simp
/-- The edge weights as a column, after them. -/
theorem v70_step (W : Valuation τ sig (Elt F)) :
    after opsA2 W (Proc.devRef .tc main_v70 : DevRef τ sig) = broadcastInDim S900000x1 ![0] bcast_S900000_S900000x1_0 (W (Proc.devRef .tc main_v67 : DevRef τ sig)) := by
  after_results_simp
/-- The wrapped source rows as an index column, after them. -/
theorem v76_step (W : Valuation τ sig (Elt F)) :
    after opsA2 W (Proc.devRef .tc main_v76 : DevRef τ sig) = broadcastInDim S900000x1 ![0] bcast_S900000_S900000x1_0 (select (cmpi .slt (W (Proc.devRef .tc main_v39 : DevRef τ sig)) (broadcastInDim S900000 ![] bcast_S_S900000 (constantI S_ 32 0#32))) (addi (W (Proc.devRef .tc main_v39 : DevRef τ sig)) (broadcastInDim S900000 ![] bcast_S_S900000 (constantI S_ 32 50000#32))) (W (Proc.devRef .tc main_v39 : DevRef τ sig))) := by
  after_results_simp
/-- The target rows as an index column, after them. -/
theorem v81_step (W : Valuation τ sig (Elt F)) :
    after opsA2 W (Proc.devRef .tc main_v81 : DevRef τ sig) = broadcastInDim S900000x1 ![0] bcast_S900000_S900000x1_0 (W (Proc.devRef .tc main_v41 : DevRef τ sig)) := by
  after_results_simp
/-- The last twenty-one operations do not write `main_v67`. -/
theorem v67_keep (W : Valuation τ sig (Elt F)) : after opsA2 W (Proc.devRef .tc main_v67 : DevRef τ sig) = W (Proc.devRef .tc main_v67 : DevRef τ sig) := by
  after_results_simp
/-- The last twenty-one operations do not write `main_v39`. -/
theorem v39_keep (W : Valuation τ sig (Elt F)) : after opsA2 W (Proc.devRef .tc main_v39 : DevRef τ sig) = W (Proc.devRef .tc main_v39 : DevRef τ sig) := by
  after_results_simp
/-- The last twenty-one operations do not write `main_v41`. -/
theorem v41_keep (W : Valuation τ sig (Elt F)) : after opsA2 W (Proc.devRef .tc main_v41 : DevRef τ sig) = W (Proc.devRef .tc main_v41 : DevRef τ sig) := by
  after_results_simp
/-- The last twenty-one operations do not write `main_arg0`. -/
theorem arg0_keep (W : Valuation τ sig (Elt F)) : after opsA2 W (Proc.devRef .tc main_arg0 : DevRef τ sig) = W (Proc.devRef .tc main_arg0 : DevRef τ sig) := by
  after_results_simp
/-- The last twenty-one operations do not write `main_arg1`. -/
theorem arg1_keep (W : Valuation τ sig (Elt F)) : after opsA2 W (Proc.devRef .tc main_arg1 : DevRef τ sig) = W (Proc.devRef .tc main_arg1 : DevRef τ sig) := by
  after_results_simp
/-- The last twenty-one operations do not write `main_arg2`. -/
theorem arg2_keep (W : Valuation τ sig (Elt F)) : after opsA2 W (Proc.devRef .tc main_arg2 : DevRef τ sig) = W (Proc.devRef .tc main_arg2 : DevRef τ sig) := by
  after_results_simp
/-- The operations before them do not write `main_arg0`. -/
theorem arg0_A1 (V : Valuation τ sig (Elt F)) : after opsA1 V (Proc.devRef .tc main_arg0 : DevRef τ sig) = V (Proc.devRef .tc main_arg0 : DevRef τ sig) := by
  after_results_simp
/-- The operations before them do not write `main_arg1`. -/
theorem arg1_A1 (V : Valuation τ sig (Elt F)) : after opsA1 V (Proc.devRef .tc main_arg1 : DevRef τ sig) = V (Proc.devRef .tc main_arg1 : DevRef τ sig) := by
  after_results_simp
/-- The operations before them do not write `main_arg2`. -/
theorem arg2_A1 (V : Valuation τ sig (Elt F)) : after opsA1 V (Proc.devRef .tc main_arg2 : DevRef τ sig) = V (Proc.devRef .tc main_arg2 : DevRef τ sig) := by
  after_results_simp

/-- After everything before the cut, the edge-weight column is one broadcast of the edge weights. -/
theorem v70_eq (V : Valuation τ sig (Elt F)) :
    after opsA V (Proc.devRef .tc main_v70 : DevRef τ sig) = broadcastInDim S900000x1 ![0] bcast_S900000_S900000x1_0 (after opsA V (Proc.devRef .tc main_v67 : DevRef τ sig)) := by
  rw [opsA_split, after_append, v70_step, v67_keep]

/-- After everything before the cut, the gather's index column is the source row wrapped into range, as a column. -/
theorem v76_eq (V : Valuation τ sig (Elt F)) :
    after opsA V (Proc.devRef .tc main_v76 : DevRef τ sig) = broadcastInDim S900000x1 ![0] bcast_S900000_S900000x1_0 (select (cmpi .slt (after opsA V (Proc.devRef .tc main_v39 : DevRef τ sig)) (broadcastInDim S900000 ![] bcast_S_S900000 (constantI S_ 32 0#32))) (addi (after opsA V (Proc.devRef .tc main_v39 : DevRef τ sig)) (broadcastInDim S900000 ![] bcast_S_S900000 (constantI S_ 32 50000#32))) (after opsA V (Proc.devRef .tc main_v39 : DevRef τ sig))) := by
  rw [opsA_split, after_append, v76_step, v39_keep]

/-- After everything before the cut, the scatter's index column is the target row as a column. -/
theorem v81_eq (V : Valuation τ sig (Elt F)) :
    after opsA V (Proc.devRef .tc main_v81 : DevRef τ sig) = broadcastInDim S900000x1 ![0] bcast_S900000_S900000x1_0 (after opsA V (Proc.devRef .tc main_v41 : DevRef τ sig)) := by
  rw [opsA_split, after_append, v81_step, v41_keep]

/-- After everything before the cut, the aggregate buffer: the scatter-add from zero, at the target column, of the
    weight column (broadcast along the features) times the projected rows gathered at the source column, plus the
    bias row. -/
theorem aggB_eq (V : Valuation τ sig (Elt F)) :
    after opsA V (Proc.devRef .tc main_v85 : DevRef τ sig) = addf (Host.scatterAdd scatter_S50000x128_S900000x1_S900000x128_1_0_0_1 (broadcastInDim S50000x128 ![] bcast_S_S50000x128 (constant S_ .f32 0x00000000#32)) (after opsA V (Proc.devRef .tc main_v81 : DevRef τ sig)) (mulf (broadcastInDim S900000x128 ![0, 1] bcast_S900000x1_S900000x128_0_1 (after opsA V (Proc.devRef .tc main_v70 : DevRef τ sig))) (Host.gather gather_S50000x128_S900000x1_S900000x128_1_0_n_n_0_1_1128 (Host.dotGeneral dot_S50000x128_S128x128_S50000x128_1_0_0_1_n_n none (V (Proc.devRef .tc main_arg0 : DevRef τ sig)) (transpose S128x128 [1, 0] (V (Proc.devRef .tc main_arg1 : DevRef τ sig)) transposes_S128x128_S128x128_1_0)) (after opsA V (Proc.devRef .tc main_v76 : DevRef τ sig))))) (broadcastInDim S50000x128 ![0, 1] bcast_S1x128_S50000x128_0_1 (broadcastInDim S1x128 ![1] bcast_S128_S1x128_1 (V (Proc.devRef .tc main_arg2 : DevRef τ sig)))) := by
  rw [v81_eq, v70_eq, v76_eq, opsA_split, after_append, v85_step, v67_keep, v39_keep, v41_keep, arg0_A1, arg1_A1, arg2_A1]

end Cert.ReferenceIdeal.HandRun

end
-- ==== Proof.RefRunEdge.lean ====
/-
  The two rows of the extended edge list, as the program leaves them before the cut, are the source and target rows
  of the edge list with both rounds of self-loops appended: the same compositions of concatenations, a slice and a
  reshape that the edge bookkeeping names `row2` and `col2`.
-/
import proofs.«143204_j18743237280519_2_alg».proof.Proof.RefRunOps
import proofs.«143204_j18743237280519_2_alg».proof.Proof.Edge

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]

set_option maxRecDepth 8192 in
/-- The source row of the 900000 edges. -/
theorem v39_eq (V : Valuation τ sig (Elt F)) :
    after opsA V (Proc.devRef .tc main_v39 : DevRef τ sig) = Cert.KernelIdeal.Edge.row2 (V (Proc.devRef .tc main_arg5 : DevRef τ sig)) := by
  after_results_simp
  rfl

set_option maxRecDepth 8192 in
/-- The target row of the 900000 edges. -/
theorem v41_eq (V : Valuation τ sig (Elt F)) :
    after opsA V (Proc.devRef .tc main_v41 : DevRef τ sig) = Cert.KernelIdeal.Edge.col2 (V (Proc.devRef .tc main_arg5 : DevRef τ sig)) := by
  after_results_simp
  rfl

end Cert.ReferenceIdeal.HandRun

end
-- ==== Proof.RefRunNorm.lean ====
/-
  The edge weights, as the program leaves them before the cut, are the symmetric normalisation of the edge
  bookkeeping: the product, per edge, of the guarded inverse square roots of the weighted degrees at its two ends and
  its second-round weight — the same composition of host operations, every shared value appearing at each of its uses.
-/
import proofs.«143204_j18743237280519_2_alg».proof.Proof.RefRunOps
import proofs.«143204_j18743237280519_2_alg».proof.Proof.Edge

noncomputable section

namespace Cert.ReferenceIdeal.HandRun

open Cert.ReferenceIdeal Cert.ReferenceIdeal.Facts₀ Idealize.ShloMosaic Idealize.ShloMosaic.TcCoe Idealize.SL.Sem Idealize.ShloMosaic.StableHlo

variable {F : FTy → Type} [FloatOps F]

attribute [local irreducible] Host.gather Host.scatterAdd concatenate extractStridedSlice in
set_option maxRecDepth 65536 in
set_option maxHeartbeats 8000000 in
/-- The symmetric-normalisation weight of each of the 900000 edges. -/
theorem v67_eq (V : Valuation τ sig (Elt F)) :
    after opsA V (Proc.devRef .tc main_v67 : DevRef τ sig) = Cert.KernelIdeal.Edge.norm (F := F) (V (Proc.devRef .tc main_arg5 : DevRef τ sig)) := by
  after_results_simp
  rfl

end Cert.ReferenceIdeal.HandRun

end
-- ==== Proof.RefRunTailApply.lean ====
/-
  The operations after the cut, read at an index on the extended reals.

  At the ideal values every operation is its textbook one.  A column sum from a zero initial value is the plain sum
  over the fifty thousand rows; the count is the real number fifty thousand, the zero correction subtracts nothing,
  and the divisor so obtained is positive, so the select keeps the quotient and never the not-a-number; a row
  broadcast down the rows reads the row at the index's column; a scalar broadcast reads the scalar; the comparison
  with zero and the select together are the two-branch rectifier.  So the result at an index is: the entry less its
  column's mean, times the inverse square root of the column's two-pass variance plus the guard, times the scale,
  plus the shift; rectified; plus the residual; rectified.
-/
import proofs.«143204_j18743237280519_2_alg».proof.Proof.RefRunTail
import proofs.«143204_j18743237280519_2_alg».proof.Proof.Stats
import Idealize.ShloMosaic.Lib.IdealHost
import Idealize.ShloMosaic.Lib.KernelVsHost
import Idealize.ShloMosaic.Lib.Pipeline.Value
import Idealize.ShloMosaic.PureOps.Ideal.Laws

noncomputable section

open scoped BigOperators

namespace Cert.ReferenceIdeal.HandRun

open Cert.ReferenceIdeal Cert.ReferenceIdeal.Facts₀ Idealize.ShloMosaic Idealize.ShloMosaic.ValueIdx

/-- A [128] vector broadcast to a [1,128] row and the row down the fifty thousand rows reads, at an index, the vector at
    the index's column. -/
theorem bcast_row_apply {α : Type} (v : S128.Idx → α) (i : S50000x128.Idx) :
    broadcastInDim S50000x128 ![0, 1] bcast_S1x128_S50000x128_0_1 (broadcastInDim S1x128 ![1] bcast_S128_S1x128_1 v) i
      = v (ix1 (i 1)) := by
  refine (congrArg (broadcastInDim S50000x128 ![0, 1] bcast_S1x128_S50000x128_0_1 (broadcastInDim S1x128 ![1] bcast_S128_S1x128_1 v))
    (eq_ix2 (n0 := 50000) (n1 := 128) i)).trans ?_
  refine (broadcastInDim_oneRow_apply (m := 50000) (n := 128) bcast_S1x128_S50000x128_0_1 _ (i 0) (i 1)).trans ?_
  refine broadcastInDim_apply ![1] bcast_S128_S1x128_1 v (ix2 (0 : Fin 1) (i 1)) (ix1 (i 1)) ?_
  intro a
  fin_cases a
  rfl

/-- A [128] vector broadcast to a [1,128] row reads, at (0, q), the vector at q. -/
theorem bcast_vec_row_apply {α : Type} (v : S128.Idx → α) (q : Fin 128) :
    broadcastInDim S1x128 ![1] bcast_S128_S1x128_1 v (ix2 (0 : Fin 1) q) = v (ix1 q) := by
  refine broadcastInDim_apply ![1] bcast_S128_S1x128_1 v (ix2 (0 : Fin 1) q) (ix1 q) ?_
  intro a
  fin_cases a
  rfl

/-- A [1,128] row broadcast down the fifty thousand rows reads, at an index, the row at the index's column. -/
theorem bcast_down_apply {α : Type} (y : S1x128.Idx → α) (i : S50000x128.Idx) :
    broadcastInDim S50000x128 ![0, 1] bcast_S1x128_S50000x128_0_1 y i = y (ix2 (0 : Fin 1) (i 1)) := by
  exact (congrArg (broadcastInDim S50000x128 ![0, 1] bcast_S1x128_S50000x128_0_1 y) (eq_ix2 (n0 := 50000) (n1 := 128) i)).trans
    (broadcastInDim_oneRow_apply (m := 50000) (n := 128) bcast_S1x128_S50000x128_0_1 y (i 0) (i 1))

/-- A [1,128] row broadcast down the fifty thousand rows reads, at (p, q), the row at (0, q). -/
theorem bcast_down_apply' {α : Type} (y : S1x128.Idx → α) (p : Fin 50000) (q : Fin 128) :
    broadcastInDim S50000x128 ![0, 1] bcast_S1x128_S50000x128_0_1 y (ix2 p q) = y (ix2 (0 : Fin 1) q) :=
  broadcastInDim_oneRow_apply (m := 50000) (n := 128) bcast_S1x128_S50000x128_0_1 y p q

/-- The column sums from a zero initial value, at column q: the plain sum over the rows. -/
theorem colSum_apply (B : S50000x128.Idx → EReal) (q : Fin 128) :
    Host.reduceAdd (F := Ideal) (φ := .f32) B (constant S_ .f32 0x00000000#32) reducesTo_S50000x128_S128_d0 h_S_ (ix1 q)
      = ∑ p : Fin 50000, B (ix2 p q) := by
  have hr : S50000x128.Reduces [0] S128 := by decide
  rw [hostReduceAdd_apply, Ideal.hostReduceAdd_single reducesTo_S50000x128_S128_d0 hr, constant_apply,
    Ideal.ofBits_zero_f32, zero_add]
  refine Finset.sum_congr rfl fun p _ => congrArg B ?_
  funext a
  fin_cases a <;> exact Fin.ext rfl

/-- The host's quotient at an index is the quotient of the entries. -/
theorem hostDivf_apply {s : Shape} (a b : FVec Ideal s .f32) (i : s.Idx) : Host.divf a b i = Ideal.div (a i) (b i) := rfl

/-- The host's inverse square root at an index is that of the entry. -/
theorem hostRsqrt_apply {s : Shape} (a : FVec Ideal s .f32) (i : s.Idx) : Host.rsqrt a i = Ideal.rsqrt (a i) := rfl

/-- The count's word is the specification's fifty thousand. -/
theorem fiftyK_word : Ideal.ofBits .f32 0x47435000#32 = Cert.Spec.fiftyK := rfl

/-- Fifty thousand less the converted integer zero is fifty thousand. -/
theorem count_sub_zero :
    subf (F := Ideal) (constant S_ .f32 0x47435000#32) (sitofp .f32 (constantI S_ 32 0#32)) ix0 = Cert.Spec.fiftyK := by
  rw [subf_apply, constant_apply, sitofp_apply]
  show Ideal.ofBits .f32 0x47435000#32 - ((((0#32 : BitVec 32).toInt : ℤ) : ℝ) : EReal) = _
  rw [fiftyK_word]
  simp

/-- The program's column mean at column q is the column's sum over fifty thousand. -/
theorem colMean_apply (B : S50000x128.Idx → EReal) (q : Fin 128) :
    colMean (F := Ideal) B (ix1 q) = Cert.Stats.colMean B q := by
  unfold colMean Cert.Stats.colMean
  rw [hostDivf_apply, colSum_apply, broadcastInDim_scalar_apply, constant_apply, fiftyK_word]

/-- The deviation from the variance function's own mean, at (p, q): the entry less the column's mean. -/
theorem dev_apply (B : S50000x128.Idx → EReal) (p : Fin 50000) (q : Fin 128) :
    (subf B (broadcastInDim S50000x128 ![0, 1] bcast_S1x128_S50000x128_0_1 (Host.divf (broadcastInDim S1x128 ![1] bcast_S128_S1x128_1 (Host.reduceAdd B (constant S_ .f32 0x00000000#32) reducesTo_S50000x128_S128_d0 h_S_)) (broadcastInDim S1x128 ![] bcast_S_S1x128 (constant S_ .f32 0x47435000#32)))) : FVec Ideal S50000x128 .f32) (ix2 p q)
      = B (ix2 p q) - Cert.Stats.colMean B q := by
  rw [subf_apply, bcast_down_apply', hostDivf_apply, bcast_vec_row_apply, colSum_apply, broadcastInDim_scalar_apply, constant_apply, fiftyK_word]
  rfl

set_option maxRecDepth 8192 in
/-- The program's column variance at column q is the two-pass variance of the column. -/
theorem colVar_apply (B : S50000x128.Idx → EReal) (q : Fin 128) :
    colVar (F := Ideal) B (ix1 q) = Cert.Stats.colVar B q := by
  unfold colVar Cert.Stats.colVar
  rw [select_apply]
  have hc : broadcastInDim S128 ![] bcast_S_S128 (cmpf (F := Ideal) .ogt (subf (constant S_ .f32 0x47435000#32) (sitofp .f32 (constantI S_ 32 0#32))) (constant S_ .f32 0x00000000#32)) (ix1 q) = 1#1 := by
    rw [broadcastInDim_scalar_apply, cmpf_apply, count_sub_zero, constant_apply, Ideal.ofBits_zero_f32]
    show BitVec.ofBool (decide ((0 : EReal) < Cert.Spec.fiftyK)) = 1#1
    rw [Cert.Stats.fiftyK_eq, decide_eq_true (by exact_mod_cast (by norm_num : (0 : ℝ) < 50000))]
    rfl
  rw [hc, select_one, hostDivf_apply, colSum_apply, broadcastInDim_scalar_apply, count_sub_zero]
  refine congrArg (fun s => Ideal.div s Cert.Spec.fiftyK) (Finset.sum_congr rfl fun p _ => ?_)
  rw [mulf_apply, dev_apply]

/-- The rectifier array at an index is the two-branch rectifier of the entry. -/
theorem lreluArr_apply (z : S50000x128.Idx → EReal) (i : S50000x128.Idx) :
    lreluArr (F := Ideal) z i = Cert.Stats.lreluGE (z i) := by
  unfold lreluArr Cert.Stats.lreluGE
  rw [select_apply, cmpf_apply, mulf_apply, broadcastInDim_scalar_apply, broadcastInDim_scalar_apply, constant_apply, constant_apply,
    Ideal.ofBits_zero_f32]
  show Scalar.select (BitVec.ofBool (decide ((0 : EReal) ≤ z i))) (z i) (Cert.Spec.tenth * z i) = _
  by_cases h : (0 : EReal) ≤ z i
  · rw [decide_eq_true h, if_pos h]; rfl
  · rw [decide_eq_false h, if_neg h]; rfl

/-- The normalised, scaled and shifted array at an index. -/
theorem normed_apply (B : S50000x128.Idx → EReal) (g be : S128.Idx → EReal) (i : S50000x128.Idx) :
    normed (F := Ideal) B g be i
      = (B i - Cert.Stats.colMean B (i 1)) * Ideal.rsqrt (Cert.Stats.colVar B (i 1) + Cert.Spec.eps) * g (ix1 (i 1)) + be (ix1 (i 1)) := by
  unfold normed
  rw [addf_apply, mulf_apply, mulf_apply, subf_apply, bcast_row_apply, bcast_row_apply, bcast_row_apply, bcast_row_apply]
  have hm := colMean_apply B (i 1)
  have hv := colVar_apply B (i 1)
  rw [hm, hostRsqrt_apply, addf_apply, hv, broadcastInDim_scalar_apply, constant_apply]
  rfl

/-- The operations after the cut, at an index: the specification's reference result. -/
theorem tail_apply (B x : S50000x128.Idx → EReal) (g be : S128.Idx → EReal) (i : S50000x128.Idx) :
    tail (F := Ideal) B x g be i = Cert.Stats.refOut B x g be i := by
  unfold tail Cert.Stats.refOut
  rw [lreluArr_apply, addf_apply, lreluArr_apply, normed_apply]

end Cert.ReferenceIdeal.HandRun

end
-- ==== Proof.RefDot.lean ====
/-
  The reference's linear layer at an index, over the extended reals.

  The host's dot_general of the node features [50000,128] with the transposed weight [128,128], contracting the
  features' columns against the weight's rows, has at entry (p, q) the sum over k of x(p,k) · wt(k,q): the contraction
  index of the product's record is one coordinate running over the 128 columns, the left operand is read at (p, k)
  and the right at (k, q).  That is the linear layer of the specification.
-/
import proofs.«143204_j18743237280519_2_alg».proof.ReferenceIdeal
import proofs.«143204_j18743237280519_2_alg».proof.Proof.Gen.ReferenceIdeal
import proofs.«143204_j18743237280519_2_alg».proof.Proof.Spec
import Idealize.ShloMosaic.Lib.ValueIdx
import Idealize.ShloMosaic.PureOps.Ideal.Laws

noncomputable section

open scoped BigOperators
open Idealize.ShloMosaic Idealize.ShloMosaic.ValueIdx

namespace Cert.ReferenceIdeal.Dot

open Cert.ReferenceIdeal Cert.ReferenceIdeal.Gen

/-- The contraction record of the reference's product. -/
abbrev RD : DotDims S50000x128 S128x128 S50000x128 := dot_S50000x128_S128x128_S50000x128_1_0_0_1_n_n

theorem lhs_row (i : S50000x128.Idx) (k : RD.contr.Idx) : (RD.lhsIdx i k 0).val = (i 0).val := by
  unfold DotDims.lhsIdx
  rw [dif_neg (show ¬(0 : Fin S50000x128.rank) ∈ RD.lhsBatch by decide), dif_pos (show (0 : Fin S50000x128.rank) ∈ RD.lhsNonContracting by decide)]
  rfl

theorem lhs_k (i : S50000x128.Idx) (k : RD.contr.Idx) : (RD.lhsIdx i k 1).val = (k ⟨0, by decide⟩).val :=
  RD.lhsIdx_val_of_single rfl i k

theorem rhs_k (i : S50000x128.Idx) (k : RD.contr.Idx) : (RD.rhsIdx i k 0).val = (k ⟨0, by decide⟩).val :=
  RD.rhsIdx_val_of_single rfl i k

theorem rhs_col (i : S50000x128.Idx) (k : RD.contr.Idx) : (RD.rhsIdx i k 1).val = (i 1).val := by
  unfold DotDims.rhsIdx
  rw [dif_neg (show ¬(1 : Fin S128x128.rank) ∈ RD.rhsBatch by decide), dif_pos (show (1 : Fin S128x128.rank) ∈ RD.rhsNonContracting by decide)]
  rfl

/-- The host's product is the specification's linear layer. -/
theorem dotGeneral_eq_lin (x : FVec Ideal S50000x128 .f32) (wt : FVec Ideal S128x128 .f32) :
    (Host.dotGeneral dot_S50000x128_S128x128_S50000x128_1_0_0_1_n_n none x wt : Cert.Spec.SN.Idx → EReal)
      = Cert.Spec.lin x wt := by
  funext i
  obtain ⟨p, q, rfl⟩ : ∃ (p : Fin 50000) (q : Fin 128), i = ix2 p q := ⟨i 0, i 1, eq_ix2 i⟩
  simp only [Host.dotGeneral]
  refine (Ideal.dotGeneral_apply RD none .single x wt (ix2 p q)).trans ?_
  unfold Cert.Spec.lin
  rw [← Equiv.sum_comp (contrEquiv1 RD 128 rfl rfl).symm]
  refine Finset.sum_congr rfl fun k _ => ?_
  have hk := contrEquiv1_symm_val RD 128 rfl rfl k
  have el : RD.lhsIdx (ix2 p q) ((contrEquiv1 RD 128 rfl rfl).symm k) = ix2 (Cert.Spec.row (ix2 p q)) k := funext fun a => Fin.ext (by
    match a with
    | ⟨0, _⟩ => exact lhs_row _ _
    | ⟨1, _⟩ => exact (lhs_k _ _).trans hk)
  have er : RD.rhsIdx (ix2 p q) ((contrEquiv1 RD 128 rfl rfl).symm k) = ix2 k (Cert.Spec.col (ix2 p q)) := funext fun a => Fin.ext (by
    match a with
    | ⟨0, _⟩ => exact (rhs_k _ _).trans hk
    | ⟨1, _⟩ => exact rhs_col _ _)
  rw [el, er]

end Cert.ReferenceIdeal.Dot

end
-- ==== Proof.RefValue.lean ====
/-
  The reference's result array, as one function of its launch memory, in the same words as the kernel's.

  The reference's shifted aggregate — the host's gather of the rows of x · Wᵀ at the source indices, scaled by the
  edges' normalisation, scatter-added at the target indices, plus the bias broadcast to every row — is the same
  function as the kernel's aggregate of the projected rows shifted by the keepdims bias row: the edge chain is the same
  chain, the host's dot_general is the projection, and a [128] vector broadcast to [1,128] and then to every row reads,
  at (p, q), its entry q, as the keepdims row does at (0, q).  The tail of the reference is its two-pass batch
  normalisation and the two leaky ReLUs, read at an index.
-/
import proofs.«143204_j18743237280519_2_alg».proof.Proof.RefRunTail
import proofs.«143204_j18743237280519_2_alg».proof.Proof.RefRunAggStep
import proofs.«143204_j18743237280519_2_alg».proof.Proof.RefRunEdge
import proofs.«143204_j18743237280519_2_alg».proof.Proof.RefRunNorm
import proofs.«143204_j18743237280519_2_alg».proof.Proof.RefRunTailApply
import proofs.«143204_j18743237280519_2_alg».proof.Proof.RefDot
import proofs.«143204_j18743237280519_2_alg».proof.Proof.KRows
import proofs.«143204_j18743237280519_2_alg».proof.Proof.KBridge
import Idealize.ShloMosaic.Lib.Pipeline.Value

noncomputable section

namespace Cert.ReferenceIdeal.HandRun

open Idealize.ShloMosaic Idealize.ShloMosaic.ValueIdx Idealize.ShloMosaic.StableHlo Idealize.SL.Sem
open Cert.ReferenceIdeal Cert.ReferenceIdeal.Facts₀

/-- A [128] vector placed as a [1,128] row and repeated along the rows, read at (p, q), is its entry q. -/
theorem rowBcast_apply (b : S128.Idx → EReal) (i : S50000x128.Idx) :
    (broadcastInDim S50000x128 ![0, 1] bcast_S1x128_S50000x128_0_1 (broadcastInDim S1x128 ![1] bcast_S128_S1x128_1 b) :
      S50000x128.Idx → EReal) i = b (ix1 (Cert.Spec.col i)) := by
  rw [broadcastInDim_apply (![0, 1]) bcast_S1x128_S50000x128_0_1 _ i (ix2 (0 : Fin 1) (Cert.Spec.col i))
      (fun a => by match a with | ⟨0, _⟩ => rfl | ⟨1, _⟩ => rfl),
    broadcastInDim_apply (![1]) bcast_S128_S1x128_1 _ (ix2 (0 : Fin 1) (Cert.Spec.col i)) (ix1 (Cert.Spec.col i))
      (fun a => by match a with | ⟨0, _⟩ => rfl)]

variable (V : Valuation τ sig (Elt Ideal))

/-- The reference's shifted aggregate is the kernel's aggregate of the projected rows, shifted by the keepdims bias. -/
theorem aggB_shifted : after opsA V (Proc.devRef .tc main_v85 : DevRef τ sig)
    = Cert.Spec.shifted
        (Cert.KernelIdeal.Gen.aggOf (V (Proc.devRef .tc main_arg5))
          (Cert.Spec.lin (V (Proc.devRef .tc main_arg0))
            (transpose S128x128 [1, 0] (V (Proc.devRef .tc main_arg1)) transposes_S128x128_S128x128_1_0)))
        (Cert.KernelIdeal.Bridge.kd (V (Proc.devRef .tc main_arg2))) := by
  rw [aggB_eq, v81_eq, v70_eq, v76_eq, v39_eq, v41_eq, v67_eq, Cert.ReferenceIdeal.Dot.dotGeneral_eq_lin]
  funext i
  rw [addf_apply, rowBcast_apply]
  unfold Cert.Spec.shifted
  rw [Cert.KernelIdeal.Bridge.kd_apply]
  rfl

/-- The reference's result, from any launch contents. -/
theorem ref_result : after (opsA ++ opsB) V (Proc.devRef .tc main_v107 : DevRef τ sig)
    = Cert.Stats.refOut
        (Cert.Spec.shifted
          (Cert.KernelIdeal.Gen.aggOf (V (Proc.devRef .tc main_arg5))
            (Cert.Spec.lin (V (Proc.devRef .tc main_arg0))
              (transpose S128x128 [1, 0] (V (Proc.devRef .tc main_arg1)) transposes_S128x128_S128x128_1_0)))
          (Cert.KernelIdeal.Bridge.kd (V (Proc.devRef .tc main_arg2))))
        (V (Proc.devRef .tc main_arg0)) (V (Proc.devRef .tc main_arg3)) (V (Proc.devRef .tc main_arg4)) := by
  rw [out_eq]
  funext i
  rw [tail_apply, aggB_shifted]

end Cert.ReferenceIdeal.HandRun

end
-- ==== Proof.lean ====
/-
  A graph-convolution layer with batch normalisation, two leaky ReLUs and a residual: the kernel against its reference,
  equal as extended reals under the precondition that the float inputs are finite.

  Both programs compute, on the host and from the edge list alone, the same symmetric normalisation of the twice
  self-looped graph.  The kernel projects the node features by the transposed weight in a first pipeline (a matrix product
  block by block, its roundings to a narrower format the identity on the extended reals), aggregates the projected rows
  over the edges on the host as the reference does, sums the columns of the bias-shifted aggregate and of its squares in a
  second pipeline that accumulates over the ten row blocks, and applies the normalisation, the activations and the
  residual in a third.  The reference adds the bias to the aggregate first and uses the two-pass variance.  The two
  agree because sums over the extended reals may be regrouped freely, the host's dot_general is the same sum of products as
  the matrix unit's, and for a column of REAL entries the streaming variance E[b²] − E[b]², clamped at zero, is the two-pass
  variance E[(b − E b)²]; the entries are real because the features, the weight and the bias are (the precondition) and
  the edge weights always are (a guarded inverse square root is real whatever the degree).  The two leaky ReLUs differ only
  in the branch taken at zero, where both give zero.  The ideal pass rewrote nothing, so there is nothing to preserve.
-/
import proofs.«143204_j18743237280519_2_alg».proof.Defs
import proofs.«143204_j18743237280519_2_alg».proof.Proof.Gen.Kernel
import proofs.«143204_j18743237280519_2_alg».proof.Proof.Gen.Kernel.Frame
import proofs.«143204_j18743237280519_2_alg».proof.Proof.Gen.KernelIdeal
import proofs.«143204_j18743237280519_2_alg».proof.Proof.Gen.KernelIdeal.Frame
import proofs.«143204_j18743237280519_2_alg».proof.Proof.Gen.ReferenceIdeal
import proofs.«143204_j18743237280519_2_alg».proof.Proof.Gen.Pre_finite_inputs
import proofs.«143204_j18743237280519_2_alg».proof.Proof.KRun
import proofs.«143204_j18743237280519_2_alg».proof.Proof.KFinal
import proofs.«143204_j18743237280519_2_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono
    (fun r h c => ⟨(h c _).trans (Cert.ReferenceIdeal.HandRun.arg0_all _), (h c _).trans (Cert.ReferenceIdeal.HandRun.arg1_all _),
      (h c _).trans (Cert.ReferenceIdeal.HandRun.arg2_all _), (h c _).trans (Cert.ReferenceIdeal.HandRun.arg3_all _),
      (h c _).trans (Cert.ReferenceIdeal.HandRun.arg4_all _), (h c _).trans (Cert.ReferenceIdeal.HandRun.arg5_all _)⟩)
    (Cert.ReferenceIdeal.HandRun.run_all (F := Ideal) m ρ)

/-- The two idealized programs end with the same result array. -/
theorem algebraic : Cert.algebraic_KernelIdeal_ReferenceIdeal := by
  intro m ρ m' ρ' hpre hagree
  refine ⟨fun c => Cert.KernelIdeal.Gen.W14 m ρ c (Proc.devRef .tc Cert.KernelIdeal.main_v99),
    Cert.KernelIdeal.Gen.run_result m ρ, ?_⟩
  refine (θ_run Cert.ReferenceIdeal.defs _ _).mono (fun r h c => ⟨?_, (h c _).trans (Cert.ReferenceIdeal.HandRun.arg0_all _),
      (h c _).trans (Cert.ReferenceIdeal.HandRun.arg1_all _), (h c _).trans (Cert.ReferenceIdeal.HandRun.arg2_all _),
      (h c _).trans (Cert.ReferenceIdeal.HandRun.arg3_all _), (h c _).trans (Cert.ReferenceIdeal.HandRun.arg4_all _),
      (h c _).trans (Cert.ReferenceIdeal.HandRun.arg5_all _)⟩)
    (Cert.ReferenceIdeal.HandRun.run_all (F := Ideal) m' ρ')
  obtain ⟨h0, h1, h2, h3, h4, h5⟩ := hagree c
  have e0 : StableHlo.launchContents m' c (Proc.devRef .tc Cert.ReferenceIdeal.main_arg0)
      = m ((c.tc : Thread Cert.KernelIdeal.nD Cert.KernelIdeal.τ).loc Cert.KernelIdeal.main_arg0) := h0
  have e1 : StableHlo.launchContents m' c (Proc.devRef .tc Cert.ReferenceIdeal.main_arg1)
      = m ((c.tc : Thread Cert.KernelIdeal.nD Cert.KernelIdeal.τ).loc Cert.KernelIdeal.main_arg1) := h1
  have e2 : StableHlo.launchContents m' c (Proc.devRef .tc Cert.ReferenceIdeal.main_arg2)
      = m ((c.tc : Thread Cert.KernelIdeal.nD Cert.KernelIdeal.τ).loc Cert.KernelIdeal.main_arg2) := h2
  have e3 : StableHlo.launchContents m' c (Proc.devRef .tc Cert.ReferenceIdeal.main_arg3)
      = m ((c.tc : Thread Cert.KernelIdeal.nD Cert.KernelIdeal.τ).loc Cert.KernelIdeal.main_arg3) := h3
  have e4 : StableHlo.launchContents m' c (Proc.devRef .tc Cert.ReferenceIdeal.main_arg4)
      = m ((c.tc : Thread Cert.KernelIdeal.nD Cert.KernelIdeal.τ).loc Cert.KernelIdeal.main_arg4) := h4
  have e5 : StableHlo.launchContents m' c (Proc.devRef .tc Cert.ReferenceIdeal.main_arg5)
      = m ((c.tc : Thread Cert.KernelIdeal.nD Cert.KernelIdeal.τ).loc Cert.KernelIdeal.main_arg5) := h5
  rw [h c Cert.ReferenceIdeal.main_v107, Cert.ReferenceIdeal.HandRun.ref_result, e0, e1, e2, e3, e4, e5]
  exact (Cert.KernelIdeal.Gen.kernel_result m ρ c (hpre c)).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
